-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_v33_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_v33_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v106) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S800000 : Shape := ⟨1, ![800000]⟩
abbrev S64x64 : Shape := ⟨2, ![64, 64]⟩
abbrev S64 : Shape := ⟨1, ![64]⟩
abbrev S192x64 : Shape := ⟨2, ![192, 64]⟩
abbrev S128x64 : Shape := ⟨2, ![128, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S192x64 : S_.BroadcastsInDim S192x64 (![] : Fin 0 → Fin S192x64.rank)
  reducesTo_S192x64_S_d0_1 : S192x64.ReducesTo [0, 1] S_
  bcast_S_S128x64 : S_.BroadcastsInDim S128x64 (![] : Fin 0 → Fin S128x64.rank)
  reducesTo_S128x64_S_d0_1 : S128x64.ReducesTo [0, 1] S_

variable [Facts]

def fn_part5 {F : FTy → Type} [FloatOps F] (main_arg20 : FVec F S64 .f32) (main_arg21 : FVec F S64 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg20
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64 .f32 := Host.absf main_arg21
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  main_v98

def fn_part4 {F : FTy → Type} [FloatOps F] (main_arg16 : FVec F S64x64 .f32) (main_arg17 : FVec F S64 .f32) (main_arg18 : FVec F S64 .f32) (main_arg19 : FVec F S64 .f32) (main_arg20 : FVec F S64 .f32) (main_arg21 : FVec F S64 .f32) (main_v63 : IVec S_ 1) (main_v67 : IVec S_ 1) : IVec S_ 1 :=
  let main_v68 : IVec S_ 1 := andi main_v63 main_v67
  let main_v69 : FVec F S64x64 .f32 := Host.absf main_arg16
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg20 main_arg21 main_v83 main_v84 main_cst_32

def fn_part3 {F : FTy → Type} [FloatOps F] (main_arg13 : FVec F S64 .f32) (main_arg14 : FVec F S192x64 .f32) (main_arg15 : FVec F S64 .f32) (main_arg16 : FVec F S64x64 .f32) (main_arg17 : FVec F S64 .f32) (main_arg18 : FVec F S64 .f32) (main_arg19 : FVec F S64 .f32) (main_arg20 : FVec F S64 .f32) (main_arg21 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S192x64 .f32 := Host.absf main_arg14
  let main_cst_22 : FVec F S_ .f32 := constant S_ .f32 0x7F800000#32
  let main_v60 : FVec F S192x64 .f32 := broadcastInDim S192x64 ![] bcast_S_S192x64 main_cst_22
  let main_v61 : IVec S192x64 1 := cmpf .olt main_v59 main_v60
  let main_c_23 : IVec S_ 1 := constantI S_ 1 1#1
  let main_v62 : IVec S_ 1 := (fun x v => Host.reduce IntOp.andi x v reducesTo_S192x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_arg18 main_arg19 main_arg20 main_arg21 main_v63 main_v67

def fn_part2 {F : FTy → Type} [FloatOps F] (main_arg9 : FVec F S64 .f32) (main_arg10 : FVec F S128x64 .f32) (main_arg11 : FVec F S64 .f32) (main_arg12 : FVec F S64x64 .f32) (main_arg13 : FVec F S64 .f32) (main_arg14 : FVec F S192x64 .f32) (main_arg15 : FVec F S64 .f32) (main_arg16 : FVec F S64x64 .f32) (main_arg17 : FVec F S64 .f32) (main_arg18 : FVec F S64 .f32) (main_arg19 : FVec F S64 .f32) (main_arg20 : FVec F S64 .f32) (main_arg21 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_arg14 main_arg15 main_arg16 main_arg17 main_arg18 main_arg19 main_arg20 main_arg21 main_v48 main_v49 main_v50

def fn_part1 {F : FTy → Type} [FloatOps F] (main_arg6 : FVec F S64x64 .f32) (main_arg7 : FVec F S64 .f32) (main_arg8 : FVec F S192x64 .f32) (main_arg9 : FVec F S64 .f32) (main_arg10 : FVec F S128x64 .f32) (main_arg11 : FVec F S64 .f32) (main_arg12 : FVec F S64x64 .f32) (main_arg13 : FVec F S64 .f32) (main_arg14 : FVec F S192x64 .f32) (main_arg15 : FVec F S64 .f32) (main_arg16 : FVec F S64x64 .f32) (main_arg17 : FVec F S64 .f32) (main_arg18 : FVec F S64 .f32) (main_arg19 : FVec F S64 .f32) (main_arg20 : FVec F S64 .f32) (main_arg21 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S192x64 .f32 := Host.absf main_arg8
  let main_cst_10 : FVec F S_ .f32 := constant S_ .f32 0x7F800000#32
  let main_v30 : FVec F S192x64 .f32 := broadcastInDim S192x64 ![] bcast_S_S192x64 main_cst_10
  let main_v31 : IVec S192x64 1 := cmpf .olt main_v29 main_v30
  let main_c_11 : IVec S_ 1 := constantI S_ 1 1#1
  let main_v32 : IVec S_ 1 := (fun x v => Host.reduce IntOp.andi x v reducesTo_S192x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_v33

def fn {F : FTy → Type} [FloatOps F] (main_arg0 : FVec F S50000x64 .f32) (main_arg1 : FVec F S800000x64 .f32) (main_arg2 : IVec S800000 32) (main_arg3 : IVec S800000 32) (main_arg4 : FVec F S64x64 .f32) (main_arg5 : FVec F S64 .f32) (main_arg6 : FVec F S64x64 .f32) (main_arg7 : FVec F S64 .f32) (main_arg8 : FVec F S192x64 .f32) (main_arg9 : FVec F S64 .f32) (main_arg10 : FVec F S128x64 .f32) (main_arg11 : FVec F S64 .f32) (main_arg12 : FVec F S64x64 .f32) (main_arg13 : FVec F S64 .f32) (main_arg14 : FVec F S192x64 .f32) (main_arg15 : FVec F S64 .f32) (main_arg16 : FVec F S64x64 .f32) (main_arg17 : FVec F S64 .f32) (main_arg18 : FVec F S64 .f32) (main_arg19 : FVec F S64 .f32) (main_arg20 : FVec F S64 .f32) (main_arg21 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S50000x64 : Shape := ⟨2, ![50000, 64]⟩
abbrev S800000x64 : Shape := ⟨2, ![800000, 64]⟩
abbrev S800000 : Shape := ⟨1, ![800000]⟩
abbrev S64x64 : Shape := ⟨2, ![64, 64]⟩
abbrev S64 : Shape := ⟨1, ![64]⟩
abbrev S192x64 : Shape := ⟨2, ![192, 64]⟩
abbrev S128x64 : Shape := ⟨2, ![128, 64]⟩
abbrev S_ : Shape := ⟨0, ![]⟩
abbrev S800000x1 : Shape := ⟨2, ![800000, 1]⟩
abbrev S1x64 : Shape := ⟨2, ![1, 64]⟩
abbrev S6400x64 : Shape := ⟨2, ![6400, 64]⟩
abbrev S6400 : Shape := ⟨1, ![6400]⟩
abbrev S6400x1 : Shape := ⟨2, ![6400, 1]⟩
abbrev S5000x64 : Shape := ⟨2, ![5000, 64]⟩
abbrev S5000 : Shape := ⟨1, ![5000]⟩
abbrev S5000x1 : Shape := ⟨2, ![5000, 1]⟩

abbrev nBuf : Space → Nat
  | .hbm => 66
  | .vmem => 39
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S800000, .i32⟩
  | .hbm, ⟨3, _⟩ => ⟨S800000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S192x64, .f32⟩
  | .hbm, ⟨9, _⟩ => ⟨S64, .f32⟩
  | .hbm, ⟨10, _⟩ => ⟨S128x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S192x64, .f32⟩
  | .hbm, ⟨15, _⟩ => ⟨S64, .f32⟩
  | .hbm, ⟨16, _⟩ => ⟨S64x64, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x64, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x64, .f32⟩
  | .hbm, ⟨40, _⟩ => ⟨S64x64, .f32⟩
  | .hbm, ⟨41, _⟩ => ⟨S64x64, .f32⟩
  | .hbm, ⟨42, _⟩ => ⟨S64x64, .f32⟩
  | .hbm, ⟨43, _⟩ => ⟨S64x64, .f32⟩
  | .hbm, ⟨44, _⟩ => ⟨S64x64, .f32⟩
  | .hbm, ⟨45, _⟩ => ⟨S64x64, .f32⟩
  | .hbm, ⟨46, _⟩ => ⟨S64x64, .f32⟩
  | .hbm, ⟨47, _⟩ => ⟨S64x64, .f32⟩
  | .hbm, ⟨48, _⟩ => ⟨S1x64, .f32⟩
  | .hbm, ⟨49, _⟩ => ⟨S1x64, .f32⟩
  | .hbm, ⟨50, _⟩ => ⟨S1x64, .f32⟩
  | .hbm, ⟨51, _⟩ => ⟨S1x64, .f32⟩
  | .hbm, ⟨52, _⟩ => ⟨S1x64, .f32⟩
  | .hbm, ⟨53, _⟩ => ⟨S1x64, .f32⟩
  | .hbm, ⟨54, _⟩ => ⟨S1x64, .f32⟩
  | .hbm, ⟨55, _⟩ => ⟨S1x64, .f32⟩
  | .hbm, ⟨56, _⟩ => ⟨S1x64, .f32⟩
  | .hbm, ⟨57, _⟩ => ⟨S1x64, .f32⟩
  | .hbm, ⟨58, _⟩ => ⟨S1x64, .f32⟩
  | .hbm, ⟨59, _⟩ => ⟨S800000x64, .f32⟩
  | .hbm, ⟨60, _⟩ => ⟨S800000x64, .f32⟩
  | .hbm, ⟨61, _⟩ => ⟨S_, .f32⟩
  | .hbm, ⟨62, _⟩ => ⟨S50000x64, .f32⟩
  | .hbm, ⟨63, _⟩ => ⟨S800000x1, .i32⟩
  | .hbm, ⟨64, _⟩ => ⟨S50000x64, .f32⟩
  | .hbm, ⟨65, _⟩ => ⟨S50000x64, .f32⟩
  | .local _ .vmem, ⟨0, _⟩ => ⟨S6400x64, .f32⟩
  | .local _ .vmem, ⟨1, _⟩ => ⟨S6400x64, .f32⟩
  | .local _ .vmem, ⟨2, _⟩ => ⟨S6400x64, .f32⟩
  | .local _ .vmem, ⟨3, _⟩ => ⟨S6400x64, .f32⟩
  | .local _ .vmem, ⟨4, _⟩ => ⟨S6400x64, .f32⟩
  | .local _ .vmem, ⟨5, _⟩ => ⟨S6400x64, .f32⟩
  | .local _ .vmem, ⟨6, _⟩ => ⟨S64x64, .f32⟩
  | .local _ .vmem, ⟨7, _⟩ => ⟨S64x64, .f32⟩
  | .local _ .vmem, ⟨8, _⟩ => ⟨S64x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S64x64, .f32⟩
  | .local _ .vmem, ⟨15, _⟩ => ⟨S64x64, .f32⟩
  | .local _ .vmem, ⟨16, _⟩ => ⟨S64x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S6400x64, .f32⟩
  | .local _ .vmem, ⟨23, _⟩ => ⟨S6400x64, .f32⟩
  | .local _ .vmem, ⟨24, _⟩ => ⟨S6400x64, .f32⟩
  | .local _ .vmem, ⟨25, _⟩ => ⟨S6400x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x64, .f32⟩
  | .local _ .vmem, ⟨31, _⟩ => ⟨S64x64, .f32⟩
  | .local _ .vmem, ⟨32, _⟩ => ⟨S1x64, .f32⟩
  | .local _ .vmem, ⟨33, _⟩ => ⟨S64x64, .f32⟩
  | .local _ .vmem, ⟨34, _⟩ => ⟨S1x64, .f32⟩
  | .local _ .vmem, ⟨35, _⟩ => ⟨S1x64, .f32⟩
  | .local _ .vmem, ⟨36, _⟩ => ⟨S1x64, .f32⟩
  | .local _ .vmem, ⟨37, _⟩ => ⟨S5000x64, .f32⟩
  | .local _ .vmem, ⟨38, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_v0 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_c_1 : Ref sig .tc := ⟨.hbm, 31, rfl⟩
abbrev main_v7 : Ref sig .tc := ⟨.hbm, 32, rfl⟩
abbrev main_v8 : Ref sig .tc := ⟨.hbm, 33, rfl⟩
abbrev main_c_2 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33_0 : Ref sig .tc := ⟨.hbm, 59, rfl⟩
abbrev main_v33_1 : Ref sig .tc := ⟨.hbm, 60, rfl⟩
abbrev main_cst : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc1_stg0_0 : Ref sig .tc := ⟨.vmem, 26, rfl⟩
abbrev cc1_stg0_1 : Ref sig .tc := ⟨.vmem, 27, rfl⟩
abbrev cc1_stg1_0 : Ref sig .tc := ⟨.vmem, 28, rfl⟩
abbrev cc1_stg1_1 : Ref sig .tc := ⟨.vmem, 29, rfl⟩
abbrev cc1_stg2_0 : Ref sig .tc := ⟨.vmem, 30, rfl⟩
abbrev cc1_stg3_0 : Ref sig .tc := ⟨.vmem, 31, rfl⟩
abbrev cc1_stg4_0 : Ref sig .tc := ⟨.vmem, 32, rfl⟩
abbrev cc1_stg5_0 : Ref sig .tc := ⟨.vmem, 33, rfl⟩
abbrev cc1_stg6_0 : Ref sig .tc := ⟨.vmem, 34, rfl⟩
abbrev cc1_stg7_0 : Ref sig .tc := ⟨.vmem, 35, rfl⟩
abbrev cc1_stg8_0 : Ref sig .tc := ⟨.vmem, 36, rfl⟩
abbrev cc1_stg9_0 : Ref sig .tc := ⟨.vmem, 37, rfl⟩
abbrev cc1_stg9_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem19_1 : DmaSem sig := 23
abbrev cc0_sem20_0 : DmaSem sig := 24
abbrev cc0_sem20_1 : DmaSem sig := 25
abbrev cc1_sem0_0 : DmaSem sig := 26
abbrev cc1_sem0_1 : DmaSem sig := 27
abbrev cc1_sem1_0 : DmaSem sig := 28
abbrev cc1_sem1_1 : DmaSem sig := 29
abbrev cc1_sem2_0 : DmaSem sig := 30
abbrev cc1_sem3_0 : DmaSem sig := 31
abbrev cc1_sem4_0 : DmaSem sig := 32
abbrev cc1_sem5_0 : DmaSem sig := 33
abbrev cc1_sem6_0 : DmaSem sig := 34
abbrev cc1_sem7_0 : DmaSem sig := 35
abbrev cc1_sem8_0 : DmaSem sig := 36
abbrev cc1_sem9_0 : DmaSem sig := 37
abbrev cc1_sem9_1 : DmaSem sig := 38

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S6400x64 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S6400x64 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  slices_S192x64_S64x64_0_0 : S192x64.Slices ![0, 0] S64x64
  slices_S192x64_S64x64_64_0 : S192x64.Slices ![64, 0] S64x64
  slices_S192x64_S64x64_128_0 : S192x64.Slices ![128, 0] S64x64
  slices_S128x64_S64x64_0_0 : S128x64.Slices ![0, 0] S64x64
  slices_S128x64_S64x64_64_0 : S128x64.Slices ![64, 0] S64x64
  shapeCasts_S64_S1x64 : S64.ShapeCasts S1x64
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  bitsLt_bf16_f32 : FTy.bits .bf16 < FTy.bits .f32
  broadcasts_S1x64_S6400x64 : S1x64.Broadcasts S6400x64
  reduces_S6400x64_S6400 : S6400x64.Reduces [1] S6400
  shapeCasts_S6400_S6400x1 : S6400.ShapeCasts S6400x1
  broadcasts_S6400x1_S6400x64 : S6400x1.Broadcasts S6400x64
  bcast_S_S50000x64 : S_.BroadcastsInDim S50000x64 (![] : Fin 0 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  gather_S50000x64_S800000x1_S800000x64_1_0_n_n_0_1_164_wf : GatherDims.WF S50000x64 S800000x1 S800000x64 [1] [0] [] [0] [] 1 ![1, 64]
  dot_S6400x64_S64x64_S6400x64_1_0_0_1_n_n_wf : DotDims.WF S6400x64 S64x64 S6400x64 [1] [0] [0] [1] [] []
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x64.size a ≤ S800000x64.size a
  hwx0_0 : ∀ i : grid0.Coords, EltTy.bits .f32 = 32 ∨ (Rect.block (s := S800000x64) S6400x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x64.size a ≤ S800000x64.size a
  hwx0_1 : ∀ i : grid0.Coords, EltTy.bits .f32 = 32 ∨ (Rect.block (s := S800000x64) S6400x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x64.size a ≤ S800000x64.size a
  hwx0_2 : ∀ i : grid0.Coords, EltTy.bits .f32 = 32 ∨ (Rect.block (s := S800000x64) S6400x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .f32 = 32 ∨ (Rect.block (s := S64x64) S64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x64.size a ≤ S64x64.size a
  hwx0_11 : ∀ i : grid0.Coords, EltTy.bits .f32 = 32 ∨ (Rect.block (s := S64x64) S64x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64x64.size a ≤ S64x64.size a
  hwx0_12 : ∀ i : grid0.Coords, EltTy.bits .f32 = 32 ∨ (Rect.block (s := S64x64) S64x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64x64.size a ≤ S64x64.size a
  hwx0_13 : ∀ i : grid0.Coords, EltTy.bits .f32 = 32 ∨ (Rect.block (s := S64x64) S64x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x64.size a ≤ S1x64.size a
  hwx0_14 : ∀ i : grid0.Coords, EltTy.bits .f32 = 32 ∨ (Rect.block (s := S1x64) S1x64.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S64x64.size a ≤ S64x64.size a
  hwx0_15 : ∀ i : grid0.Coords, EltTy.bits .f32 = 32 ∨ (Rect.block (s := S64x64) S64x64.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x64.size a ≤ S1x64.size a
  hwx0_16 : ∀ i : grid0.Coords, EltTy.bits .f32 = 32 ∨ (Rect.block (s := S1x64) S1x64.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x64.size a ≤ S1x64.size a
  hwx0_17 : ∀ i : grid0.Coords, EltTy.bits .f32 = 32 ∨ (Rect.block (s := S1x64) S1x64.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x64.size a ≤ S1x64.size a
  hwx0_18 : ∀ i : grid0.Coords, EltTy.bits .f32 = 32 ∨ (Rect.block (s := S1x64) S1x64.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S6400x64.size a ≤ S800000x64.size a
  hwx0_19 : ∀ i : grid0.Coords, EltTy.bits .f32 = 32 ∨ (Rect.block (s := S800000x64) S6400x64.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S6400x64.size a ≤ S800000x64.size a
  hwx0_20 : ∀ i : grid0.Coords, EltTy.bits .f32 = 32 ∨ (Rect.block (s := S800000x64) S6400x64.size (cc0_transform_20 i) (hinb0_20 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x64.size a ≤ S50000x64.size a
  hwx1_9 : ∀ i : grid1.Coords, EltTy.bits .f32 = 32 ∨ (Rect.block (s := S50000x64) S5000x64.size (cc1_transform_9 i) (hinb1_9 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S6400x64_S64x64_S6400x64_1_0_0_1_n_n : DotDims S6400x64 S64x64 S6400x64 where
  lhsContracting := [1]
  rhsContracting := [0]
  lhsNonContracting := [0]
  rhsNonContracting := [1]
  lhsBatch := []
  rhsBatch := []
  wf := dot_S6400x64_S64x64_S6400x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v6) S6400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S6400x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S6400x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v23) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg6) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v24) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v17) S64x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v18) S64x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v19) S64x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v25) S1x64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg16) S64x64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v26) S1x64.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v29) S1x64.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v30) S1x64.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v33_0) S6400x64.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v33_1) S6400x64.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v31) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v32) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v37) S5000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S800000 : Shape := ⟨1, ![800000]⟩
abbrev S64x64 : Shape := ⟨2, ![64, 64]⟩
abbrev S64 : Shape := ⟨1, ![64]⟩
abbrev S192x64 : Shape := ⟨2, ![192, 64]⟩
abbrev S128x64 : Shape := ⟨2, ![128, 64]⟩
abbrev S_ : Shape := ⟨0, ![]⟩
abbrev S800000x1 : Shape := ⟨2, ![800000, 1]⟩
abbrev S800000x192 : Shape := ⟨2, ![800000, 192]⟩
abbrev S1x64 : Shape := ⟨2, ![1, 64]⟩
abbrev S50000x128 : Shape := ⟨2, ![50000, 128]⟩
abbrev S50000 : Shape := ⟨1, ![50000]⟩
abbrev S50000x1 : Shape := ⟨2, ![50000, 1]⟩

abbrev nBuf : Space → Nat
  | .hbm => 162
  | .vmem => 0
  | .smem => 0
  | _ => 0

abbrev hbmTy0_0 (i : Nat) : BufTy := match i % 128 with
  | 0 => ⟨S50000x64, .f32⟩
  | 1 => ⟨S800000x64, .f32⟩
  | 2 => ⟨S800000, .i32⟩
  | 3 => ⟨S800000, .i32⟩
  | 4 => ⟨S64x64, .f32⟩
  | 5 => ⟨S64, .f32⟩
  | 6 => ⟨S64x64, .f32⟩
  | 7 => ⟨S64, .f32⟩
  | 8 => ⟨S192x64, .f32⟩
  | 9 => ⟨S64, .f32⟩
  | 10 => ⟨S128x64, .f32⟩
  | 11 => ⟨S64, .f32⟩
  | 12 => ⟨S64x64, .f32⟩
  | 13 => ⟨S64, .f32⟩
  | 14 => ⟨S192x64, .f32⟩
  | 15 => ⟨S64, .f32⟩
  | 16 => ⟨S64x64, .f32⟩
  | 17 => ⟨S64, .f32⟩
  | 18 => ⟨S64, .f32⟩
  | 19 => ⟨S64, .f32⟩
  | 20 => ⟨S64, .f32⟩
  | 21 => ⟨S64, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x64, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x64, .f32⟩
  | 40 => ⟨S800000x192, .f32⟩
  | 41 => ⟨S800000x64, .f32⟩
  | 42 => ⟨S1x64, .f32⟩
  | 43 => ⟨S800000x64, .f32⟩
  | 44 => ⟨S800000x64, .f32⟩
  | 45 => ⟨S800000x64, .f32⟩
  | 46 => ⟨S800000x64, .f32⟩
  | 47 => ⟨S_, .f32⟩
  | 48 => ⟨S800000x64, .f32⟩
  | 49 => ⟨S800000x64, .f32⟩
  | 50 => ⟨S_, .f32⟩
  | 51 => ⟨S800000x64, .f32⟩
  | 52 => ⟨S800000x64, .f32⟩
  | 53 => ⟨S800000x64, .f32⟩
  | 54 => ⟨S1x64, .f32⟩
  | 55 => ⟨S800000x64, .f32⟩
  | 56 => ⟨S800000x64, .f32⟩
  | 57 => ⟨S800000x64, .f32⟩
  | 58 => ⟨S800000x64, .f32⟩
  | 59 => ⟨S1x64, .f32⟩
  | 60 => ⟨S800000x64, .f32⟩
  | 61 => ⟨S800000x64, .f32⟩
  | 62 => ⟨S800000x64, .f32⟩
  | 63 => ⟨S800000x64, .f32⟩
  | 64 => ⟨S1x64, .f32⟩
  | 65 => ⟨S800000x64, .f32⟩
  | 66 => ⟨S800000x64, .f32⟩
  | 67 => ⟨S800000x64, .f32⟩
  | 68 => ⟨S800000x64, .f32⟩
  | 69 => ⟨S_, .f32⟩
  | 70 => ⟨S800000x64, .f32⟩
  | 71 => ⟨S800000x64, .f32⟩
  | 72 => ⟨S_, .f32⟩
  | 73 => ⟨S800000x64, .f32⟩
  | 74 => ⟨S800000x64, .f32⟩
  | 75 => ⟨S800000x64, .f32⟩
  | 76 => ⟨S800000x64, .f32⟩
  | 77 => ⟨S1x64, .f32⟩
  | 78 => ⟨S800000x64, .f32⟩
  | 79 => ⟨S800000x64, .f32⟩
  | 80 => ⟨S_, .f32⟩
  | 81 => ⟨S50000x64, .f32⟩
  | 82 => ⟨S800000x1, .i32⟩
  | 83 => ⟨S50000x64, .f32⟩
  | 84 => ⟨S50000x128, .f32⟩
  | 85 => ⟨S50000x64, .f32⟩
  | 86 => ⟨S1x64, .f32⟩
  | 87 => ⟨S50000x64, .f32⟩
  | 88 => ⟨S50000x64, .f32⟩
  | 89 => ⟨S50000x64, .f32⟩
  | 90 => ⟨S50000x64, .f32⟩
  | 91 => ⟨S_, .f32⟩
  | 92 => ⟨S50000x64, .f32⟩
  | 93 => ⟨S50000x64, .f32⟩
  | 94 => ⟨S_, .f32⟩
  | 95 => ⟨S50000x64, .f32⟩
  | 96 => ⟨S50000x64, .f32⟩
  | 97 => ⟨S50000x64, .f32⟩
  | 98 => ⟨S50000x64, .f32⟩
  | 99 => ⟨S1x64, .f32⟩
  | 100 => ⟨S50000x64, .f32⟩
  | 101 => ⟨S50000x64, .f32⟩
  | 102 => ⟨S50000x64, .f32⟩
  | 103 => ⟨S_, .f32⟩
  | 104 => ⟨S50000, .f32⟩
  | 105 => ⟨S50000x1, .f32⟩
  | 106 => ⟨S_, .f32⟩
  | 107 => ⟨S50000x1, .f32⟩
  | 108 => ⟨S50000x1, .f32⟩
  | 109 => ⟨S50000x64, .f32⟩
  | 110 => ⟨S50000x64, .f32⟩
  | 111 => ⟨S50000x64, .f32⟩
  | 112 => ⟨S_, .f32⟩
  | 113 => ⟨S50000, .f32⟩
  | 114 => ⟨S50000x1, .f32⟩
  | 115 => ⟨S_, .f32⟩
  | 116 => ⟨S50000x1, .f32⟩
  | 117 => ⟨S50000x1, .f32⟩
  | 118 => ⟨S50000x64, .f32⟩
  | 119 => ⟨S50000x64, .f32⟩
  | 120 => ⟨S_, .f32⟩
  | 121 => ⟨S50000x1, .f32⟩
  | 122 => ⟨S50000x1, .f32⟩
  | 123 => ⟨S50000x1, .f32⟩
  | 124 => ⟨S50000x64, .f32⟩
  | 125 => ⟨S50000x64, .f32⟩
  | 126 => ⟨S1x64, .f32⟩
  | 127 => ⟨S50000x64, .f32⟩
  | _ => ⟨S50000x64, .f32⟩

abbrev hbmTy0_1 (i : Nat) : BufTy := match i % 128 with
  | 0 => ⟨S50000x64, .f32⟩
  | 1 => ⟨S1x64, .f32⟩
  | 2 => ⟨S50000x64, .f32⟩
  | 3 => ⟨S50000x64, .f32⟩
  | 4 => ⟨S800000x64, .f32⟩
  | 5 => ⟨S_, .f32⟩
  | 6 => ⟨S800000, .f32⟩
  | 7 => ⟨S800000x1, .f32⟩
  | 8 => ⟨S_, .f32⟩
  | 9 => ⟨S800000x1, .f32⟩
  | 10 => ⟨S800000x1, .f32⟩
  | 11 => ⟨S800000x64, .f32⟩
  | 12 => ⟨S800000x64, .f32⟩
  | 13 => ⟨S800000x64, .f32⟩
  | 14 => ⟨S_, .f32⟩
  | 15 => ⟨S800000, .f32⟩
  | 16 => ⟨S800000x1, .f32⟩
  | 17 => ⟨S_, .f32⟩
  | 18 => ⟨S800000x1, .f32⟩
  | 19 => ⟨S800000x1, .f32⟩
  | 20 => ⟨S800000x64, .f32⟩
  | 21 => ⟨S800000x64, .f32⟩
  | 22 => ⟨S_, .f32⟩
  | 23 => ⟨S800000x1, .f32⟩
  | 24 => ⟨S800000x1, .f32⟩
  | 25 => ⟨S800000x1, .f32⟩
  | 26 => ⟨S800000x64, .f32⟩
  | 27 => ⟨S800000x64, .f32⟩
  | 28 => ⟨S1x64, .f32⟩
  | 29 => ⟨S800000x64, .f32⟩
  | 30 => ⟨S800000x64, .f32⟩
  | 31 => ⟨S1x64, .f32⟩
  | 32 => ⟨S800000x64, .f32⟩
  | 33 => ⟨S800000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_v0 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_c_1 : Ref sig .tc := ⟨.hbm, 31, rfl⟩
abbrev main_v7 : Ref sig .tc := ⟨.hbm, 32, rfl⟩
abbrev main_v8 : Ref sig .tc := ⟨.hbm, 33, rfl⟩
abbrev main_c_2 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst : Ref sig .tc := ⟨.hbm, 47, rfl⟩
abbrev main_v21 : Ref sig .tc := ⟨.hbm, 48, rfl⟩
abbrev main_v22 : Ref sig .tc := ⟨.hbm, 49, rfl⟩
abbrev main_cst_3 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_call0_v0 : Ref sig .tc := ⟨.hbm, 67, rfl⟩
abbrev main_call0_v1 : Ref sig .tc := ⟨.hbm, 68, rfl⟩
abbrev main_call0_cst : Ref sig .tc := ⟨.hbm, 69, rfl⟩
abbrev main_call0_v2 : Ref sig .tc := ⟨.hbm, 70, rfl⟩
abbrev main_call0_v3 : Ref sig .tc := ⟨.hbm, 71, rfl⟩
abbrev main_call0_cst_0 : Ref sig .tc := ⟨.hbm, 72, rfl⟩
abbrev main_call0_v4 : Ref sig .tc := ⟨.hbm, 73, rfl⟩
abbrev main_call0_v5 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_cst_4 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_call1_v0 : Ref sig .tc := ⟨.hbm, 89, rfl⟩
abbrev main_call1_v1 : Ref sig .tc := ⟨.hbm, 90, rfl⟩
abbrev main_call1_cst : Ref sig .tc := ⟨.hbm, 91, rfl⟩
abbrev main_call1_v2 : Ref sig .tc := ⟨.hbm, 92, rfl⟩
abbrev main_call1_v3 : Ref sig .tc := ⟨.hbm, 93, rfl⟩
abbrev main_call1_cst_0 : Ref sig .tc := ⟨.hbm, 94, rfl⟩
abbrev main_call1_v4 : Ref sig .tc := ⟨.hbm, 95, rfl⟩
abbrev main_call1_v5 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_cst_5 : Ref sig .tc := ⟨.hbm, 103, rfl⟩
abbrev main_v58 : Ref sig .tc := ⟨.hbm, 104, rfl⟩
abbrev main_v59 : Ref sig .tc := ⟨.hbm, 105, rfl⟩
abbrev main_cst_6 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_cst_7 : Ref sig .tc := ⟨.hbm, 112, rfl⟩
abbrev main_v65 : Ref sig .tc := ⟨.hbm, 113, rfl⟩
abbrev main_v66 : Ref sig .tc := ⟨.hbm, 114, rfl⟩
abbrev main_cst_8 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_cst_9 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_cst_10 : Ref sig .tc := ⟨.hbm, 133, rfl⟩
abbrev main_v83 : Ref sig .tc := ⟨.hbm, 134, rfl⟩
abbrev main_v84 : Ref sig .tc := ⟨.hbm, 135, rfl⟩
abbrev main_cst_11 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_cst_12 : Ref sig .tc := ⟨.hbm, 142, rfl⟩
abbrev main_v90 : Ref sig .tc := ⟨.hbm, 143, rfl⟩
abbrev main_v91 : Ref sig .tc := ⟨.hbm, 144, rfl⟩
abbrev main_cst_13 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_cst_14 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x64_S800000x192_d1 : Shape.Concatenates [S800000x64, S800000x64, S800000x64] S800000x192 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  concatenates_S50000x64_S50000x64_S50000x128_d1 : Shape.Concatenates [S50000x64, S50000x64] S50000x128 1
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  reducesTo_S800000x64_S800000_d1 : S800000x64.ReducesTo [1] S800000
  bcast_S_S800000x1 : S_.BroadcastsInDim S800000x1 (![] : Fin 0 → Fin S800000x1.rank)
  bcast_S800000x1_S800000x64_0_1 : S800000x1.BroadcastsInDim S800000x64 (![0, 1] : Fin 2 → Fin S800000x64.rank)
  gather_S50000x64_S800000x1_S800000x64_1_0_n_n_0_1_164_wf : GatherDims.WF S50000x64 S800000x1 S800000x64 [1] [0] [] [0] [] 1 ![1, 64]
  dot_S800000x192_S192x64_S800000x64_1_0_0_1_n_n_wf : DotDims.WF S800000x192 S192x64 S800000x64 [1] [0] [0] [1] [] []
  dot_S800000x64_S64x64_S800000x64_1_0_0_1_n_n_wf : DotDims.WF S800000x64 S64x64 S800000x64 [1] [0] [0] [1] [] []
  scatter_S50000x64_S800000x1_S800000x64_1_0_0_1_wf : ScatterDims.WF S50000x64 S800000x1 S800000x64 [1] [0] [0] 1
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x192_S192x64_S800000x64_1_0_0_1_n_n : DotDims S800000x192 S192x64 S800000x64 where
  lhsContracting := [1]
  rhsContracting := [0]
  lhsNonContracting := [0]
  rhsNonContracting := [1]
  lhsBatch := []
  rhsBatch := []
  wf := dot_S800000x192_S192x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KernelRun.lean ====
/-
  The idealized kernel program's run, with its two results named.

  The program is four stretches in a row: host operations (two row gathers, the row slices of the stacked weights, the
  biases as one-row matrices), the edge region, host operations (the scatter-add of the messages by destination), the
  node region. Every weakly fair execution ends with each buffer at the last boundary's contents `W4`: the fold of the
  stretches over the launch memory. Here that is stated for the two result buffers (the updated nodes, written by the
  node region, and the updated edges, written by the edge region) beside the unchanged arguments.
-/
import proofs.«172656_j21157008900637_1_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the two result buffers at the last
    boundary's contents and the arguments as launched. -/
theorem run : θ_run defs (onTc (τ := τ) (main (F := F))) ⟨m, fun _ => 0, ρ⟩ (fun r => ∀ c : Dev nD,
      r.2.mem ((c.tc : Thread nD τ).loc main_v37) = W4 m ρ c (Proc.devRef .tc main_v37)
      ∧ r.2.mem ((c.tc : Thread nD τ).loc main_v33_1) = W4 m ρ c (Proc.devRef .tc main_v33_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v37 (by decide)),
       h c _ (mem_uc main_v33_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c),
       (h c _ (mem_uc main_arg16 (by decide))).trans (W4_main_arg16 m ρ c),
       (h c _ (mem_uc main_arg17 (by decide))).trans (W4_main_arg17 m ρ c),
       (h c _ (mem_uc main_arg18 (by decide))).trans (W4_main_arg18 m ρ c),
       (h c _ (mem_uc main_arg19 (by decide))).trans (W4_main_arg19 m ρ c),
       (h c _ (mem_uc main_arg20 (by decide))).trans (W4_main_arg20 m ρ c),
       (h c _ (mem_uc main_arg21 (by decide))).trans (W4_main_arg21 m ρ c)⟩)

end Cert.KernelIdeal.Results

end
-- ==== Proof.KernelHost.lean ====
/-
  What the host stretches of the idealized kernel program leave in the buffers the two regions read.

  Before the edge region: the source and destination rows gathered from the node features, the three 64-row slices of
  each of the two stacked 192×64 weights and the two of the stacked 128×64 weight, and every bias as a one-row matrix;
  the other operands are arguments, untouched. Between the regions: the messages scattered and added by destination
  into a zero array. Each is the host operation's own function of the launch memory, read off the fold of the stretch.
-/
import proofs.«172656_j21157008900637_1_alg».proof.Proof.Gen.KernelIdeal.Frame
import proofs.«172656_j21157008900637_1_alg».proof.Proof.Gen.ReferenceIdeal.Read
import Idealize.ShloMosaic.Lib.StableHlo.Run

set_option maxRecDepth 16384

noncomputable section

namespace Cert.KernelIdeal.HostFolds

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Before the edge region -/

/-- The gathered source rows: the reference's own gather of the node features by the source indices. -/
theorem entry0_v6 (c : Dev nD) :
    V1 m ρ c main_v6 = Cert.ReferenceIdeal.Read.val_main_v6 (F := Ideal) (m ((c : Thread nD τ).loc main_arg0)) (m ((c : Thread nD τ).loc main_arg2)) := by
  show StableHlo.after hostOps0 (W0 m ρ c) (Proc.devRef .tc main_v6) = _
  after_results
  rfl

set_option maxHeartbeats 4000000 in
/-- The gathered destination rows. -/
theorem entry0_v13 (c : Dev nD) :
    V1 m ρ c main_v13 = Cert.ReferenceIdeal.Read.val_main_v13 (F := Ideal) (m ((c : Thread nD τ).loc main_arg0)) (m ((c : Thread nD τ).loc main_arg3)) := by
  show StableHlo.after hostOps0 (W0 m ρ c) (Proc.devRef .tc main_v13) = _
  after_results
  rfl

/-- An argument no host operation writes. -/
theorem entry0_main_arg0 (c : Dev nD) : V1 m ρ c main_arg0 = m ((c : Thread nD τ).loc main_arg0) := by
  show StableHlo.after hostOps0 (W0 m ρ c) (Proc.devRef .tc main_arg0) = _
  after_results

/-- An argument no host operation writes. -/
theorem entry0_main_arg1 (c : Dev nD) : V1 m ρ c main_arg1 = m ((c : Thread nD τ).loc main_arg1) := by
  show StableHlo.after hostOps0 (W0 m ρ c) (Proc.devRef .tc main_arg1) = _
  after_results

/-- An argument no host operation writes. -/
theorem entry0_main_arg3 (c : Dev nD) : V1 m ρ c main_arg3 = m ((c : Thread nD τ).loc main_arg3) := by
  show StableHlo.after hostOps0 (W0 m ρ c) (Proc.devRef .tc main_arg3) = _
  after_results

/-- An argument no host operation writes. -/
theorem entry0_main_arg4 (c : Dev nD) : V1 m ρ c main_arg4 = m ((c : Thread nD τ).loc main_arg4) := by
  show StableHlo.after hostOps0 (W0 m ρ c) (Proc.devRef .tc main_arg4) = _
  after_results

/-- An argument no host operation writes. -/
theorem entry0_main_arg6 (c : Dev nD) : V1 m ρ c main_arg6 = m ((c : Thread nD τ).loc main_arg6) := by
  show StableHlo.after hostOps0 (W0 m ρ c) (Proc.devRef .tc main_arg6) = _
  after_results

/-- An argument no host operation writes. -/
theorem entry0_main_arg12 (c : Dev nD) : V1 m ρ c main_arg12 = m ((c : Thread nD τ).loc main_arg12) := by
  show StableHlo.after hostOps0 (W0 m ρ c) (Proc.devRef .tc main_arg12) = _
  after_results

/-- An argument no host operation writes. -/
theorem entry0_main_arg16 (c : Dev nD) : V1 m ρ c main_arg16 = m ((c : Thread nD τ).loc main_arg16) := by
  show StableHlo.after hostOps0 (W0 m ρ c) (Proc.devRef .tc main_arg16) = _
  after_results

/-- Sixty-four consecutive rows of a stacked weight. -/
theorem entry0_main_v14 (c : Dev nD) : V1 m ρ c main_v14 = extractStridedSlice S64x64 ![0, 0] (m ((c : Thread nD τ).loc main_arg8)) slices_S192x64_S64x64_0_0 := by
  show StableHlo.after hostOps0 (W0 m ρ c) (Proc.devRef .tc main_v14) = _
  after_results

/-- Sixty-four consecutive rows of a stacked weight. -/
theorem entry0_main_v15 (c : Dev nD) : V1 m ρ c main_v15 = extractStridedSlice S64x64 ![64, 0] (m ((c : Thread nD τ).loc main_arg8)) slices_S192x64_S64x64_64_0 := by
  show StableHlo.after hostOps0 (W0 m ρ c) (Proc.devRef .tc main_v15) = _
  after_results

/-- Sixty-four consecutive rows of a stacked weight. -/
theorem entry0_main_v16 (c : Dev nD) : V1 m ρ c main_v16 = extractStridedSlice S64x64 ![128, 0] (m ((c : Thread nD τ).loc main_arg8)) slices_S192x64_S64x64_128_0 := by
  show StableHlo.after hostOps0 (W0 m ρ c) (Proc.devRef .tc main_v16) = _
  after_results

/-- Sixty-four consecutive rows of a stacked weight. -/
theorem entry0_main_v17 (c : Dev nD) : V1 m ρ c main_v17 = extractStridedSlice S64x64 ![0, 0] (m ((c : Thread nD τ).loc main_arg14)) slices_S192x64_S64x64_0_0 := by
  show StableHlo.after hostOps0 (W0 m ρ c) (Proc.devRef .tc main_v17) = _
  after_results

/-- Sixty-four consecutive rows of a stacked weight. -/
theorem entry0_main_v18 (c : Dev nD) : V1 m ρ c main_v18 = extractStridedSlice S64x64 ![64, 0] (m ((c : Thread nD τ).loc main_arg14)) slices_S192x64_S64x64_64_0 := by
  show StableHlo.after hostOps0 (W0 m ρ c) (Proc.devRef .tc main_v18) = _
  after_results

/-- Sixty-four consecutive rows of a stacked weight. -/
theorem entry0_main_v19 (c : Dev nD) : V1 m ρ c main_v19 = extractStridedSlice S64x64 ![128, 0] (m ((c : Thread nD τ).loc main_arg14)) slices_S192x64_S64x64_128_0 := by
  show StableHlo.after hostOps0 (W0 m ρ c) (Proc.devRef .tc main_v19) = _
  after_results

/-- Sixty-four consecutive rows of a stacked weight. -/
theorem entry0_main_v20 (c : Dev nD) : V1 m ρ c main_v20 = extractStridedSlice S64x64 ![0, 0] (m ((c : Thread nD τ).loc main_arg10)) slices_S128x64_S64x64_0_0 := by
  show StableHlo.after hostOps0 (W0 m ρ c) (Proc.devRef .tc main_v20) = _
  after_results

/-- Sixty-four consecutive rows of a stacked weight. -/
theorem entry0_main_v21 (c : Dev nD) : V1 m ρ c main_v21 = extractStridedSlice S64x64 ![64, 0] (m ((c : Thread nD τ).loc main_arg10)) slices_S128x64_S64x64_64_0 := by
  show StableHlo.after hostOps0 (W0 m ρ c) (Proc.devRef .tc main_v21) = _
  after_results

/-- A bias as a one-row matrix. -/
theorem entry0_main_v22 (c : Dev nD) : V1 m ρ c main_v22 = shapeCast S1x64 (m ((c : Thread nD τ).loc main_arg9)) shapeCasts_S64_S1x64 := by
  show StableHlo.after hostOps0 (W0 m ρ c) (Proc.devRef .tc main_v22) = _
  after_results
  rfl

/-- A bias as a one-row matrix. -/
theorem entry0_main_v23 (c : Dev nD) : V1 m ρ c main_v23 = shapeCast S1x64 (m ((c : Thread nD τ).loc main_arg5)) shapeCasts_S64_S1x64 := by
  show StableHlo.after hostOps0 (W0 m ρ c) (Proc.devRef .tc main_v23) = _
  after_results
  rfl

/-- A bias as a one-row matrix. -/
theorem entry0_main_v24 (c : Dev nD) : V1 m ρ c main_v24 = shapeCast S1x64 (m ((c : Thread nD τ).loc main_arg7)) shapeCasts_S64_S1x64 := by
  show StableHlo.after hostOps0 (W0 m ρ c) (Proc.devRef .tc main_v24) = _
  after_results
  rfl

/-- A bias as a one-row matrix. -/
theorem entry0_main_v25 (c : Dev nD) : V1 m ρ c main_v25 = shapeCast S1x64 (m ((c : Thread nD τ).loc main_arg15)) shapeCasts_S64_S1x64 := by
  show StableHlo.after hostOps0 (W0 m ρ c) (Proc.devRef .tc main_v25) = _
  after_results
  rfl

/-- A bias as a one-row matrix. -/
theorem entry0_main_v26 (c : Dev nD) : V1 m ρ c main_v26 = shapeCast S1x64 (m ((c : Thread nD τ).loc main_arg17)) shapeCasts_S64_S1x64 := by
  show StableHlo.after hostOps0 (W0 m ρ c) (Proc.devRef .tc main_v26) = _
  after_results
  rfl

/-- A bias as a one-row matrix. -/
theorem entry0_main_v27 (c : Dev nD) : V1 m ρ c main_v27 = shapeCast S1x64 (m ((c : Thread nD τ).loc main_arg11)) shapeCasts_S64_S1x64 := by
  show StableHlo.after hostOps0 (W0 m ρ c) (Proc.devRef .tc main_v27) = _
  after_results
  rfl

/-- A bias as a one-row matrix. -/
theorem entry0_main_v28 (c : Dev nD) : V1 m ρ c main_v28 = shapeCast S1x64 (m ((c : Thread nD τ).loc main_arg13)) shapeCasts_S64_S1x64 := by
  show StableHlo.after hostOps0 (W0 m ρ c) (Proc.devRef .tc main_v28) = _
  after_results
  rfl

/-- A bias as a one-row matrix. -/
theorem entry0_main_v29 (c : Dev nD) : V1 m ρ c main_v29 = shapeCast S1x64 (m ((c : Thread nD τ).loc main_arg20)) shapeCasts_S64_S1x64 := by
  show StableHlo.after hostOps0 (W0 m ρ c) (Proc.devRef .tc main_v29) = _
  after_results
  rfl

/-- A bias as a one-row matrix. -/
theorem entry0_main_v30 (c : Dev nD) : V1 m ρ c main_v30 = shapeCast S1x64 (m ((c : Thread nD τ).loc main_arg21)) shapeCasts_S64_S1x64 := by
  show StableHlo.after hostOps0 (W0 m ρ c) (Proc.devRef .tc main_v30) = _
  after_results
  rfl

/-- A bias as a one-row matrix. -/
theorem entry0_main_v31 (c : Dev nD) : V1 m ρ c main_v31 = shapeCast S1x64 (m ((c : Thread nD τ).loc main_arg18)) shapeCasts_S64_S1x64 := by
  show StableHlo.after hostOps0 (W0 m ρ c) (Proc.devRef .tc main_v31) = _
  after_results
  rfl

/-- A bias as a one-row matrix. -/
theorem entry0_main_v32 (c : Dev nD) : V1 m ρ c main_v32 = shapeCast S1x64 (m ((c : Thread nD τ).loc main_arg19)) shapeCasts_S64_S1x64 := by
  show StableHlo.after hostOps0 (W0 m ρ c) (Proc.devRef .tc main_v32) = _
  after_results
  rfl

/-! ## Between the regions -/

/-- A buffer the edge region does not write and the scatter stretch does not write holds, at the node region's entry,
    what it held at the edge region's entry. -/
theorem entry1_main_arg0 (c : Dev nD) : V3 m ρ c main_arg0 = V1 m ρ c main_arg0 := by
  show StableHlo.after hostOps1 (W2 m ρ c) (Proc.devRef .tc main_arg0) = _
  after_results
  exact W2_of_ne m ρ c main_arg0 (by decide)

theorem entry1_main_v20 (c : Dev nD) : V3 m ρ c main_v20 = V1 m ρ c main_v20 := by
  show StableHlo.after hostOps1 (W2 m ρ c) (Proc.devRef .tc main_v20) = _
  after_results
  exact W2_of_ne m ρ c main_v20 (by decide)

theorem entry1_main_v21 (c : Dev nD) : V3 m ρ c main_v21 = V1 m ρ c main_v21 := by
  show StableHlo.after hostOps1 (W2 m ρ c) (Proc.devRef .tc main_v21) = _
  after_results
  exact W2_of_ne m ρ c main_v21 (by decide)

theorem entry1_main_v27 (c : Dev nD) : V3 m ρ c main_v27 = V1 m ρ c main_v27 := by
  show StableHlo.after hostOps1 (W2 m ρ c) (Proc.devRef .tc main_v27) = _
  after_results
  exact W2_of_ne m ρ c main_v27 (by decide)

theorem entry1_main_arg12 (c : Dev nD) : V3 m ρ c main_arg12 = V1 m ρ c main_arg12 := by
  show StableHlo.after hostOps1 (W2 m ρ c) (Proc.devRef .tc main_arg12) = _
  after_results
  exact W2_of_ne m ρ c main_arg12 (by decide)

theorem entry1_main_v28 (c : Dev nD) : V3 m ρ c main_v28 = V1 m ρ c main_v28 := by
  show StableHlo.after hostOps1 (W2 m ρ c) (Proc.devRef .tc main_v28) = _
  after_results
  exact W2_of_ne m ρ c main_v28 (by decide)

theorem entry1_main_v31 (c : Dev nD) : V3 m ρ c main_v31 = V1 m ρ c main_v31 := by
  show StableHlo.after hostOps1 (W2 m ρ c) (Proc.devRef .tc main_v31) = _
  after_results
  exact W2_of_ne m ρ c main_v31 (by decide)

theorem entry1_main_v32 (c : Dev nD) : V3 m ρ c main_v32 = V1 m ρ c main_v32 := by
  show StableHlo.after hostOps1 (W2 m ρ c) (Proc.devRef .tc main_v32) = _
  after_results
  exact W2_of_ne m ρ c main_v32 (by decide)

/-- The aggregated messages: the edge region's message array scattered and added by destination into zeros. -/
theorem entry1_v36 (c : Dev nD) :
    V3 m ρ c main_v36 = Host.scatterAdd scatter_S50000x64_S800000x1_S800000x64_1_0_0_1
      (broadcastInDim S50000x64 ![] bcast_S_S50000x64 (constant (F := Ideal) S_ .f32 0x00000000#32))
      (broadcastInDim S800000x1 ![0] bcast_S800000_S800000x1_0 (m ((c : Thread nD τ).loc main_arg3)))
      ((dat0 (F := Ideal) (V1 m ρ) c).arrAt 19 cfg0.N) := by
  show StableHlo.after hostOps1 (W2 m ρ c) (Proc.devRef .tc main_v36) = _
  after_results
  rw [W2_of_ne m ρ c main_arg3 (by decide), W2_arr m ρ c 19]
  have h3 : W1 m ρ c (Proc.devRef .tc main_arg3) = m ((c : Thread nD τ).loc main_arg3) := entry0_main_arg3 m ρ c
  rw [h3]

/-- The updated edges are the edge region's second output: the node region and the scatter stretch leave them. -/
theorem exit_v33_1 (c : Dev nD) : W4 m ρ c (Proc.devRef .tc main_v33_1) = (dat0 (F := Ideal) (V1 m ρ) c).arrAt 20 cfg0.N := by
  rw [W4_of_ne m ρ c main_v33_1 (by decide)]
  show StableHlo.after hostOps1 (W2 m ρ c) (Proc.devRef .tc main_v33_1) = _
  after_results
  exact W2_arr m ρ c 20

/-- The updated nodes are the node region's output. -/
theorem exit_v37 (c : Dev nD) : W4 m ρ c (Proc.devRef .tc main_v37) = (dat1 (F := Ideal) (V3 m ρ) c).arrAt 9 cfg1.N :=
  W4_arr m ρ c 9

end Cert.KernelIdeal.HostFolds

end
-- ==== Proof.GraphSpec.lean ====
/-
  The mathematics of one edge-gated graph layer, one row at a time, over the extended reals.

  A row of 64 features is a function `Fin 64 → EReal`; a 64×64 weight is a function of its row and column. Every result
  entry of the layer depends on ONE row of each of its operands (the gathered source and destination rows and the edge
  row for an edge; the node row and its aggregated messages for a node), so the layer is three row functions:

  * `msgRow`  — the gated message  σ(hs·Wgs + hd·Wgd + ef·Wge + bg) ⊙ (hs·Ws + bs + ef·We + be);
  * `edgeRow` — the edge update    LN(ef + silu(hs·W1s + hd·W1d + ef·W1e + b1)·W2 + b2);
  * `nodeRow` — the node update    LN(x  + silu(x·Wa + a·Wb + b1)·W2 + b2),

  with σ the logistic function, silu t = t·σ(t), and LN the layer normalisation over the 64 features (mean and variance
  as sums divided by the word 64.0, the reciprocal square root of the variance plus the word 1e-5, a gain and a shift).
  The grouping of the sums is the one written here. Also here: a sum over 192 (or 128) coordinates is the sum of its
  64-coordinate thirds (halves) — the only law that relates a product with three (two) weights stacked by rows to the
  three (two) separate products.
-/
import Idealize.ShloMosaic.PureOps.Ideal
import Idealize.ShloMosaic.Lib.ValueIdx

noncomputable section

open scoped BigOperators

namespace Cert.GraphSpec

open Idealize.ShloMosaic

/-- The float word 64.0 as an extended real. -/
def w64 : EReal := Ideal.ofBits .f32 0x42800000#32
/-- The float word nearest 1e-5 as an extended real. -/
def wEps : EReal := Ideal.ofBits .f32 0x3727C5AC#32

/-- Row `x` against column `q` of the weight `W`. -/
def dot (x : Fin 64 → EReal) (W : Fin 64 → Fin 64 → EReal) (q : Fin 64) : EReal := ∑ k : Fin 64, x k * W k q

/-- t · σ(t). -/
def silu (t : EReal) : EReal := t * Ideal.logistic t

/-- Layer normalisation of one row, at feature `q`. -/
def layerNorm (x g b : Fin 64 → EReal) (q : Fin 64) : EReal :=
  (x q - Ideal.div (∑ k : Fin 64, x k) w64)
    * Ideal.rsqrt (Ideal.div (∑ k : Fin 64, (x k - Ideal.div (∑ k : Fin 64, x k) w64) * (x k - Ideal.div (∑ k : Fin 64, x k) w64)) w64 + wEps)
    * g q + b q

/-- The gated message of one edge, at feature `q`. -/
def msgRow (hs hd ef : Fin 64 → EReal) (Wgs Wgd Wge : Fin 64 → Fin 64 → EReal) (bg : Fin 64 → EReal)
    (Ws : Fin 64 → Fin 64 → EReal) (bs : Fin 64 → EReal) (We : Fin 64 → Fin 64 → EReal) (be : Fin 64 → EReal) (q : Fin 64) : EReal :=
  Ideal.logistic (((dot hs Wgs q + dot hd Wgd q) + dot ef Wge q) + bg q) * (((dot hs Ws q + bs q) + dot ef We q) + be q)

/-- The hidden row of the edge update, at hidden feature `k`. -/
def edgeHidden (hs hd ef : Fin 64 → EReal) (W1s W1d W1e : Fin 64 → Fin 64 → EReal) (b1 : Fin 64 → EReal) (k : Fin 64) : EReal :=
  silu (((dot hs W1s k + dot hd W1d k) + dot ef W1e k) + b1 k)

/-- The updated edge row, at feature `q`. -/
def edgeRow (hs hd ef : Fin 64 → EReal) (W1s W1d W1e : Fin 64 → Fin 64 → EReal) (b1 : Fin 64 → EReal)
    (W2 : Fin 64 → Fin 64 → EReal) (b2 g b : Fin 64 → EReal) (q : Fin 64) : EReal :=
  layerNorm (fun j => ef j + (dot (edgeHidden hs hd ef W1s W1d W1e b1) W2 j + b2 j)) g b q

/-- The hidden row of the node update, at hidden feature `k`. -/
def nodeHidden (x a : Fin 64 → EReal) (Wa Wb : Fin 64 → Fin 64 → EReal) (b1 : Fin 64 → EReal) (k : Fin 64) : EReal :=
  silu ((dot x Wa k + dot a Wb k) + b1 k)

/-- The updated node row, at feature `q`. -/
def nodeRow (x a : Fin 64 → EReal) (Wa Wb : Fin 64 → Fin 64 → EReal) (b1 : Fin 64 → EReal)
    (W2 : Fin 64 → Fin 64 → EReal) (b2 g b : Fin 64 → EReal) (q : Fin 64) : EReal :=
  layerNorm (fun j => x j + (dot (nodeHidden x a Wa Wb b1) W2 j + b2 j)) g b q

/-- A sum over 192 coordinates is the sum of its three 64-coordinate thirds, in this grouping. -/
theorem sum_thirds (f : Fin 192 → EReal) :
    ∑ k : Fin 192, f k
      = (∑ k : Fin 64, f ⟨k.val, by have := k.isLt; omega⟩ + ∑ k : Fin 64, f ⟨64 + k.val, by have := k.isLt; omega⟩)
          + ∑ k : Fin 64, f ⟨128 + k.val, by have := k.isLt; omega⟩ := by
  have h1 := Fin.sum_univ_add (a := 128) (b := 64) (f := (f : Fin (128 + 64) → EReal))
  have h2 := Fin.sum_univ_add (a := 64) (b := 64) (f := fun k : Fin (64 + 64) => f (Fin.castAdd 64 k : Fin (128 + 64)))
  exact h1.trans (congrArg₂ (· + ·) h2 rfl)

/-- A sum over 128 coordinates is the sum of its two halves. -/
theorem sum_halves (f : Fin 128 → EReal) :
    ∑ k : Fin 128, f k
      = ∑ k : Fin 64, f ⟨k.val, by have := k.isLt; omega⟩ + ∑ k : Fin 64, f ⟨64 + k.val, by have := k.isLt; omega⟩ :=
  Fin.sum_univ_add (a := 64) (b := 64) (f := (f : Fin (64 + 64) → EReal))

end Cert.GraphSpec

end
-- ==== Proof.LibBroadcastTo.lean ====
/-
  A vector broadcast of a row or of a column to a matrix, read at an entry. General in the extents.

  * a row `[1, n]` broadcast down `m` rows: entry `(p, k)` is the row's entry `(0, k)`;
  * a column `[m, 1]` broadcast across `n` columns: entry `(p, k)` is the column's entry `(p, 0)`.
-/
import Idealize.ShloMosaic.Lib.Pipeline.Value
import Idealize.ShloMosaic.Lib.ValueIdx

noncomputable section

namespace Cert.BroadcastTo

open Idealize.ShloMosaic Idealize.ShloMosaic.ValueIdx

variable {α : Type} {m n : Nat}

/-- A row broadcast down the rows keeps the column coordinate. -/
theorem row_apply (x : (⟨2, ![1, n]⟩ : Shape).Idx → α) (h : (⟨2, ![1, n]⟩ : Shape).Broadcasts ⟨2, ![m, n]⟩)
    (p : Fin m) (k : Fin n) : broadcastTo ⟨2, ![m, n]⟩ x h (ix2 p k) = x (ix2 0 k) :=
  broadcastTo_apply x h (ix2 p k) (ix2 0 k) (fun a => match a with
    | ⟨0, _⟩ => by show (0 : ℕ) = if (1 : ℕ) = 1 then 0 else _; rw [if_pos rfl]
    | ⟨1, _⟩ => by
      show k.val = if n = 1 then 0 else k.val
      split
      · have := k.isLt; omega
      · rfl)

/-- A column broadcast across the columns keeps the row coordinate. -/
theorem col_apply (x : (⟨2, ![m, 1]⟩ : Shape).Idx → α) (h : (⟨2, ![m, 1]⟩ : Shape).Broadcasts ⟨2, ![m, n]⟩)
    (p : Fin m) (k : Fin n) : broadcastTo ⟨2, ![m, n]⟩ x h (ix2 p k) = x (ix2 p 0) :=
  broadcastTo_apply x h (ix2 p k) (ix2 p 0) (fun a => match a with
    | ⟨0, _⟩ => by
      show p.val = if m = 1 then 0 else p.val
      split
      · have := p.isLt; omega
      · rfl
    | ⟨1, _⟩ => by show (0 : ℕ) = if (1 : ℕ) = 1 then 0 else _; rw [if_pos rfl])

end Cert.BroadcastTo

end
-- ==== Proof.LibPlainProduct.lean ====
/-
  The plain matrix product `[m, k] × [k, n] → [m, n]` (dimension numbers: contract the left operand's axis 1 with the
  right operand's axis 0, no batch axis), read at an entry at the ideal values, for ANY record with those dimension
  numbers whatever its well-formedness proof: a `tpu.matmul` into the zero accumulator and the host's `dot_general` are
  both `Σ_c A(a, c) · B(c, b)` over the literal range `Fin k`. General lemmas in the library's style
  (Lib/StackMember.lean states the same for the record `DotDims.plain`).
-/
import Idealize.ShloMosaic.Lib.ValueIdx
import Idealize.ShloMosaic.PureOps.Ideal.Laws

noncomputable section

open scoped BigOperators

namespace Idealize.ShloMosaic.PlainProduct

open Idealize.ShloMosaic Idealize.ShloMosaic.ValueIdx

variable {m k n : Nat} {φ₁ φ₂ : FTy}

/-- The plain product's record, from its well-formedness. -/
abbrev rec2 (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's index at output entry `(a, b)` and contraction coordinate `c` is `(a, c)`. -/
theorem lhsIdx_eq (w : DotDims.WF ⟨2, ![m, k]⟩ ⟨2, ![k, n]⟩ ⟨2, ![m, n]⟩ [1] [0] [0] [1] [] []) (a : Fin m) (b : Fin n) (c : Fin k) :
    (rec2 w).lhsIdx (ix2 a b) ((contrEquiv1 (rec2 w) k rfl rfl).symm c) = ix2 a c := by
  have c2 := contrEquiv1_symm_val (rec2 w) k rfl rfl c
  funext ax; apply Fin.ext
  match ax with
  | ⟨0, _⟩ => simp [DotDims.lhsIdx]; rfl
  | ⟨1, _⟩ => simp [DotDims.lhsIdx]; exact c2

/-- The right operand's index there is `(c, b)`. -/
theorem rhsIdx_eq (w : DotDims.WF ⟨2, ![m, k]⟩ ⟨2, ![k, n]⟩ ⟨2, ![m, n]⟩ [1] [0] [0] [1] [] []) (a : Fin m) (b : Fin n) (c : Fin k) :
    (rec2 w).rhsIdx (ix2 a b) ((contrEquiv1 (rec2 w) k rfl rfl).symm c) = ix2 c b := by
  have c2 := contrEquiv1_symm_val (rec2 w) k rfl rfl c
  funext ax; apply Fin.ext
  match ax with
  | ⟨0, _⟩ => simp [DotDims.rhsIdx]; exact c2
  | ⟨1, _⟩ => simp [DotDims.rhsIdx]; rfl

/-- A `tpu.matmul` with these dimension numbers into the zero accumulator, at entry `(a, b)`. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (rec2 w) prec A B (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (rec2 w) k rfl rfl).symm]
  refine Finset.sum_congr rfl fun c _ => ?_
  rw [lhsIdx_eq, rhsIdx_eq]

/-- The host's `dot_general` with these dimension numbers, at entry `(a, b)`. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (rec2 w) prec A B (ix2 a b) = ∑ c : Fin k, A (ix2 a c) * B (ix2 c b) := by
  show FloatOps.dotGeneral _ prec _ A B (ix2 a b) = _
  rw [Ideal.dotGeneral_apply, ← Equiv.sum_comp (contrEquiv1 (rec2 w) k rfl rfl).symm]
  refine Finset.sum_congr rfl fun c _ => ?_
  rw [lhsIdx_eq, rhsIdx_eq]

end Idealize.ShloMosaic.PlainProduct

end
-- ==== Proof.LibRowSum.lean ====
/-
  A sum along the rows of a matrix, read at one entry.

  The vector unit's sum over axis 1 of an m×n matrix (from a zero accumulator) is, at row `a`, the sum of the
  entries of that row. The companion of the column form (a sum over axis 0), general in the two extents.
-/
import Idealize.ShloMosaic.PureOps.Ideal.Laws
import Idealize.ShloMosaic.Lib.ValueIdx

noncomputable section

namespace LibRowSum

open Idealize.ShloMosaic Idealize.ShloMosaic.ValueIdx
open scoped BigOperators

variable {m n : Nat}

/-- The source index of a row sum: column `k` of row `a`. -/
theorem lift_row (h : (⟨2, ![m, n]⟩ : Shape).Reduces [1] ⟨1, ![m]⟩) (a : Fin m) (k : Fin n) :
    h.lift (ix1 a) k = ix2 a k := by
  funext c
  apply Fin.ext
  match c with
  | ⟨0, _⟩ => rfl
  | ⟨1, _⟩ => rfl

/-- The sum over axis 1 of an m×n matrix at row `a`: the sum along the row. The accumulator hypothesis is the
    equation of the two zero words. -/
theorem multiReduction_add_row (src : FVec Ideal ⟨2, ![m, n]⟩ .f32) (h : (⟨2, ![m, n]⟩ : Shape).Reduces [1] ⟨1, ![m]⟩)
    (hφ : FKind.Formats .f32) (hacc : (0x00000000#32 : BitVec 32) = 0x00000000#32) (a : Fin m) :
    multiReduction .add [1] ⟨1, ![m]⟩ src 0x00000000#32 h hφ hacc (ix1 a) = ∑ k : Fin n, src (ix2 a k) := by
  refine (Ideal.multiReduction_add_single src 0x00000000#32 h hφ hacc (ix1 a)).trans ?_
  show ∑ k : Fin n, src (h.lift (ix1 a) k) = _
  exact Finset.sum_congr rfl fun k _ => congrArg src (lift_row h a k)

end LibRowSum

end
-- ==== Proof.LibLayoutReads.lean ====
/-
  Three layout operations read at one entry, general in the extents and in the element type.

  * a vector `[n]` reshaped to a column `[n, 1]`: entry `(r, 0)` is the vector's entry `r` (both sit at row-major
    position `r`);
  * a vector `[n]` reshaped to a row `[1, n]`: entry `(0, b)` is the vector's entry `b`;
  * `r` consecutive rows of a matrix `[R, C]` from row `o` on, all `C` columns: entry `(a, b)` is the matrix's entry
    `(o + a, b)`.
-/
import Idealize.ShloMosaic.Lib.Pipeline.Value
import Idealize.ShloMosaic.Lib.ValueIdx

noncomputable section

namespace Cert.LayoutReads

open Idealize.ShloMosaic Idealize.ShloMosaic.ValueIdx

variable {α : Type}

/-- A vector `[n]` reshaped to a column `[n, 1]`, read at `(r, 0)`, is the vector at `r`. -/
theorem col_of_vec_apply {n : Nat} (v : (⟨1, ![n]⟩ : Shape).Idx → α) (h : (⟨1, ![n]⟩ : Shape).ShapeCasts ⟨2, ![n, 1]⟩)
    (r : Fin n) : shapeCast ⟨2, ![n, 1]⟩ v h (ix2 r (0 : Fin 1)) = v (ix1 r) :=
  shapeCast_apply v h (ix2 r (0 : Fin 1)) (ix1 r) (by
    rw [Shape.rowMajor_val_two, Shape.rowMajor_val_one]; show r.val = r.val * 1 + 0; omega)

/-- A vector `[n]` reshaped to a row `[1, n]`, read at `(0, b)`, is the vector at `b`. -/
theorem row_of_vec_apply {n : Nat} (v : (⟨1, ![n]⟩ : Shape).Idx → α) (h : (⟨1, ![n]⟩ : Shape).ShapeCasts ⟨2, ![1, n]⟩)
    (b : Fin n) : shapeCast ⟨2, ![1, n]⟩ v h (ix2 (0 : Fin 1) b) = v (ix1 b) :=
  shapeCast_apply v h (ix2 (0 : Fin 1) b) (ix1 b) (by
    rw [Shape.rowMajor_val_two, Shape.rowMajor_val_one]; show b.val = 0 * n + b.val; omega)

/-- Rows `o` to `o + r` of a matrix `[R, C]`, all columns, read at `(a, b)`, are the matrix at `(o + a, b)`. -/
theorem rows_slice_apply {R C r o : Nat} (x : (⟨2, ![R, C]⟩ : Shape).Idx → α)
    (h : (⟨2, ![R, C]⟩ : Shape).Slices ![o, 0] ⟨2, ![r, C]⟩) (hb : o + r ≤ R) (a : Fin r) (b : Fin C) :
    extractStridedSlice ⟨2, ![r, C]⟩ ![o, 0] x h (ix2 a b)
      = x (ix2 (⟨o + a.val, by have := a.isLt; omega⟩ : Fin R) b) :=
  extractStridedSlice_apply ![o, 0] x h (ix2 a b) (ix2 (⟨o + a.val, by have := a.isLt; omega⟩ : Fin R) b)
    (fun c => match c with
      | ⟨0, _⟩ => rfl
      | ⟨1, _⟩ => by show b.val = 0 + b.val; omega)

end Cert.LayoutReads

end
-- ==== Proof.KernelRows.lean ====
/-
  What the two kernel bodies leave in their output blocks, one entry at a time, over the extended reals.

  The edge body stores two whole blocks of 6400 rows of 64 features: the gated message and the updated edge row; the
  node body stores one whole block of 5000 rows: the updated node row. Each stored entry (p, q) depends on row p of
  the row blocks and on the whole weights only, and is the corresponding row function of the specification
  (msgRow, edgeRow, nodeRow) at feature q.

  The steps: a whole-block store leaves its payload and a whole-block load reads its block; a cast to the same shape
  and a narrowing of the format are identities on extended reals; a product into the zero accumulator is the sum over
  the 64 contraction coordinates; a row broadcast keeps the column coordinate and a column broadcast the row
  coordinate; a lane sum is the sum along the row; the remaining operations act entry by entry.
-/
import proofs.«172656_j21157008900637_1_alg».proof.Proof.Gen.KernelIdeal.Frame
import proofs.«172656_j21157008900637_1_alg».proof.Proof.GraphSpec
import proofs.«172656_j21157008900637_1_alg».proof.Proof.LibBroadcastTo
import proofs.«172656_j21157008900637_1_alg».proof.Proof.LibPlainProduct
import proofs.«172656_j21157008900637_1_alg».proof.Proof.LibRowSum
import proofs.«172656_j21157008900637_1_alg».proof.Proof.LibLayoutReads

noncomputable section

open scoped BigOperators

namespace Cert.KernelRows

open Cert.KernelIdeal Cert.KernelIdeal.Gen Idealize.ShloMosaic Idealize.ShloMosaic.ValueIdx Cert.GraphSpec

/-! ## The whole-block wrapper -/

/-- The zero offsets of a rank-2 whole-block access, as a constant function. -/
theorem zeros2 : (![0, 0] : Fin 2 → Nat) = fun _ => 0 := funext fun a => by fin_cases a <;> rfl

/-! ## Entry-by-entry operations, products and lane sums at an entry -/

section Pointwise
variable {s : Shape} {φ : FTy}

/-- The logistic function acts entry by entry. -/
theorem logistic_at (v : FVec Ideal s φ) (i : s.Idx) : logistic v i = Ideal.logistic (v i) := rfl

/-- The reciprocal square root acts entry by entry. -/
theorem rsqrt_at (v : FVec Ideal s φ) (i : s.Idx) : rsqrt v i = Ideal.rsqrt (v i) := rfl

end Pointwise

/-- A 6400×64 block against a 64×64 weight, into zero, at entry (p, q). -/
theorem prodE {φ₁ φ₂ : FTy} (A : FVec Ideal S6400x64 φ₁) (B : FVec Ideal S64x64 φ₂) (p : Fin 6400) (q : Fin 64) :
    matmul dot_S6400x64_S64x64_S6400x64_1_0_0_1_n_n none A B (constant (F := Ideal) S6400x64 .f32 0x00000000#32) (ix2 p q)
      = ∑ c : Fin 64, A (ix2 p c) * B (ix2 c q) :=
  PlainProduct.matmul_zero_apply Facts₀.dot_S6400x64_S64x64_S6400x64_1_0_0_1_n_n_wf none A B p q

/-- A 5000×64 block against a 64×64 weight, into zero, at entry (p, q). -/
theorem prodN {φ₁ φ₂ : FTy} (A : FVec Ideal S5000x64 φ₁) (B : FVec Ideal S64x64 φ₂) (p : Fin 5000) (q : Fin 64) :
    matmul dot_S5000x64_S64x64_S5000x64_1_0_0_1_n_n none A B (constant (F := Ideal) S5000x64 .f32 0x00000000#32) (ix2 p q)
      = ∑ c : Fin 64, A (ix2 p c) * B (ix2 c q) :=
  PlainProduct.matmul_zero_apply Facts₀.dot_S5000x64_S64x64_S5000x64_1_0_0_1_n_n_wf none A B p q

/-- The lane sum of a 6400×64 block from the zero word, at row r: the sum along the row. -/
theorem rowSumE (src : FVec Ideal S6400x64 .f32) (hφ : FKind.Formats .f32)
    (hacc : (0x00000000#32 : BitVec 32) = 0x00000000#32) (r : Fin 6400) :
    multiReduction .add [1] S6400 src 0x00000000#32 reduces_S6400x64_S6400 hφ hacc (ix1 r) = ∑ k : Fin 64, src (ix2 r k) :=
  LibRowSum.multiReduction_add_row src reduces_S6400x64_S6400 hφ hacc r

/-- The lane sum of a 5000×64 block from the zero word, at row r: the sum along the row. -/
theorem rowSumN (src : FVec Ideal S5000x64 .f32) (hφ : FKind.Formats .f32)
    (hacc : (0x00000000#32 : BitVec 32) = 0x00000000#32) (r : Fin 5000) :
    multiReduction .add [1] S5000 src 0x00000000#32 reduces_S5000x64_S5000 hφ hacc (ix1 r) = ∑ k : Fin 64, src (ix2 r k) :=
  LibRowSum.multiReduction_add_row src reduces_S5000x64_S5000 hφ hacc r

/-! ## The gated message -/

/-- The message payload at entry (p, q) is the gated message of row p at feature q. -/
theorem msg_at (v1 v3 : FVec Ideal S6400x64 .f32) (v4 : Vec Ideal S6400x64 .f32) (v6 v8 v10 : FVec Ideal S64x64 .f32)
    (v12 : FVec Ideal S1x64 .f32) (v13 : Vec Ideal S64x64 .f32) (v15 : FVec Ideal S1x64 .f32) (v16 : Vec Ideal S64x64 .f32)
    (v18 : FVec Ideal S1x64 .f32) (p : Fin 6400) (q : Fin 64) :
    k0_pay17 v1 v3 v4 v6 v8 v10 v12 v13 v15 v16 v18 (ix2 p q)
      = msgRow (fun k => v1 (ix2 p k)) (fun k => v3 (ix2 p k)) (fun k => v4 (ix2 p k))
          (fun k j => v6 (ix2 k j)) (fun k j => v8 (ix2 k j)) (fun k j => v10 (ix2 k j)) (fun j => v12 (ix2 0 j))
          (fun k j => v13 (ix2 k j)) (fun j => v15 (ix2 0 j)) (fun k j => v16 (ix2 k j)) (fun j => v18 (ix2 0 j)) q := by
  simp only [k0_pay17, msgRow, Cert.GraphSpec.dot, mulf_apply, addf_apply, logistic_at, prodE, truncf_apply,
    BroadcastTo.row_apply]

/-- What the edge body leaves in the message block, at entry (p, q): the gated message of row p of the gathered
    source rows, the gathered destination rows and the edge rows, at feature q. -/
theorem msg_entry (x0 x1 x2 : Vec Ideal S6400x64 .f32) (x3 x4 x5 : Vec Ideal S64x64 .f32) (x6 : Vec Ideal S1x64 .f32)
    (x7 : Vec Ideal S64x64 .f32) (x8 : Vec Ideal S1x64 .f32) (x9 : Vec Ideal S64x64 .f32) (x10 : Vec Ideal S1x64 .f32)
    (x11 x12 x13 : Vec Ideal S64x64 .f32) (x14 : Vec Ideal S1x64 .f32) (x15 : Vec Ideal S64x64 .f32)
    (x16 x17 x18 : Vec Ideal S1x64 .f32) (p : Fin 6400) (q : Fin 64) :
    out0_19 (F := Ideal) x0 x1 x2 x3 x4 x5 x6 x7 x8 x9 x10 x11 x12 x13 x14 x15 x16 x17 x18 (ix2 p q)
      = msgRow (fun k => x0 (ix2 p k)) (fun k => x1 (ix2 p k)) (fun k => x2 (ix2 p k))
          (fun k j => x3 (ix2 k j)) (fun k j => x4 (ix2 k j)) (fun k j => x5 (ix2 k j)) (fun j => x6 (ix2 0 j))
          (fun k j => x7 (ix2 k j)) (fun j => x8 (ix2 0 j)) (fun k j => x9 (ix2 k j)) (fun j => x10 (ix2 0 j)) q := by
  unfold out0_19
  rw [View.canon_unit_zero zeros2]
  simp only [View.ld_unit_zero (S := S6400x64) zeros2, View.ld_unit_zero (S := S64x64) zeros2,
    View.ld_unit_zero (S := S1x64) zeros2, k0_pay2, k0_pay3, k0_pay4, k0_pay5, k0_pay6, k0_pay7, k0_pay8, k0_pay9,
    shapeCast_self]
  exact msg_at x0 x1 x2 x3 x4 x5 x6 x7 x8 x9 x10 p q

/-! ## The edge update -/

/-- The updated-edge payload at entry (p, q) is the updated edge row of row p at feature q. -/
theorem edge_at (v4 : Vec Ideal S6400x64 .f32) (v26 : FVec Ideal S1x64 .f32) (v27 : Vec Ideal S64x64 .f32)
    (v29 v31 v33 : FVec Ideal S1x64 .f32) (v1 v3 : FVec Ideal S6400x64 .f32) (v20 v22 v24 : FVec Ideal S64x64 .f32)
    (p : Fin 6400) (q : Fin 64) :
    k0_pay1 v4 v26 v27 v29 v31 v33 (k0_pay18 v1 v3 v20 v22) (k0_pay19 v4) (k0_pay20 v24)
        (constant (F := Ideal) S6400x64 .f32 0x00000000#32) (ix2 p q)
      = edgeRow (fun k => v1 (ix2 p k)) (fun k => v3 (ix2 p k)) (fun k => v4 (ix2 p k))
          (fun k j => v20 (ix2 k j)) (fun k j => v22 (ix2 k j)) (fun k j => v24 (ix2 k j)) (fun j => v26 (ix2 0 j))
          (fun k j => v27 (ix2 k j)) (fun j => v29 (ix2 0 j)) (fun j => v31 (ix2 0 j)) (fun j => v33 (ix2 0 j)) q := by
  simp (config := { index := false }) only [k0_pay1, k0_pay18, k0_pay19, k0_pay20, edgeRow, edgeHidden, silu, layerNorm,
    w64, wEps, Cert.GraphSpec.dot, addf_apply, mulf_apply, subf_apply, divf_apply, logistic_at, rsqrt_at, prodE,
    truncf_apply, BroadcastTo.row_apply, BroadcastTo.col_apply, LayoutReads.col_of_vec_apply, rowSumE, broadcast_apply,
    Ideal.ofBits_def]

/-- What the edge body leaves in the updated-edge block, at entry (p, q): the updated edge row of row p of the gathered
    source rows, the gathered destination rows and the edge rows, at feature q. -/
theorem edge_entry (x0 x1 x2 : Vec Ideal S6400x64 .f32) (x3 x4 x5 : Vec Ideal S64x64 .f32) (x6 : Vec Ideal S1x64 .f32)
    (x7 : Vec Ideal S64x64 .f32) (x8 : Vec Ideal S1x64 .f32) (x9 : Vec Ideal S64x64 .f32) (x10 : Vec Ideal S1x64 .f32)
    (x11 x12 x13 : Vec Ideal S64x64 .f32) (x14 : Vec Ideal S1x64 .f32) (x15 : Vec Ideal S64x64 .f32)
    (x16 x17 x18 : Vec Ideal S1x64 .f32) (p : Fin 6400) (q : Fin 64) :
    out0_20 (F := Ideal) x0 x1 x2 x3 x4 x5 x6 x7 x8 x9 x10 x11 x12 x13 x14 x15 x16 x17 x18 (ix2 p q)
      = edgeRow (fun k => x0 (ix2 p k)) (fun k => x1 (ix2 p k)) (fun k => x2 (ix2 p k))
          (fun k j => x11 (ix2 k j)) (fun k j => x12 (ix2 k j)) (fun k j => x13 (ix2 k j)) (fun j => x14 (ix2 0 j))
          (fun k j => x15 (ix2 k j)) (fun j => x16 (ix2 0 j)) (fun j => x17 (ix2 0 j)) (fun j => x18 (ix2 0 j)) q := by
  unfold out0_20
  rw [View.canon_unit_zero zeros2]
  simp only [View.ld_unit_zero (S := S6400x64) zeros2, View.ld_unit_zero (S := S64x64) zeros2,
    View.ld_unit_zero (S := S1x64) zeros2, k0_pay2, k0_pay3, k0_pay10, k0_pay11, k0_pay12, k0_pay13, k0_pay14, k0_pay15,
    k0_pay16, shapeCast_self]
  exact edge_at x2 x14 x15 x16 x17 x18 x0 x1 x11 x12 x13 p q

/-! ## The node update -/

/-- The updated node row before normalisation, at entry (p, q): the node row plus the second layer of its hidden row. -/
theorem node_pre_at (v0 v1 : Vec Ideal S5000x64 .f32) (v3 v5 : Vec Ideal S64x64 .f32) (v7 : Vec Ideal S1x64 .f32)
    (v9 : Vec Ideal S64x64 .f32) (v10 : Vec Ideal S1x64 .f32) (p : Fin 5000) (q : Fin 64) :
    k1_pay4 v0 v1 v3 v5 v7 v9 v10 (ix2 p q)
      = v0 (ix2 p q)
          + (Cert.GraphSpec.dot (nodeHidden (fun k => v0 (ix2 p k)) (fun k => v1 (ix2 p k)) (fun k j => v3 (ix2 k j))
                (fun k j => v5 (ix2 k j)) (fun j => v7 (ix2 0 j))) (fun k j => v9 (ix2 k j)) q
              + v10 (ix2 0 q)) := by
  simp only [k1_pay4, nodeHidden, silu, Cert.GraphSpec.dot, shapeCast_self, mulf_apply, addf_apply, logistic_at, prodN,
    truncf_apply, BroadcastTo.row_apply]

/-- The lane sums of the node body, as a column, at row r: the sum along row r of the row before normalisation. -/
theorem node_sum_at (v0 v1 : Vec Ideal S5000x64 .f32) (v3 v5 : Vec Ideal S64x64 .f32) (v7 : Vec Ideal S1x64 .f32)
    (v9 : Vec Ideal S64x64 .f32) (v10 : Vec Ideal S1x64 .f32) (r : Fin 5000) :
    k1_pay5 v0 v1 v3 v5 v7 v9 v10 (ix2 r 0) = ∑ k : Fin 64, k1_pay4 v0 v1 v3 v5 v7 v9 v10 (ix2 r k) := by
  simp only [k1_pay5, LayoutReads.col_of_vec_apply]
  exact rowSumN _ _ _ r

/-- The normalisation tail of the node body at entry (p, q), for any block whose lane sums are given as a column. -/
theorem node_norm_at (v13 v15 : FVec Ideal S1x64 .f32) (v32 : FVec Ideal S5000x64 .f32) (v34 : FVec Ideal S5000x1 .f32)
    (h34 : ∀ r : Fin 5000, v34 (ix2 r 0) = ∑ k : Fin 64, v32 (ix2 r k)) (p : Fin 5000) (q : Fin 64) :
    k1_pay1 v13 v15 v32 v34 (k1_pay6 (F := Ideal)) (ix2 p q)
      = layerNorm (fun j => v32 (ix2 p j)) (fun j => v13 (ix2 0 j)) (fun j => v15 (ix2 0 j)) q := by
  simp (config := { index := false }) only [k1_pay1, k1_pay6, layerNorm, w64, wEps, addf_apply, mulf_apply, subf_apply,
    divf_apply, rsqrt_at, BroadcastTo.row_apply, BroadcastTo.col_apply, LayoutReads.col_of_vec_apply, rowSumN,
    broadcast_apply, Ideal.ofBits_def, h34]

/-- What the node body leaves in its output block, at entry (p, q): the updated node row of row p of the node rows
    and of the aggregated messages, at feature q. -/
theorem node_entry (x0 x1 : Vec Ideal S5000x64 .f32) (x2 x3 : Vec Ideal S64x64 .f32) (x4 : Vec Ideal S1x64 .f32)
    (x5 : Vec Ideal S64x64 .f32) (x6 x7 x8 : Vec Ideal S1x64 .f32) (p : Fin 5000) (q : Fin 64) :
    out1_9 (F := Ideal) x0 x1 x2 x3 x4 x5 x6 x7 x8 (ix2 p q)
      = nodeRow (fun k => x0 (ix2 p k)) (fun k => x1 (ix2 p k)) (fun k j => x2 (ix2 k j)) (fun k j => x3 (ix2 k j))
          (fun j => x4 (ix2 0 j)) (fun k j => x5 (ix2 k j)) (fun j => x6 (ix2 0 j)) (fun j => x7 (ix2 0 j))
          (fun j => x8 (ix2 0 j)) q := by
  unfold out1_9
  rw [View.canon_unit_zero zeros2]
  simp only [View.ld_unit_zero (S := S5000x64) zeros2, View.ld_unit_zero (S := S64x64) zeros2,
    View.ld_unit_zero (S := S1x64) zeros2, k1_pay2, k1_pay3, shapeCast_self]
  refine (node_norm_at x7 x8 (k1_pay4 x0 x1 x2 x3 x4 x5 x6) (k1_pay5 x0 x1 x2 x3 x4 x5 x6)
    (node_sum_at x0 x1 x2 x3 x4 x5 x6) p q).trans ?_
  unfold nodeRow
  exact congrArg (fun f => layerNorm f (fun j => x7 (ix2 0 j)) (fun j => x8 (ix2 0 j)) q)
    (funext fun j => node_pre_at x0 x1 x2 x3 x4 x5 x6 p j)

end Cert.KernelRows

end
-- ==== Proof.KernelEdgeBlocks.lean ====
/-
  The edge region's two output arrays as whole-array functions of the arrays the region finds.

  The region walks 125 grid points; point `t` stages rows `6400·t … 6400·t + 6399` of the three edge-indexed inputs (the
  gathered source rows, the gathered destination rows, the edge features), the whole of every weight and bias, and
  writes back rows `6400·t …` of both outputs. An output entry `(r, q)` therefore depends on row `r` of the three
  inputs only: the message array is `msgRow` and the updated-edge array is `edgeRow` of those rows. The blocks of the 125
  points tile the 800000 rows (row `r` lies in the block of point `r / 6400`), so each array ends holding its function
  everywhere.
-/
import proofs.«172656_j21157008900637_1_alg».proof.Proof.Gen.KernelIdeal.Frame
import proofs.«172656_j21157008900637_1_alg».proof.Proof.GraphSpec
import proofs.«172656_j21157008900637_1_alg».proof.Proof.KernelRows
import Idealize.ShloMosaic.Lib.Pipeline.Value
import Idealize.ShloMosaic.Lib.ValueIdx

set_option maxRecDepth 16384

noncomputable section

namespace Cert.KernelIdeal.EdgeBlocks

open Cert.KernelIdeal Cert.KernelIdeal.Gen Cert.GraphSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The index maps over the grid, and each window's block read at an entry -/

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)
theorem idx0_8 : ∀ t : Fin cfg0.N, win0_8.index t (0 : Fin 2) = 0 ∧ win0_8.index t (1 : Fin 2) = 0 :=
  (by decide +kernel : ∀ t : Fin grid0.N, _)
theorem idx0_9 : ∀ t : Fin cfg0.N, win0_9.index t (0 : Fin 2) = 0 ∧ win0_9.index t (1 : Fin 2) = 0 :=
  (by decide +kernel : ∀ t : Fin grid0.N, _)
theorem idx0_10 : ∀ t : Fin cfg0.N, win0_10.index t (0 : Fin 2) = 0 ∧ win0_10.index t (1 : Fin 2) = 0 :=
  (by decide +kernel : ∀ t : Fin grid0.N, _)
theorem idx0_11 : ∀ t : Fin cfg0.N, win0_11.index t (0 : Fin 2) = 0 ∧ win0_11.index t (1 : Fin 2) = 0 :=
  (by decide +kernel : ∀ t : Fin grid0.N, _)
theorem idx0_12 : ∀ t : Fin cfg0.N, win0_12.index t (0 : Fin 2) = 0 ∧ win0_12.index t (1 : Fin 2) = 0 :=
  (by decide +kernel : ∀ t : Fin grid0.N, _)
theorem idx0_13 : ∀ t : Fin cfg0.N, win0_13.index t (0 : Fin 2) = 0 ∧ win0_13.index t (1 : Fin 2) = 0 :=
  (by decide +kernel : ∀ t : Fin grid0.N, _)
theorem idx0_14 : ∀ t : Fin cfg0.N, win0_14.index t (0 : Fin 2) = 0 ∧ win0_14.index t (1 : Fin 2) = 0 :=
  (by decide +kernel : ∀ t : Fin grid0.N, _)
theorem idx0_15 : ∀ t : Fin cfg0.N, win0_15.index t (0 : Fin 2) = 0 ∧ win0_15.index t (1 : Fin 2) = 0 :=
  (by decide +kernel : ∀ t : Fin grid0.N, _)
theorem idx0_16 : ∀ t : Fin cfg0.N, win0_16.index t (0 : Fin 2) = 0 ∧ win0_16.index t (1 : Fin 2) = 0 :=
  (by decide +kernel : ∀ t : Fin grid0.N, _)
theorem idx0_17 : ∀ t : Fin cfg0.N, win0_17.index t (0 : Fin 2) = 0 ∧ win0_17.index t (1 : Fin 2) = 0 :=
  (by decide +kernel : ∀ t : Fin grid0.N, _)
theorem idx0_18 : ∀ t : Fin cfg0.N, win0_18.index t (0 : Fin 2) = 0 ∧ win0_18.index t (1 : Fin 2) = 0 :=
  (by decide +kernel : ∀ t : Fin grid0.N, _)
theorem idx0_19 : ∀ t : Fin cfg0.N, win0_19.index t (0 : Fin 2) = t.val ∧ win0_19.index t (1 : Fin 2) = 0 :=
  (by decide +kernel : ∀ t : Fin grid0.N, _)
theorem idx0_20 : ∀ t : Fin cfg0.N, win0_20.index t (0 : Fin 2) = t.val ∧ win0_20.index t (1 : Fin 2) = 0 :=
  (by decide +kernel : ∀ t : Fin grid0.N, _)

/-- Row `p` of the block of grid point `t` is row `6400·t + p` of the array. -/
def rowOf0 (t : Fin cfg0.N) (p : Fin 6400) : Fin 800000 :=
  ⟨t.val * 6400 + p.val, by have h1 := t.isLt; have h2 : cfg0.N = 125 := N_0; have h3 := p.isLt; omega⟩

/-- Window 0's block at point `t`: its rows are the array's rows `6400·t …`. -/
theorem blk0_0 (c : Dev nD) (t : Fin cfg0.N) (p : Fin 6400) (k : Fin 64) :
    iblk0 V c 0 t (ix2 p k) = V c main_v6 (ix2 (rowOf0 t p) k) := by
  obtain ⟨e0, e1⟩ := idx0_0 t
  show V c main_v6 (((cfg0.win 0).blk t).view.emb (ix2 p k)) = _
  congr 1
  funext a; apply Fin.ext
  match a with
  | ⟨0, _⟩ => show win0_0.index t (0 : Fin 2) * 6400 + 1 * p.val = t.val * 6400 + p.val; rw [e0]; omega
  | ⟨1, _⟩ => show win0_0.index t (1 : Fin 2) * 64 + 1 * k.val = k.val; rw [e1]; omega
/-- Window 1's block at point `t`: its rows are the array's rows `6400·t …`. -/
theorem blk0_1 (c : Dev nD) (t : Fin cfg0.N) (p : Fin 6400) (k : Fin 64) :
    iblk0 V c 1 t (ix2 p k) = V c main_v13 (ix2 (rowOf0 t p) k) := by
  obtain ⟨e0, e1⟩ := idx0_1 t
  show V c main_v13 (((cfg0.win 1).blk t).view.emb (ix2 p k)) = _
  congr 1
  funext a; apply Fin.ext
  match a with
  | ⟨0, _⟩ => show win0_1.index t (0 : Fin 2) * 6400 + 1 * p.val = t.val * 6400 + p.val; rw [e0]; omega
  | ⟨1, _⟩ => show win0_1.index t (1 : Fin 2) * 64 + 1 * k.val = k.val; rw [e1]; omega
/-- Window 2's block at point `t`: its rows are the array's rows `6400·t …`. -/
theorem blk0_2 (c : Dev nD) (t : Fin cfg0.N) (p : Fin 6400) (k : Fin 64) :
    iblk0 V c 2 t (ix2 p k) = V c main_arg1 (ix2 (rowOf0 t p) k) := by
  obtain ⟨e0, e1⟩ := idx0_2 t
  show V c main_arg1 (((cfg0.win 2).blk t).view.emb (ix2 p k)) = _
  congr 1
  funext a; apply Fin.ext
  match a with
  | ⟨0, _⟩ => show win0_2.index t (0 : Fin 2) * 6400 + 1 * p.val = t.val * 6400 + p.val; rw [e0]; omega
  | ⟨1, _⟩ => show win0_2.index t (1 : Fin 2) * 64 + 1 * k.val = k.val; rw [e1]; omega
/-- Window 3's block at every point is the whole array. -/
theorem blk0_3 (c : Dev nD) (t : Fin cfg0.N) (k : Fin 64) (j : Fin 64) :
    iblk0 V c 3 t (ix2 k j) = V c main_v14 (ix2 k j) := by
  obtain ⟨e0, e1⟩ := idx0_3 t
  show V c main_v14 (((cfg0.win 3).blk t).view.emb (ix2 k j)) = _
  congr 1
  funext a; apply Fin.ext
  match a with
  | ⟨0, _⟩ => show win0_3.index t (0 : Fin 2) * 64 + 1 * k.val = k.val; rw [e0]; omega
  | ⟨1, _⟩ => show win0_3.index t (1 : Fin 2) * 64 + 1 * j.val = j.val; rw [e1]; omega
/-- Window 4's block at every point is the whole array. -/
theorem blk0_4 (c : Dev nD) (t : Fin cfg0.N) (k : Fin 64) (j : Fin 64) :
    iblk0 V c 4 t (ix2 k j) = V c main_v15 (ix2 k j) := by
  obtain ⟨e0, e1⟩ := idx0_4 t
  show V c main_v15 (((cfg0.win 4).blk t).view.emb (ix2 k j)) = _
  congr 1
  funext a; apply Fin.ext
  match a with
  | ⟨0, _⟩ => show win0_4.index t (0 : Fin 2) * 64 + 1 * k.val = k.val; rw [e0]; omega
  | ⟨1, _⟩ => show win0_4.index t (1 : Fin 2) * 64 + 1 * j.val = j.val; rw [e1]; omega
/-- Window 5's block at every point is the whole array. -/
theorem blk0_5 (c : Dev nD) (t : Fin cfg0.N) (k : Fin 64) (j : Fin 64) :
    iblk0 V c 5 t (ix2 k j) = V c main_v16 (ix2 k j) := by
  obtain ⟨e0, e1⟩ := idx0_5 t
  show V c main_v16 (((cfg0.win 5).blk t).view.emb (ix2 k j)) = _
  congr 1
  funext a; apply Fin.ext
  match a with
  | ⟨0, _⟩ => show win0_5.index t (0 : Fin 2) * 64 + 1 * k.val = k.val; rw [e0]; omega
  | ⟨1, _⟩ => show win0_5.index t (1 : Fin 2) * 64 + 1 * j.val = j.val; rw [e1]; omega
/-- Window 6's block at every point is the whole array. -/
theorem blk0_6 (c : Dev nD) (t : Fin cfg0.N) (k : Fin 1) (j : Fin 64) :
    iblk0 V c 6 t (ix2 k j) = V c main_v22 (ix2 k j) := by
  obtain ⟨e0, e1⟩ := idx0_6 t
  show V c main_v22 (((cfg0.win 6).blk t).view.emb (ix2 k j)) = _
  congr 1
  funext a; apply Fin.ext
  match a with
  | ⟨0, _⟩ => show win0_6.index t (0 : Fin 2) * 1 + 1 * k.val = k.val; rw [e0]; omega
  | ⟨1, _⟩ => show win0_6.index t (1 : Fin 2) * 64 + 1 * j.val = j.val; rw [e1]; omega
/-- Window 7's block at every point is the whole array. -/
theorem blk0_7 (c : Dev nD) (t : Fin cfg0.N) (k : Fin 64) (j : Fin 64) :
    iblk0 V c 7 t (ix2 k j) = V c main_arg4 (ix2 k j) := by
  obtain ⟨e0, e1⟩ := idx0_7 t
  show V c main_arg4 (((cfg0.win 7).blk t).view.emb (ix2 k j)) = _
  congr 1
  funext a; apply Fin.ext
  match a with
  | ⟨0, _⟩ => show win0_7.index t (0 : Fin 2) * 64 + 1 * k.val = k.val; rw [e0]; omega
  | ⟨1, _⟩ => show win0_7.index t (1 : Fin 2) * 64 + 1 * j.val = j.val; rw [e1]; omega
/-- Window 8's block at every point is the whole array. -/
theorem blk0_8 (c : Dev nD) (t : Fin cfg0.N) (k : Fin 1) (j : Fin 64) :
    iblk0 V c 8 t (ix2 k j) = V c main_v23 (ix2 k j) := by
  obtain ⟨e0, e1⟩ := idx0_8 t
  show V c main_v23 (((cfg0.win 8).blk t).view.emb (ix2 k j)) = _
  congr 1
  funext a; apply Fin.ext
  match a with
  | ⟨0, _⟩ => show win0_8.index t (0 : Fin 2) * 1 + 1 * k.val = k.val; rw [e0]; omega
  | ⟨1, _⟩ => show win0_8.index t (1 : Fin 2) * 64 + 1 * j.val = j.val; rw [e1]; omega
/-- Window 9's block at every point is the whole array. -/
theorem blk0_9 (c : Dev nD) (t : Fin cfg0.N) (k : Fin 64) (j : Fin 64) :
    iblk0 V c 9 t (ix2 k j) = V c main_arg6 (ix2 k j) := by
  obtain ⟨e0, e1⟩ := idx0_9 t
  show V c main_arg6 (((cfg0.win 9).blk t).view.emb (ix2 k j)) = _
  congr 1
  funext a; apply Fin.ext
  match a with
  | ⟨0, _⟩ => show win0_9.index t (0 : Fin 2) * 64 + 1 * k.val = k.val; rw [e0]; omega
  | ⟨1, _⟩ => show win0_9.index t (1 : Fin 2) * 64 + 1 * j.val = j.val; rw [e1]; omega
/-- Window 10's block at every point is the whole array. -/
theorem blk0_10 (c : Dev nD) (t : Fin cfg0.N) (k : Fin 1) (j : Fin 64) :
    iblk0 V c 10 t (ix2 k j) = V c main_v24 (ix2 k j) := by
  obtain ⟨e0, e1⟩ := idx0_10 t
  show V c main_v24 (((cfg0.win 10).blk t).view.emb (ix2 k j)) = _
  congr 1
  funext a; apply Fin.ext
  match a with
  | ⟨0, _⟩ => show win0_10.index t (0 : Fin 2) * 1 + 1 * k.val = k.val; rw [e0]; omega
  | ⟨1, _⟩ => show win0_10.index t (1 : Fin 2) * 64 + 1 * j.val = j.val; rw [e1]; omega
/-- Window 11's block at every point is the whole array. -/
theorem blk0_11 (c : Dev nD) (t : Fin cfg0.N) (k : Fin 64) (j : Fin 64) :
    iblk0 V c 11 t (ix2 k j) = V c main_v17 (ix2 k j) := by
  obtain ⟨e0, e1⟩ := idx0_11 t
  show V c main_v17 (((cfg0.win 11).blk t).view.emb (ix2 k j)) = _
  congr 1
  funext a; apply Fin.ext
  match a with
  | ⟨0, _⟩ => show win0_11.index t (0 : Fin 2) * 64 + 1 * k.val = k.val; rw [e0]; omega
  | ⟨1, _⟩ => show win0_11.index t (1 : Fin 2) * 64 + 1 * j.val = j.val; rw [e1]; omega
/-- Window 12's block at every point is the whole array. -/
theorem blk0_12 (c : Dev nD) (t : Fin cfg0.N) (k : Fin 64) (j : Fin 64) :
    iblk0 V c 12 t (ix2 k j) = V c main_v18 (ix2 k j) := by
  obtain ⟨e0, e1⟩ := idx0_12 t
  show V c main_v18 (((cfg0.win 12).blk t).view.emb (ix2 k j)) = _
  congr 1
  funext a; apply Fin.ext
  match a with
  | ⟨0, _⟩ => show win0_12.index t (0 : Fin 2) * 64 + 1 * k.val = k.val; rw [e0]; omega
  | ⟨1, _⟩ => show win0_12.index t (1 : Fin 2) * 64 + 1 * j.val = j.val; rw [e1]; omega
/-- Window 13's block at every point is the whole array. -/
theorem blk0_13 (c : Dev nD) (t : Fin cfg0.N) (k : Fin 64) (j : Fin 64) :
    iblk0 V c 13 t (ix2 k j) = V c main_v19 (ix2 k j) := by
  obtain ⟨e0, e1⟩ := idx0_13 t
  show V c main_v19 (((cfg0.win 13).blk t).view.emb (ix2 k j)) = _
  congr 1
  funext a; apply Fin.ext
  match a with
  | ⟨0, _⟩ => show win0_13.index t (0 : Fin 2) * 64 + 1 * k.val = k.val; rw [e0]; omega
  | ⟨1, _⟩ => show win0_13.index t (1 : Fin 2) * 64 + 1 * j.val = j.val; rw [e1]; omega
/-- Window 14's block at every point is the whole array. -/
theorem blk0_14 (c : Dev nD) (t : Fin cfg0.N) (k : Fin 1) (j : Fin 64) :
    iblk0 V c 14 t (ix2 k j) = V c main_v25 (ix2 k j) := by
  obtain ⟨e0, e1⟩ := idx0_14 t
  show V c main_v25 (((cfg0.win 14).blk t).view.emb (ix2 k j)) = _
  congr 1
  funext a; apply Fin.ext
  match a with
  | ⟨0, _⟩ => show win0_14.index t (0 : Fin 2) * 1 + 1 * k.val = k.val; rw [e0]; omega
  | ⟨1, _⟩ => show win0_14.index t (1 : Fin 2) * 64 + 1 * j.val = j.val; rw [e1]; omega
/-- Window 15's block at every point is the whole array. -/
theorem blk0_15 (c : Dev nD) (t : Fin cfg0.N) (k : Fin 64) (j : Fin 64) :
    iblk0 V c 15 t (ix2 k j) = V c main_arg16 (ix2 k j) := by
  obtain ⟨e0, e1⟩ := idx0_15 t
  show V c main_arg16 (((cfg0.win 15).blk t).view.emb (ix2 k j)) = _
  congr 1
  funext a; apply Fin.ext
  match a with
  | ⟨0, _⟩ => show win0_15.index t (0 : Fin 2) * 64 + 1 * k.val = k.val; rw [e0]; omega
  | ⟨1, _⟩ => show win0_15.index t (1 : Fin 2) * 64 + 1 * j.val = j.val; rw [e1]; omega
/-- Window 16's block at every point is the whole array. -/
theorem blk0_16 (c : Dev nD) (t : Fin cfg0.N) (k : Fin 1) (j : Fin 64) :
    iblk0 V c 16 t (ix2 k j) = V c main_v26 (ix2 k j) := by
  obtain ⟨e0, e1⟩ := idx0_16 t
  show V c main_v26 (((cfg0.win 16).blk t).view.emb (ix2 k j)) = _
  congr 1
  funext a; apply Fin.ext
  match a with
  | ⟨0, _⟩ => show win0_16.index t (0 : Fin 2) * 1 + 1 * k.val = k.val; rw [e0]; omega
  | ⟨1, _⟩ => show win0_16.index t (1 : Fin 2) * 64 + 1 * j.val = j.val; rw [e1]; omega
/-- Window 17's block at every point is the whole array. -/
theorem blk0_17 (c : Dev nD) (t : Fin cfg0.N) (k : Fin 1) (j : Fin 64) :
    iblk0 V c 17 t (ix2 k j) = V c main_v29 (ix2 k j) := by
  obtain ⟨e0, e1⟩ := idx0_17 t
  show V c main_v29 (((cfg0.win 17).blk t).view.emb (ix2 k j)) = _
  congr 1
  funext a; apply Fin.ext
  match a with
  | ⟨0, _⟩ => show win0_17.index t (0 : Fin 2) * 1 + 1 * k.val = k.val; rw [e0]; omega
  | ⟨1, _⟩ => show win0_17.index t (1 : Fin 2) * 64 + 1 * j.val = j.val; rw [e1]; omega
/-- Window 18's block at every point is the whole array. -/
theorem blk0_18 (c : Dev nD) (t : Fin cfg0.N) (k : Fin 1) (j : Fin 64) :
    iblk0 V c 18 t (ix2 k j) = V c main_v30 (ix2 k j) := by
  obtain ⟨e0, e1⟩ := idx0_18 t
  show V c main_v30 (((cfg0.win 18).blk t).view.emb (ix2 k j)) = _
  congr 1
  funext a; apply Fin.ext
  match a with
  | ⟨0, _⟩ => show win0_18.index t (0 : Fin 2) * 1 + 1 * k.val = k.val; rw [e0]; omega
  | ⟨1, _⟩ => show win0_18.index t (1 : Fin 2) * 64 + 1 * j.val = j.val; rw [e1]; omega

/-- Entry `(p, q)` of output window 19's block at point `t` is entry `(6400·t + p, q)` of its array. -/
theorem emb0_19 (t : Fin cfg0.N) (p : Fin 6400) (q : Fin 64) :
    ((cfg0.win 19).blk t).view.emb (ix2 p q) = ix2 (rowOf0 t p) q := by
  obtain ⟨e0, e1⟩ := idx0_19 t
  funext a; apply Fin.ext
  match a with
  | ⟨0, _⟩ => show win0_19.index t (0 : Fin 2) * 6400 + 1 * p.val = t.val * 6400 + p.val; rw [e0]; omega
  | ⟨1, _⟩ => show win0_19.index t (1 : Fin 2) * 64 + 1 * q.val = q.val; rw [e1]; omega

/-- An index of the array is in point `t`'s block iff each coordinate is in the block's range on its axis. -/
theorem mem_blk0_19 (t : Fin cfg0.N) (i : S800000x64.Idx) :
    i ∈ ((cfg0.win 19).blk t).view.set ↔ ∀ a : Fin 2, win0_19.index t a * S6400x64.size a ≤ (i a).val ∧ (i a).val < win0_19.index t a * S6400x64.size a + S6400x64.size a := by
  show i ∈ ((View.whole main_v33_0).slice (win0_19.rect t)).set ↔ _
  rw [View.set_slice_whole, Rect.mem_set_unit]
  exact Iff.rfl

/-- Every row of the array lies in the block of the point `row / 6400`: the blocks tile the array. -/
theorem tiles0_19 (i : S800000x64.Idx) :
    ∃ t : Fin cfg0.N, (cfg0.win 19).flush t = true ∧ i ∈ ((cfg0.win 19).blk t).view.set := by
  have hN : cfg0.N = 125 := N_0
  have hi0 : (i 0).val < 800000 := (i 0).isLt
  have hi1 : (i 1).val < 64 := (i 1).isLt
  have ht : (i 0).val / 6400 < cfg0.N := by rw [hN]; omega
  obtain ⟨e0, e1⟩ := idx0_19 ⟨(i 0).val / 6400, ht⟩
  refine ⟨⟨(i 0).val / 6400, ht⟩, flush0_19 _, ?_⟩
  rw [mem_blk0_19]
  intro a
  match a with
  | ⟨0, _⟩ =>
    show win0_19.index ⟨(i 0).val / 6400, ht⟩ (0 : Fin 2) * 6400 ≤ (i 0).val ∧ (i 0).val < win0_19.index ⟨(i 0).val / 6400, ht⟩ (0 : Fin 2) * 6400 + 6400
    rw [e0]; show (i 0).val / 6400 * 6400 ≤ (i 0).val ∧ (i 0).val < (i 0).val / 6400 * 6400 + 6400; omega
  | ⟨1, _⟩ =>
    show win0_19.index ⟨(i 0).val / 6400, ht⟩ (1 : Fin 2) * 64 ≤ (i 1).val ∧ (i 1).val < win0_19.index ⟨(i 0).val / 6400, ht⟩ (1 : Fin 2) * 64 + 64
    rw [e1]; omega

/-- Entry `(p, q)` of output window 20's block at point `t` is entry `(6400·t + p, q)` of its array. -/
theorem emb0_20 (t : Fin cfg0.N) (p : Fin 6400) (q : Fin 64) :
    ((cfg0.win 20).blk t).view.emb (ix2 p q) = ix2 (rowOf0 t p) q := by
  obtain ⟨e0, e1⟩ := idx0_20 t
  funext a; apply Fin.ext
  match a with
  | ⟨0, _⟩ => show win0_20.index t (0 : Fin 2) * 6400 + 1 * p.val = t.val * 6400 + p.val; rw [e0]; omega
  | ⟨1, _⟩ => show win0_20.index t (1 : Fin 2) * 64 + 1 * q.val = q.val; rw [e1]; omega

/-- An index of the array is in point `t`'s block iff each coordinate is in the block's range on its axis. -/
theorem mem_blk0_20 (t : Fin cfg0.N) (i : S800000x64.Idx) :
    i ∈ ((cfg0.win 20).blk t).view.set ↔ ∀ a : Fin 2, win0_20.index t a * S6400x64.size a ≤ (i a).val ∧ (i a).val < win0_20.index t a * S6400x64.size a + S6400x64.size a := by
  show i ∈ ((View.whole main_v33_1).slice (win0_20.rect t)).set ↔ _
  rw [View.set_slice_whole, Rect.mem_set_unit]
  exact Iff.rfl

/-- Every row of the array lies in the block of the point `row / 6400`: the blocks tile the array. -/
theorem tiles0_20 (i : S800000x64.Idx) :
    ∃ t : Fin cfg0.N, (cfg0.win 20).flush t = true ∧ i ∈ ((cfg0.win 20).blk t).view.set := by
  have hN : cfg0.N = 125 := N_0
  have hi0 : (i 0).val < 800000 := (i 0).isLt
  have hi1 : (i 1).val < 64 := (i 1).isLt
  have ht : (i 0).val / 6400 < cfg0.N := by rw [hN]; omega
  obtain ⟨e0, e1⟩ := idx0_20 ⟨(i 0).val / 6400, ht⟩
  refine ⟨⟨(i 0).val / 6400, ht⟩, flush0_20 _, ?_⟩
  rw [mem_blk0_20]
  intro a
  match a with
  | ⟨0, _⟩ =>
    show win0_20.index ⟨(i 0).val / 6400, ht⟩ (0 : Fin 2) * 6400 ≤ (i 0).val ∧ (i 0).val < win0_20.index ⟨(i 0).val / 6400, ht⟩ (0 : Fin 2) * 6400 + 6400
    rw [e0]; show (i 0).val / 6400 * 6400 ≤ (i 0).val ∧ (i 0).val < (i 0).val / 6400 * 6400 + 6400; omega
  | ⟨1, _⟩ =>
    show win0_20.index ⟨(i 0).val / 6400, ht⟩ (1 : Fin 2) * 64 ≤ (i 1).val ∧ (i 1).val < win0_20.index ⟨(i 0).val / 6400, ht⟩ (1 : Fin 2) * 64 + 64
    rw [e1]; omega

/-! ## The two output arrays -/

/-- The message array: entry `(r, q)` is the gated message of edge `r` at feature `q`. -/
def msgArr (c : Dev nD) : S800000x64.Idx → EReal := fun i =>
  msgRow (fun k => V c main_v6 (ix2 (i 0) k)) (fun k => V c main_v13 (ix2 (i 0) k)) (fun k => V c main_arg1 (ix2 (i 0) k))
    (fun k j => V c main_v14 (ix2 k j)) (fun k j => V c main_v15 (ix2 k j)) (fun k j => V c main_v16 (ix2 k j)) (fun j => V c main_v22 (ix2 0 j))
    (fun k j => V c main_arg4 (ix2 k j)) (fun j => V c main_v23 (ix2 0 j)) (fun k j => V c main_arg6 (ix2 k j)) (fun j => V c main_v24 (ix2 0 j)) (i 1)

/-- The updated-edge array: entry `(r, q)` is the normalised update of edge `r` at feature `q`. -/
def edgeArr (c : Dev nD) : S800000x64.Idx → EReal := fun i =>
  edgeRow (fun k => V c main_v6 (ix2 (i 0) k)) (fun k => V c main_v13 (ix2 (i 0) k)) (fun k => V c main_arg1 (ix2 (i 0) k))
    (fun k j => V c main_v17 (ix2 k j)) (fun k j => V c main_v18 (ix2 k j)) (fun k j => V c main_v19 (ix2 k j)) (fun j => V c main_v25 (ix2 0 j))
    (fun k j => V c main_arg16 (ix2 k j)) (fun j => V c main_v26 (ix2 0 j)) (fun j => V c main_v29 (ix2 0 j)) (fun j => V c main_v30 (ix2 0 j)) (i 1)

/-- What point `t` writes back into the message array is block `t` of `msgArr`. -/
theorem msg_flushed (c : Dev nD) (t : Fin cfg0.N) :
    (dat0 (F := Ideal) V c).flushed 19 t = ((cfg0.win 19).blk t).view.read (Elt Ideal) (msgArr V c) := by
  show (cfg0.win 19).cut (grid0.coords t) ((dat0 (F := Ideal) V c).after 19 t) = _
  rw [after0_19]
  funext y
  obtain ⟨p, q, rfl⟩ : ∃ (p : Fin 6400) (q : Fin 64), y = ix2 p q := ⟨y 0, y 1, eq_ix2 y⟩
  show out0_19 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (ix2 p q) = msgArr V c (((cfg0.win 19).blk t).view.emb (ix2 p q))
  rw [emb0_19 t p q]
  refine (Cert.KernelRows.msg_entry (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) p q).trans ?_
  show _ = msgRow _ _ _ _ _ _ _ _ _ _ _ q
  simp only [blk0_0 V c t p, blk0_1 V c t p, blk0_2 V c t p, blk0_3 V c t, blk0_4 V c t, blk0_5 V c t, blk0_6 V c t, blk0_7 V c t,
    blk0_8 V c t, blk0_9 V c t, blk0_10 V c t]

/-- What point `t` writes back into the updated-edge array is block `t` of `edgeArr`. -/
theorem edge_flushed (c : Dev nD) (t : Fin cfg0.N) :
    (dat0 (F := Ideal) V c).flushed 20 t = ((cfg0.win 20).blk t).view.read (Elt Ideal) (edgeArr V c) := by
  show (cfg0.win 20).cut (grid0.coords t) ((dat0 (F := Ideal) V c).after 20 t) = _
  rw [after0_20]
  funext y
  obtain ⟨p, q, rfl⟩ : ∃ (p : Fin 6400) (q : Fin 64), y = ix2 p q := ⟨y 0, y 1, eq_ix2 y⟩
  show out0_20 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (ix2 p q) = edgeArr V c (((cfg0.win 20).blk t).view.emb (ix2 p q))
  rw [emb0_20 t p q]
  refine (Cert.KernelRows.edge_entry (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) p q).trans ?_
  show _ = edgeRow _ _ _ _ _ _ _ _ _ _ _ q
  simp only [blk0_0 V c t p, blk0_1 V c t p, blk0_2 V c t p, blk0_11 V c t, blk0_12 V c t, blk0_13 V c t, blk0_14 V c t, blk0_15 V c t,
    blk0_16 V c t, blk0_17 V c t, blk0_18 V c t]

/-- The message array after the region. -/
theorem msg_final (c : Dev nD) : (dat0 (F := Ideal) V c).arrAt 19 cfg0.N = msgArr V c :=
  (dat0 (F := Ideal) V c).arrAt_eq_of_cover 19 (msgArr V c) (fun t _ => msg_flushed V c t) tiles0_19

/-- The updated-edge array after the region. -/
theorem edge_final (c : Dev nD) : (dat0 (F := Ideal) V c).arrAt 20 cfg0.N = edgeArr V c :=
  (dat0 (F := Ideal) V c).arrAt_eq_of_cover 20 (edgeArr V c) (fun t _ => edge_flushed V c t) tiles0_20

end Cert.KernelIdeal.EdgeBlocks

end
-- ==== Proof.KernelNodeBlocks.lean ====
/-
  The node region's output array as a whole-array function of the arrays the region finds.

  The region walks 10 grid points; point `t` stages rows `5000·t … 5000·t + 4999` of the node features and of the
  aggregated messages, the whole of every weight and bias, and writes back rows `5000·t …` of the output. An output
  entry `(r, q)` depends on row `r` of the two inputs only: the array is `nodeRow` of those rows. The blocks of the 10
  points tile the 50000 rows (row `r` lies in the block of point `r / 5000`).
-/
import proofs.«172656_j21157008900637_1_alg».proof.Proof.Gen.KernelIdeal.Frame
import proofs.«172656_j21157008900637_1_alg».proof.Proof.GraphSpec
import proofs.«172656_j21157008900637_1_alg».proof.Proof.KernelRows
import Idealize.ShloMosaic.Lib.Pipeline.Value
import Idealize.ShloMosaic.Lib.ValueIdx

set_option maxRecDepth 16384

noncomputable section

namespace Cert.KernelIdeal.NodeBlocks

open Cert.KernelIdeal Cert.KernelIdeal.Gen Cert.GraphSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The index maps over the grid, and each window's block read at an entry -/

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)
theorem idx1_8 : ∀ t : Fin cfg1.N, win1_8.index t (0 : Fin 2) = 0 ∧ win1_8.index t (1 : Fin 2) = 0 :=
  (by decide +kernel : ∀ t : Fin grid1.N, _)
theorem idx1_9 : ∀ t : Fin cfg1.N, win1_9.index t (0 : Fin 2) = t.val ∧ win1_9.index t (1 : Fin 2) = 0 :=
  (by decide +kernel : ∀ t : Fin grid1.N, _)

/-- Row `p` of the block of grid point `t` is row `5000·t + p` of the array. -/
def rowOf1 (t : Fin cfg1.N) (p : Fin 5000) : Fin 50000 :=
  ⟨t.val * 5000 + p.val, by have h1 := t.isLt; have h2 : cfg1.N = 10 := N_1; have h3 := p.isLt; omega⟩

/-- Window 0's block at point `t`: its rows are the array's rows `5000·t …`. -/
theorem blk1_0 (c : Dev nD) (t : Fin cfg1.N) (p : Fin 5000) (k : Fin 64) :
    iblk1 V c 0 t (ix2 p k) = V c main_arg0 (ix2 (rowOf1 t p) k) := by
  obtain ⟨e0, e1⟩ := idx1_0 t
  show V c main_arg0 (((cfg1.win 0).blk t).view.emb (ix2 p k)) = _
  congr 1
  funext a; apply Fin.ext
  match a with
  | ⟨0, _⟩ => show win1_0.index t (0 : Fin 2) * 5000 + 1 * p.val = t.val * 5000 + p.val; rw [e0]; omega
  | ⟨1, _⟩ => show win1_0.index t (1 : Fin 2) * 64 + 1 * k.val = k.val; rw [e1]; omega
/-- Window 1's block at point `t`: its rows are the array's rows `5000·t …`. -/
theorem blk1_1 (c : Dev nD) (t : Fin cfg1.N) (p : Fin 5000) (k : Fin 64) :
    iblk1 V c 1 t (ix2 p k) = V c main_v36 (ix2 (rowOf1 t p) k) := by
  obtain ⟨e0, e1⟩ := idx1_1 t
  show V c main_v36 (((cfg1.win 1).blk t).view.emb (ix2 p k)) = _
  congr 1
  funext a; apply Fin.ext
  match a with
  | ⟨0, _⟩ => show win1_1.index t (0 : Fin 2) * 5000 + 1 * p.val = t.val * 5000 + p.val; rw [e0]; omega
  | ⟨1, _⟩ => show win1_1.index t (1 : Fin 2) * 64 + 1 * k.val = k.val; rw [e1]; omega
/-- Window 2's block at every point is the whole array. -/
theorem blk1_2 (c : Dev nD) (t : Fin cfg1.N) (k : Fin 64) (j : Fin 64) :
    iblk1 V c 2 t (ix2 k j) = V c main_v20 (ix2 k j) := by
  obtain ⟨e0, e1⟩ := idx1_2 t
  show V c main_v20 (((cfg1.win 2).blk t).view.emb (ix2 k j)) = _
  congr 1
  funext a; apply Fin.ext
  match a with
  | ⟨0, _⟩ => show win1_2.index t (0 : Fin 2) * 64 + 1 * k.val = k.val; rw [e0]; omega
  | ⟨1, _⟩ => show win1_2.index t (1 : Fin 2) * 64 + 1 * j.val = j.val; rw [e1]; omega
/-- Window 3's block at every point is the whole array. -/
theorem blk1_3 (c : Dev nD) (t : Fin cfg1.N) (k : Fin 64) (j : Fin 64) :
    iblk1 V c 3 t (ix2 k j) = V c main_v21 (ix2 k j) := by
  obtain ⟨e0, e1⟩ := idx1_3 t
  show V c main_v21 (((cfg1.win 3).blk t).view.emb (ix2 k j)) = _
  congr 1
  funext a; apply Fin.ext
  match a with
  | ⟨0, _⟩ => show win1_3.index t (0 : Fin 2) * 64 + 1 * k.val = k.val; rw [e0]; omega
  | ⟨1, _⟩ => show win1_3.index t (1 : Fin 2) * 64 + 1 * j.val = j.val; rw [e1]; omega
/-- Window 4's block at every point is the whole array. -/
theorem blk1_4 (c : Dev nD) (t : Fin cfg1.N) (k : Fin 1) (j : Fin 64) :
    iblk1 V c 4 t (ix2 k j) = V c main_v27 (ix2 k j) := by
  obtain ⟨e0, e1⟩ := idx1_4 t
  show V c main_v27 (((cfg1.win 4).blk t).view.emb (ix2 k j)) = _
  congr 1
  funext a; apply Fin.ext
  match a with
  | ⟨0, _⟩ => show win1_4.index t (0 : Fin 2) * 1 + 1 * k.val = k.val; rw [e0]; omega
  | ⟨1, _⟩ => show win1_4.index t (1 : Fin 2) * 64 + 1 * j.val = j.val; rw [e1]; omega
/-- Window 5's block at every point is the whole array. -/
theorem blk1_5 (c : Dev nD) (t : Fin cfg1.N) (k : Fin 64) (j : Fin 64) :
    iblk1 V c 5 t (ix2 k j) = V c main_arg12 (ix2 k j) := by
  obtain ⟨e0, e1⟩ := idx1_5 t
  show V c main_arg12 (((cfg1.win 5).blk t).view.emb (ix2 k j)) = _
  congr 1
  funext a; apply Fin.ext
  match a with
  | ⟨0, _⟩ => show win1_5.index t (0 : Fin 2) * 64 + 1 * k.val = k.val; rw [e0]; omega
  | ⟨1, _⟩ => show win1_5.index t (1 : Fin 2) * 64 + 1 * j.val = j.val; rw [e1]; omega
/-- Window 6's block at every point is the whole array. -/
theorem blk1_6 (c : Dev nD) (t : Fin cfg1.N) (k : Fin 1) (j : Fin 64) :
    iblk1 V c 6 t (ix2 k j) = V c main_v28 (ix2 k j) := by
  obtain ⟨e0, e1⟩ := idx1_6 t
  show V c main_v28 (((cfg1.win 6).blk t).view.emb (ix2 k j)) = _
  congr 1
  funext a; apply Fin.ext
  match a with
  | ⟨0, _⟩ => show win1_6.index t (0 : Fin 2) * 1 + 1 * k.val = k.val; rw [e0]; omega
  | ⟨1, _⟩ => show win1_6.index t (1 : Fin 2) * 64 + 1 * j.val = j.val; rw [e1]; omega
/-- Window 7's block at every point is the whole array. -/
theorem blk1_7 (c : Dev nD) (t : Fin cfg1.N) (k : Fin 1) (j : Fin 64) :
    iblk1 V c 7 t (ix2 k j) = V c main_v31 (ix2 k j) := by
  obtain ⟨e0, e1⟩ := idx1_7 t
  show V c main_v31 (((cfg1.win 7).blk t).view.emb (ix2 k j)) = _
  congr 1
  funext a; apply Fin.ext
  match a with
  | ⟨0, _⟩ => show win1_7.index t (0 : Fin 2) * 1 + 1 * k.val = k.val; rw [e0]; omega
  | ⟨1, _⟩ => show win1_7.index t (1 : Fin 2) * 64 + 1 * j.val = j.val; rw [e1]; omega
/-- Window 8's block at every point is the whole array. -/
theorem blk1_8 (c : Dev nD) (t : Fin cfg1.N) (k : Fin 1) (j : Fin 64) :
    iblk1 V c 8 t (ix2 k j) = V c main_v32 (ix2 k j) := by
  obtain ⟨e0, e1⟩ := idx1_8 t
  show V c main_v32 (((cfg1.win 8).blk t).view.emb (ix2 k j)) = _
  congr 1
  funext a; apply Fin.ext
  match a with
  | ⟨0, _⟩ => show win1_8.index t (0 : Fin 2) * 1 + 1 * k.val = k.val; rw [e0]; omega
  | ⟨1, _⟩ => show win1_8.index t (1 : Fin 2) * 64 + 1 * j.val = j.val; rw [e1]; omega

/-- Entry `(p, q)` of output window 9's block at point `t` is entry `(5000·t + p, q)` of its array. -/
theorem emb1_9 (t : Fin cfg1.N) (p : Fin 5000) (q : Fin 64) :
    ((cfg1.win 9).blk t).view.emb (ix2 p q) = ix2 (rowOf1 t p) q := by
  obtain ⟨e0, e1⟩ := idx1_9 t
  funext a; apply Fin.ext
  match a with
  | ⟨0, _⟩ => show win1_9.index t (0 : Fin 2) * 5000 + 1 * p.val = t.val * 5000 + p.val; rw [e0]; omega
  | ⟨1, _⟩ => show win1_9.index t (1 : Fin 2) * 64 + 1 * q.val = q.val; rw [e1]; omega

/-- An index of the array is in point `t`'s block iff each coordinate is in the block's range on its axis. -/
theorem mem_blk1_9 (t : Fin cfg1.N) (i : S50000x64.Idx) :
    i ∈ ((cfg1.win 9).blk t).view.set ↔ ∀ a : Fin 2, win1_9.index t a * S5000x64.size a ≤ (i a).val ∧ (i a).val < win1_9.index t a * S5000x64.size a + S5000x64.size a := by
  show i ∈ ((View.whole main_v37).slice (win1_9.rect t)).set ↔ _
  rw [View.set_slice_whole, Rect.mem_set_unit]
  exact Iff.rfl

/-- Every row of the array lies in the block of the point `row / 5000`: the blocks tile the array. -/
theorem tiles1_9 (i : S50000x64.Idx) :
    ∃ t : Fin cfg1.N, (cfg1.win 9).flush t = true ∧ i ∈ ((cfg1.win 9).blk t).view.set := by
  have hN : cfg1.N = 10 := N_1
  have hi0 : (i 0).val < 50000 := (i 0).isLt
  have hi1 : (i 1).val < 64 := (i 1).isLt
  have ht : (i 0).val / 5000 < cfg1.N := by rw [hN]; omega
  obtain ⟨e0, e1⟩ := idx1_9 ⟨(i 0).val / 5000, ht⟩
  refine ⟨⟨(i 0).val / 5000, ht⟩, flush1_9 _, ?_⟩
  rw [mem_blk1_9]
  intro a
  match a with
  | ⟨0, _⟩ =>
    show win1_9.index ⟨(i 0).val / 5000, ht⟩ (0 : Fin 2) * 5000 ≤ (i 0).val ∧ (i 0).val < win1_9.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_9.index ⟨(i 0).val / 5000, ht⟩ (1 : Fin 2) * 64 ≤ (i 1).val ∧ (i 1).val < win1_9.index ⟨(i 0).val / 5000, ht⟩ (1 : Fin 2) * 64 + 64
    rw [e1]; omega

/-! ## The output array -/

/-- The updated-node array: entry `(r, q)` is the normalised update of node `r` at feature `q`. -/
def nodeArr (c : Dev nD) : S50000x64.Idx → EReal := fun i =>
  nodeRow (fun k => V c main_arg0 (ix2 (i 0) k)) (fun k => V c main_v36 (ix2 (i 0) k))
    (fun k j => V c main_v20 (ix2 k j)) (fun k j => V c main_v21 (ix2 k j)) (fun j => V c main_v27 (ix2 0 j))
    (fun k j => V c main_arg12 (ix2 k j)) (fun j => V c main_v28 (ix2 0 j)) (fun j => V c main_v31 (ix2 0 j)) (fun j => V c main_v32 (ix2 0 j)) (i 1)

/-- What point `t` writes back is block `t` of `nodeArr`. -/
theorem node_flushed (c : Dev nD) (t : Fin cfg1.N) :
    (dat1 (F := Ideal) V c).flushed 9 t = ((cfg1.win 9).blk t).view.read (Elt Ideal) (nodeArr V c) := by
  show (cfg1.win 9).cut (grid1.coords t) ((dat1 (F := Ideal) V c).after 9 t) = _
  rw [after1_9]
  funext y
  obtain ⟨p, q, rfl⟩ : ∃ (p : Fin 5000) (q : Fin 64), y = ix2 p q := ⟨y 0, y 1, eq_ix2 y⟩
  show out1_9 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (ix2 p q) = nodeArr V c (((cfg1.win 9).blk t).view.emb (ix2 p q))
  rw [emb1_9 t p q]
  refine (Cert.KernelRows.node_entry (iblk1 V c 0 t) (iblk1 V c 1 t) (iblk1 V c 2 t) (iblk1 V c 3 t) (iblk1 V c 4 t) (iblk1 V c 5 t) (iblk1 V c 6 t) (iblk1 V c 7 t) (iblk1 V c 8 t) p q).trans ?_
  show _ = nodeRow _ _ _ _ _ _ _ _ _ q
  simp only [blk1_0 V c t p, blk1_1 V c t p, blk1_2 V c t, blk1_3 V c t, blk1_4 V c t, blk1_5 V c t, blk1_6 V c t, blk1_7 V c t, blk1_8 V c t]

/-- The updated-node array after the region. -/
theorem node_final (c : Dev nD) : (dat1 (F := Ideal) V c).arrAt 9 cfg1.N = nodeArr V c :=
  (dat1 (F := Ideal) V c).arrAt_eq_of_cover 9 (nodeArr V c) (fun t _ => node_flushed V c t) tiles1_9

end Cert.KernelIdeal.NodeBlocks

end
-- ==== Proof.LibHostRead.lean ====
/-
  The host's whole-array operations read at one entry, general in the extents.

  * a vector laid out as a one-row matrix, a row repeated down the rows, a vector laid out as a one-column matrix, a
    column repeated across the columns, and a rank-zero array repeated everywhere: each reads ONE element of its operand;
  * the sum of a matrix over its column axis from an initial value: at row `p` the initial value plus
    `∑ k, x (p, k)`;
  * the fold of `max` over the column axis from the word `-inf`: at row `p` the fold over `k` of `x (p, k)`; the
    word `-inf` is the least extended real, so a further `max` with it changes nothing.
-/
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

open scoped BigOperators

namespace Cert.HostRead

open Idealize.ShloMosaic Idealize.ShloMosaic.ValueIdx

variable {α : Type} {m n : Nat}

/-! ## Layouts -/

/-- A vector as a one-row matrix: entry `(u, k)` is the vector's entry `k`. -/
theorem vec_row_apply (b : (⟨1, ![n]⟩ : Shape).Idx → α) (h : (⟨1, ![n]⟩ : Shape).BroadcastsInDim ⟨2, ![1, n]⟩ ![1])
    (u : Fin 1) (k : Fin n) : broadcastInDim ⟨2, ![1, n]⟩ ![1] h b (ix2 u k) = b (ix1 k) :=
  broadcastInDim_apply _ h b (ix2 u k) (ix1 k) (fun a => match a with
    | ⟨0, _⟩ => by
      show k.val = if n = 1 then 0 else k.val
      split
      · have := k.isLt; omega
      · rfl)

/-- A one-row matrix repeated down the rows: entry `(p, k)` is the row's entry `(0, k)`. -/
theorem row_rows_apply (x : (⟨2, ![1, n]⟩ : Shape).Idx → α) (h : (⟨2, ![1, n]⟩ : Shape).BroadcastsInDim ⟨2, ![m, n]⟩ ![0, 1])
    (p : Fin m) (k : Fin n) : broadcastInDim ⟨2, ![m, n]⟩ ![0, 1] h x (ix2 p k) = x (ix2 0 k) :=
  broadcastInDim_apply _ h x (ix2 p k) (ix2 0 k) (fun a => match a with
    | ⟨0, _⟩ => by show (0 : ℕ) = if (1 : ℕ) = 1 then 0 else _; rw [if_pos rfl]
    | ⟨1, _⟩ => by
      show k.val = if n = 1 then 0 else k.val
      split
      · have := k.isLt; omega
      · rfl)

/-- A vector as a one-column matrix: entry `(p, u)` is the vector's entry `p`. -/
theorem vec_col_apply (x : (⟨1, ![m]⟩ : Shape).Idx → α) (h : (⟨1, ![m]⟩ : Shape).BroadcastsInDim ⟨2, ![m, 1]⟩ ![0])
    (p : Fin m) (u : Fin 1) : broadcastInDim ⟨2, ![m, 1]⟩ ![0] h x (ix2 p u) = x (ix1 p) :=
  broadcastInDim_apply _ h x (ix2 p u) (ix1 p) (fun a => match a with
    | ⟨0, _⟩ => by
      show p.val = if m = 1 then 0 else p.val
      split
      · have := p.isLt; omega
      · rfl)

/-- A one-column matrix repeated across the columns: entry `(p, k)` is the column's entry `(p, 0)`. -/
theorem col_cols_apply (x : (⟨2, ![m, 1]⟩ : Shape).Idx → α) (h : (⟨2, ![m, 1]⟩ : Shape).BroadcastsInDim ⟨2, ![m, n]⟩ ![0, 1])
    (p : Fin m) (k : Fin n) : broadcastInDim ⟨2, ![m, n]⟩ ![0, 1] h x (ix2 p k) = x (ix2 p 0) :=
  broadcastInDim_apply _ h x (ix2 p k) (ix2 p 0) (fun a => match a with
    | ⟨0, _⟩ => by
      show p.val = if m = 1 then 0 else p.val
      split
      · have := p.isLt; omega
      · rfl
    | ⟨1, _⟩ => by show (0 : ℕ) = if (1 : ℕ) = 1 then 0 else _; rw [if_pos rfl])

/-- A rank-zero array repeated everywhere reads its one element. -/
theorem scalar_apply (t : Shape) (x : (⟨0, ![]⟩ : Shape).Idx → α) (h : (⟨0, ![]⟩ : Shape).BroadcastsInDim t ![]) (j : t.Idx) :
    broadcastInDim t ![] h x j = x (fun a => a.elim0) :=
  broadcastInDim_apply _ h x j (fun a => a.elim0) (fun a => a.elim0)

/-- A float word repeated everywhere, over the extended reals. -/
theorem word_apply (t : Shape) (w : BitVec 32) (h : (⟨0, ![]⟩ : Shape).BroadcastsInDim t ![]) (j : t.Idx) :
    broadcastInDim t ![] h (constant (F := Ideal) (⟨0, ![]⟩ : Shape) .f32 w) j = Ideal.ofBits .f32 w :=
  scalar_apply t _ h j

/-! ## Reductions over the column axis -/

/-- The row index `p` with column `k` put back is `(p, k)`. -/
theorem lift_row (h : (⟨2, ![m, n]⟩ : Shape).Reduces [1] (⟨1, ![m]⟩ : Shape)) (p : Fin m) (k : Fin n) :
    h.lift (ix1 p) k = ix2 p k := by
  funext c; apply Fin.ext
  fin_cases c <;> rfl

/-- The host's sum over the columns, at row `p`: the initial value plus the sum of the row. -/
theorem reduceAdd_row_apply (x : (⟨2, ![m, n]⟩ : Shape).Idx → EReal) (init : (⟨0, ![]⟩ : Shape).Idx → EReal)
    (h' : (⟨2, ![m, n]⟩ : Shape).ReducesTo [1] (⟨1, ![m]⟩ : Shape)) (hu : 0 < (⟨0, ![]⟩ : Shape).numel) (p : Fin m) :
    Host.reduceAdd (F := Ideal) (φ := .f32) x init h' hu (ix1 p) = init (Shape.Idx.first hu) + ∑ k : Fin n, x (ix2 p k) := by
  have hr : (⟨2, ![m, n]⟩ : Shape).Reduces [1] (⟨1, ![m]⟩ : Shape) := ⟨h'.1, Nat.one_pos, h'.2⟩
  simp only [Host.reduceAdd, Ideal.hostReduceAdd_def]
  rw [Ideal.hostReduceAdd_single h' hr]
  refine congrArg (_ + ·) (Finset.sum_congr rfl fun k _ => ?_)
  exact congrArg x (lift_row hr p k)

/-- The host's sum over the columns from the zero word, at row `p`: the sum of the row. -/
theorem reduceAdd_row_zero_apply (x : (⟨2, ![m, n]⟩ : Shape).Idx → EReal)
    (h' : (⟨2, ![m, n]⟩ : Shape).ReducesTo [1] (⟨1, ![m]⟩ : Shape)) (hu : 0 < (⟨0, ![]⟩ : Shape).numel) (p : Fin m) :
    Host.reduceAdd (F := Ideal) (φ := .f32) x (constant (F := Ideal) (⟨0, ![]⟩ : Shape) .f32 0x00000000#32) h' hu (ix1 p)
      = ∑ k : Fin n, x (ix2 p k) := by
  rw [reduceAdd_row_apply]
  show Ideal.ofBits .f32 0x00000000#32 + _ = _
  rw [Ideal.ofBits_zero_f32, zero_add]

/-- The word `-inf` is the least extended real. -/
theorem max_negInf (y : EReal) : max (Ideal.ofBits .f32 0xFF800000#32) y = y := by
  simp [Ideal.ofBits, Ideal.ieee]

/-- The host's fold of `max` over the columns from the word `-inf`, at row `p`: the fold over the row. -/
theorem reduceMax_row_apply (x : FVec Ideal ⟨2, ![m, n]⟩ .f32)
    (h' : (⟨2, ![m, n]⟩ : Shape).ReducesTo [1] (⟨1, ![m]⟩ : Shape)) (hu : 0 < (⟨0, ![]⟩ : Shape).numel) (p : Fin m) :
    Host.reduce (FloatOps.maximumf (F := Ideal) (φ := .f32)) x (constant (F := Ideal) (⟨0, ![]⟩ : Shape) .f32 0xFF800000#32) h' hu (ix1 p)
      = (Finset.univ : Finset (Fin n)).fold (max : EReal → EReal → EReal) (Ideal.ofBits .f32 0xFF800000#32 : EReal)
          (fun k => (x (ix2 p k) : EReal)) := by
  have hr : (⟨2, ![m, n]⟩ : Shape).Reduces [1] (⟨1, ![m]⟩ : Shape) := ⟨h'.1, Nat.one_pos, h'.2⟩
  refine (Host.reduce_eq_fold_single FloatOps.maximumf x _ h' hr hu (ix1 p)).trans ?_
  have hf : (x ∘ hr.lift (ix1 p)) = fun k : Fin n => x (ix2 p k) := funext fun k => congrArg x (lift_row hr p k)
  exact congrArg (fun f => Finset.fold max (Ideal.ofBits .f32 0xFF800000#32) f (Finset.univ : Finset (Fin n))) hf

/-- One more `max` with the word `-inf` repeated along a vector: at `p` the other operand's entry. -/
theorem maxWord_apply (r : FVec Ideal ⟨1, ![m]⟩ .f32) (h : (⟨0, ![]⟩ : Shape).BroadcastsInDim ⟨1, ![m]⟩ ![]) (p : Fin m) (v : EReal)
    (hr : r (ix1 p) = v) :
    maximumf (broadcastInDim ⟨1, ![m]⟩ ![] h (constant (F := Ideal) (⟨0, ![]⟩ : Shape) .f32 0xFF800000#32)) r (ix1 p) = v := by
  refine (congrArg₂ (max : EReal → EReal → EReal) (word_apply ⟨1, ![m]⟩ _ h (ix1 p)) hr).trans ?_
  exact max_negInf v

/-! ## Pointwise host operations -/

theorem hostLog_apply {s : Shape} (y : FVec Ideal s .f32) (i : s.Idx) : Host.log (F := Ideal) y i = Ideal.log (y i) := rfl
theorem hostExp_apply {s : Shape} (y : FVec Ideal s .f32) (i : s.Idx) : Host.exp (F := Ideal) y i = Ideal.exp (y i) := rfl
theorem hostRsqrt_apply {s : Shape} (y : FVec Ideal s .f32) (i : s.Idx) : Host.rsqrt (F := Ideal) y i = Ideal.rsqrt (y i) := rfl
theorem hostDivf_apply {s : Shape} (x y : FVec Ideal s .f32) (i : s.Idx) : Host.divf (F := Ideal) x y i = Ideal.div (x i) (y i) := rfl
theorem addf_apply {s : Shape} (x y : FVec Ideal s .f32) (i : s.Idx) : addf x y i = x i + y i := rfl
theorem subf_apply {s : Shape} (x y : FVec Ideal s .f32) (i : s.Idx) : subf x y i = x i - y i := rfl
theorem mulf_apply {s : Shape} (x y : FVec Ideal s .f32) (i : s.Idx) : mulf x y i = x i * y i := rfl
theorem maximumf_apply {s : Shape} (x y : FVec Ideal s .f32) (i : s.Idx) : maximumf x y i = max (x i) (y i) := rfl

end Cert.HostRead

end
-- ==== Proof.LibConcatCols.lean ====
/-
  Two matrices set side by side, read at one entry. General in the extents and in the element type.

  The concatenation along the columns of `[R, a]` and `[R, b]` is a matrix with `n` columns (`n = a + b`, taken as
  the shape fact gives it): an entry in one of the first `a` columns is the first matrix's entry in that column, an
  entry in column `a + k` is the second matrix's entry in column `k`.
-/
import Idealize.ShloMosaic.Lib.Pipeline.Value
import Idealize.ShloMosaic.Lib.ValueIdx

noncomputable section

namespace Cert.ConcatCols

open Idealize.ShloMosaic Idealize.ShloMosaic.ValueIdx

variable {α : Type} {R a b n : Nat}

/-- Column `k` of the first `a` columns. -/
theorem left_apply (x₁ : (⟨2, ![R, a]⟩ : Shape).Idx → α) (x₂ : (⟨2, ![R, b]⟩ : Shape).Idx → α)
    (h : Shape.Concatenates [(⟨2, ![R, a]⟩ : Shape), ⟨2, ![R, b]⟩] ⟨2, ![R, n]⟩ 1) (r : Fin R) (k : Fin a) (hk : k.val < n) :
    concatenate ⟨2, ![R, n]⟩ 1 [⟨⟨2, ![R, a]⟩, x₁⟩, ⟨⟨2, ![R, b]⟩, x₂⟩] h (ix2 r (⟨k.val, hk⟩ : Fin n)) = x₁ (ix2 r k) :=
  concatenate_pair_apply_left 1 x₁ x₂ h (ix2 r (⟨k.val, hk⟩ : Fin n)) rfl (ix2 r k) (fun c => match c with
    | ⟨0, _⟩ => rfl
    | ⟨1, _⟩ => rfl)

/-- Column `a + k`: column `k` of the second matrix. -/
theorem right_apply (x₁ : (⟨2, ![R, a]⟩ : Shape).Idx → α) (x₂ : (⟨2, ![R, b]⟩ : Shape).Idx → α)
    (h : Shape.Concatenates [(⟨2, ![R, a]⟩ : Shape), ⟨2, ![R, b]⟩] ⟨2, ![R, n]⟩ 1) (r : Fin R) (k : Fin b) (hk : a + k.val < n) :
    concatenate ⟨2, ![R, n]⟩ 1 [⟨⟨2, ![R, a]⟩, x₁⟩, ⟨⟨2, ![R, b]⟩, x₂⟩] h (ix2 r (⟨a + k.val, hk⟩ : Fin n)) = x₂ (ix2 r k) :=
  concatenate_pair_apply_right 1 x₁ x₂ h (ix2 r (⟨a + k.val, hk⟩ : Fin n)) rfl rfl (ix2 r k)
    (fun c hc => match c, hc with
      | ⟨0, _⟩, _ => rfl
      | ⟨1, _⟩, hc => absurd rfl hc)
    (by show k.val + a = a + k.val; omega)

end Cert.ConcatCols

end
-- ==== Proof.RefRows.lean ====
/-
  The reference program of one edge-gated graph layer, read one row at a time.

  Each of the three results of the layer — the gated message of an edge, the updated edge row, the updated node row —
  is, at row `r` and feature `q`, the row function of `GraphSpec` applied to row `r` of its operands: the gathered
  source and destination rows, the edge row, and the weights. The gathers and the scatter stay opaque arrays. A product
  against a weight stacked by rows from three (two) 64-row blocks is read through the concatenation of the three (two)
  operands along the columns, and splits into the sum of the three (two) 64-term products.
-/
import proofs.«172656_j21157008900637_1_alg».proof.Proof.Gen.ReferenceIdeal.Read
import proofs.«172656_j21157008900637_1_alg».proof.Proof.GraphSpec
import proofs.«172656_j21157008900637_1_alg».proof.Proof.LibHostRead
import proofs.«172656_j21157008900637_1_alg».proof.Proof.LibConcatCols

noncomputable section

open scoped BigOperators

namespace Cert.RefRows

open Cert.ReferenceIdeal Cert.ReferenceIdeal.Gen Cert.ReferenceIdeal.Read Idealize.ShloMosaic Idealize.ShloMosaic.ValueIdx Cert.GraphSpec

variable (x0 : (⟨S50000x64, .f32⟩ : BufTy).Contents (Elt Ideal)) (x1 : (⟨S800000x64, .f32⟩ : BufTy).Contents (Elt Ideal))
  (x2 x3 : (⟨S800000, .i32⟩ : BufTy).Contents (Elt Ideal))
  (x4 : (⟨S64x64, .f32⟩ : BufTy).Contents (Elt Ideal)) (x5 : (⟨S64, .f32⟩ : BufTy).Contents (Elt Ideal))
  (x6 : (⟨S64x64, .f32⟩ : BufTy).Contents (Elt Ideal)) (x7 : (⟨S64, .f32⟩ : BufTy).Contents (Elt Ideal))
  (x8 : (⟨S192x64, .f32⟩ : BufTy).Contents (Elt Ideal)) (x9 : (⟨S64, .f32⟩ : BufTy).Contents (Elt Ideal))
  (x10 : (⟨S128x64, .f32⟩ : BufTy).Contents (Elt Ideal)) (x11 : (⟨S64, .f32⟩ : BufTy).Contents (Elt Ideal))
  (x12 : (⟨S64x64, .f32⟩ : BufTy).Contents (Elt Ideal)) (x13 : (⟨S64, .f32⟩ : BufTy).Contents (Elt Ideal))
  (x14 : (⟨S192x64, .f32⟩ : BufTy).Contents (Elt Ideal)) (x15 : (⟨S64, .f32⟩ : BufTy).Contents (Elt Ideal))
  (x16 : (⟨S64x64, .f32⟩ : BufTy).Contents (Elt Ideal)) (x17 : (⟨S64, .f32⟩ : BufTy).Contents (Elt Ideal))
  (x18 x19 x20 x21 : (⟨S64, .f32⟩ : BufTy).Contents (Elt Ideal))

/-! ## Indices and words -/

/-- A rank-2 index with known coordinates. -/
theorem ix2_of {n0 n1 : Nat} (i : (⟨2, ![n0, n1]⟩ : Shape).Idx) (a : Fin n0) (b : Fin n1) (h0 : i 0 = a) (h1 : i 1 = b) :
    i = ix2 a b := by
  funext d; match d with | ⟨0, _⟩ => exact h0 | ⟨1, _⟩ => exact h1

/-- A rank-1 index with known coordinate. -/
theorem ix1_of {n : Nat} (i : (⟨1, ![n]⟩ : Shape).Idx) (a : Fin n) (h0 : i 0 = a) : i = ix1 a := by
  funext d; match d with | ⟨0, _⟩ => exact h0

/-- The float word `0x3F800000` is one. -/
theorem word_one : Ideal.ofBits .f32 0x3F800000#32 = 1 := by
  simp [Ideal.ofBits, Ideal.ieee, -EReal.coe_mul]; norm_num

/-! ## Three matrices side by side -/

section Concat3
variable (y0 y1 y2 : (⟨S800000x64, .f32⟩ : BufTy).Contents (Elt Ideal)) (r : Fin 800000) (k : Fin 64)

/-- Columns `0 … 63` of the three joined matrices are the first matrix. -/
theorem concat3_left (hk : k.val < 192) :
    concatenate S800000x192 1 [⟨S800000x64, y0⟩, ⟨S800000x64, y1⟩, ⟨S800000x64, y2⟩] concatenates_S800000x64_S800000x64_S800000x64_S800000x192_d1 (ix2 r (⟨k.val, hk⟩ : Fin 192)) = y0 (ix2 r k) :=
  concatenate_apply_piece (t := S800000x192) 1 [⟨S800000x64, y0⟩, ⟨S800000x64, y1⟩, ⟨S800000x64, y2⟩] concatenates_S800000x64_S800000x64_S800000x64_S800000x192_d1 (ix2 r (⟨k.val, hk⟩ : Fin 192)) 0 (by simp)
    S800000x64 y0 rfl rfl 0 rfl (ix2 r k) (fun b hb => match b, hb with | ⟨0, _⟩, _ => rfl | ⟨1, _⟩, hb => absurd rfl hb) (Nat.zero_add _)

/-- Columns `64 … 127` are the second matrix. -/
theorem concat3_mid (hk : 64 + k.val < 192) :
    concatenate S800000x192 1 [⟨S800000x64, y0⟩, ⟨S800000x64, y1⟩, ⟨S800000x64, y2⟩] concatenates_S800000x64_S800000x64_S800000x64_S800000x192_d1 (ix2 r (⟨64 + k.val, hk⟩ : Fin 192)) = y1 (ix2 r k) :=
  concatenate_apply_piece (t := S800000x192) 1 [⟨S800000x64, y0⟩, ⟨S800000x64, y1⟩, ⟨S800000x64, y2⟩] concatenates_S800000x64_S800000x64_S800000x64_S800000x192_d1 (ix2 r (⟨64 + k.val, hk⟩ : Fin 192)) 1 (by simp)
    S800000x64 y1 rfl rfl 64 rfl (ix2 r k) (fun b hb => match b, hb with | ⟨0, _⟩, _ => rfl | ⟨1, _⟩, hb => absurd rfl hb) rfl

/-- Columns `128 … 191` are the third matrix. -/
theorem concat3_right (hk : 128 + k.val < 192) :
    concatenate S800000x192 1 [⟨S800000x64, y0⟩, ⟨S800000x64, y1⟩, ⟨S800000x64, y2⟩] concatenates_S800000x64_S800000x64_S800000x64_S800000x192_d1 (ix2 r (⟨128 + k.val, hk⟩ : Fin 192)) = y2 (ix2 r k) :=
  concatenate_apply_piece (t := S800000x192) 1 [⟨S800000x64, y0⟩, ⟨S800000x64, y1⟩, ⟨S800000x64, y2⟩] concatenates_S800000x64_S800000x64_S800000x64_S800000x192_d1 (ix2 r (⟨128 + k.val, hk⟩ : Fin 192)) 2 (by simp)
    S800000x64 y2 rfl rfl 128 rfl (ix2 r k) (fun b hb => match b, hb with | ⟨0, _⟩, _ => rfl | ⟨1, _⟩, hb => absurd rfl hb) rfl

end Concat3

/-! ## Rows of the edge input -/

section EdgeInput
variable (r : Fin 800000) (k : Fin 64)

/-- The first 64 columns of the edge input are the gathered source row. -/
theorem edgeInput_left (hk : k.val < 192) :
    val_main_v14 (F := Ideal) x0 x1 x2 x3 (ix2 r (⟨k.val, hk⟩ : Fin 192)) = val_main_v6 (F := Ideal) x0 x2 (ix2 r k) := by
  unfold val_main_v14; exact concat3_left _ _ _ r k hk

/-- The middle 64 columns of the edge input are the gathered destination row. -/
theorem edgeInput_mid (hk : 64 + k.val < 192) :
    val_main_v14 (F := Ideal) x0 x1 x2 x3 (ix2 r (⟨64 + k.val, hk⟩ : Fin 192)) = val_main_v13 (F := Ideal) x0 x3 (ix2 r k) := by
  unfold val_main_v14; exact concat3_mid _ _ _ r k hk

/-- The last 64 columns of the edge input are the edge row. -/
theorem edgeInput_right (hk : 128 + k.val < 192) :
    val_main_v14 (F := Ideal) x0 x1 x2 x3 (ix2 r (⟨128 + k.val, hk⟩ : Fin 192)) = x1 (ix2 r k) := by
  unfold val_main_v14; exact concat3_right _ _ _ r k hk

end EdgeInput

/-- A row of the edge input against a column of a weight of 192 rows: the three 64-term products against the weight's
    three blocks of rows, the source's first, then the destination's, then the edge's. -/
theorem edgeInput_dot (W : (⟨S192x64, .f32⟩ : BufTy).Contents (Elt Ideal)) (r : Fin 800000) (q : Fin 64) :
    ∑ k : Fin 192, val_main_v14 (F := Ideal) x0 x1 x2 x3 (ix2 r k) * W (ix2 k q)
      = (dot (fun k => val_main_v6 (F := Ideal) x0 x2 (ix2 r k)) (fun k j => W (ix2 (⟨k.val, by have := k.isLt; omega⟩ : Fin 192) j)) q
          + dot (fun k => val_main_v13 (F := Ideal) x0 x3 (ix2 r k)) (fun k j => W (ix2 (⟨64 + k.val, by have := k.isLt; omega⟩ : Fin 192) j)) q)
        + dot (fun k => x1 (ix2 r k)) (fun k j => W (ix2 (⟨128 + k.val, by have := k.isLt; omega⟩ : Fin 192) j)) q := by
  refine (sum_thirds (fun k : Fin 192 => val_main_v14 (F := Ideal) x0 x1 x2 x3 (ix2 r k) * W (ix2 k q))).trans ?_
  unfold dot
  refine congrArg₂ (· + ·) (congrArg₂ (· + ·) (Finset.sum_congr rfl fun k _ => ?_) (Finset.sum_congr rfl fun k _ => ?_))
    (Finset.sum_congr rfl fun k _ => ?_)
  · exact congrArg (· * _) (edgeInput_left x0 x1 x2 x3 r k _)
  · exact congrArg (· * _) (edgeInput_mid x0 x1 x2 x3 r k _)
  · exact congrArg (· * _) (edgeInput_right x0 x1 x2 x3 r k _)

/-! ## The gated message -/

section Message
variable (r : Fin 800000) (q : Fin 64)

/-- The gate's product: the edge input against the gate weight. -/
theorem gateProduct_apply :
    val_main_v15 (F := Ideal) x0 x1 x2 x3 x8 (ix2 r q)
      = (dot (fun k => val_main_v6 (F := Ideal) x0 x2 (ix2 r k)) (fun k j => x8 (ix2 (⟨k.val, by have := k.isLt; omega⟩ : Fin 192) j)) q
          + dot (fun k => val_main_v13 (F := Ideal) x0 x3 (ix2 r k)) (fun k j => x8 (ix2 (⟨64 + k.val, by have := k.isLt; omega⟩ : Fin 192) j)) q)
        + dot (fun k => x1 (ix2 r k)) (fun k j => x8 (ix2 (⟨128 + k.val, by have := k.isLt; omega⟩ : Fin 192) j)) q := by
  rw [val_main_v15_apply]
  refine Eq.trans (Finset.sum_congr rfl fun k _ => ?_) (edgeInput_dot x0 x1 x2 x3 x8 r q)
  exact congrArg₂ (· * ·) (congrArg _ (ix2_of _ r k rfl rfl)) (congrArg x8 (ix2_of _ k q rfl rfl))

/-- The gate bias, repeated down the rows. -/
theorem gateBias_apply : val_main_v17 (F := Ideal) x9 (ix2 r q) = x9 (ix1 q) := by
  rw [val_main_v17_apply, val_main_v16_apply]; exact congrArg x9 (ix1_of _ q rfl)

theorem one21_apply (i : S800000x64.Idx) : val_main_v21 (F := Ideal) i = (1 : EReal) := by
  rw [val_main_v21_apply, val_main_cst_apply]; exact word_one

theorem one23_apply (i : S800000x64.Idx) : val_main_v23 (F := Ideal) i = (1 : EReal) := by
  rw [val_main_v23_apply, val_main_cst_3_apply]; exact word_one

/-- The gate: the logistic function of the gate's product plus its bias. -/
theorem gate_apply :
    val_main_v24 (F := Ideal) x0 x1 x2 x3 x8 x9 (ix2 r q)
      = Ideal.logistic (((dot (fun k => val_main_v6 (F := Ideal) x0 x2 (ix2 r k)) (fun k j => x8 (ix2 (⟨k.val, by have := k.isLt; omega⟩ : Fin 192) j)) q
          + dot (fun k => val_main_v13 (F := Ideal) x0 x3 (ix2 r k)) (fun k j => x8 (ix2 (⟨64 + k.val, by have := k.isLt; omega⟩ : Fin 192) j)) q)
        + dot (fun k => x1 (ix2 r k)) (fun k j => x8 (ix2 (⟨128 + k.val, by have := k.isLt; omega⟩ : Fin 192) j)) q) + x9 (ix1 q)) := by
  rw [val_main_v24_apply, one23_apply, val_main_v22_apply, one21_apply, val_main_v20_apply, val_main_v19_apply,
    val_main_v18_apply, gateProduct_apply, gateBias_apply]
  rfl

/-- The source projection. -/
theorem srcProj_apply :
    val_main_v25 (F := Ideal) x0 x2 x4 (ix2 r q) = dot (fun k => val_main_v6 (F := Ideal) x0 x2 (ix2 r k)) (fun k j => x4 (ix2 k j)) q := by
  rw [val_main_v25_apply]; unfold dot
  refine Finset.sum_congr rfl fun k _ => ?_
  exact congrArg₂ (· * ·) (congrArg _ (ix2_of _ r k rfl rfl)) (congrArg x4 (ix2_of _ k q rfl rfl))

theorem srcBias_apply : val_main_v27 (F := Ideal) x5 (ix2 r q) = x5 (ix1 q) := by
  rw [val_main_v27_apply, val_main_v26_apply]; exact congrArg x5 (ix1_of _ q rfl)

/-- The edge projection. -/
theorem edgeProj_apply :
    val_main_v29 (F := Ideal) x1 x6 (ix2 r q) = dot (fun k => x1 (ix2 r k)) (fun k j => x6 (ix2 k j)) q := by
  rw [val_main_v29_apply]; unfold dot
  refine Finset.sum_congr rfl fun k _ => ?_
  exact congrArg₂ (· * ·) (congrArg x1 (ix2_of _ r k rfl rfl)) (congrArg x6 (ix2_of _ k q rfl rfl))

theorem edgeBias_apply : val_main_v32 (F := Ideal) x7 (ix2 r q) = x7 (ix1 q) := by
  rw [val_main_v32_apply, val_main_v31_apply]; exact congrArg x7 (ix1_of _ q rfl)

/-- The gated message of edge `r` at feature `q` is the message row function of the edge's three rows. -/
theorem msg_entry :
    val_main_v34 (F := Ideal) x0 x1 x2 x3 x4 x5 x6 x7 x8 x9 (ix2 r q)
      = msgRow (fun k => val_main_v6 (F := Ideal) x0 x2 (ix2 r k)) (fun k => val_main_v13 (F := Ideal) x0 x3 (ix2 r k)) (fun k => x1 (ix2 r k))
          (fun k j => x8 (ix2 (⟨k.val, by have := k.isLt; omega⟩ : Fin 192) j))
          (fun k j => x8 (ix2 (⟨64 + k.val, by have := k.isLt; omega⟩ : Fin 192) j))
          (fun k j => x8 (ix2 (⟨128 + k.val, by have := k.isLt; omega⟩ : Fin 192) j)) (fun j => x9 (ix1 j))
          (fun k j => x4 (ix2 k j)) (fun j => x5 (ix1 j)) (fun k j => x6 (ix2 k j)) (fun j => x7 (ix1 j)) q := by
  rw [val_main_v34_apply, gate_apply, val_main_v33_apply, val_main_v30_apply, val_main_v28_apply, srcProj_apply, srcBias_apply,
    edgeProj_apply, edgeBias_apply]
  rfl

end Message

/-! ## The updated edge row -/

section EdgeUpdate
variable (r : Fin 800000) (q : Fin 64)

/-- The hidden layer's product: the edge input against the first update weight. -/
theorem edgeHiddenProduct_apply :
    val_main_v35 (F := Ideal) x0 x1 x2 x3 x14 (ix2 r q)
      = (dot (fun k => val_main_v6 (F := Ideal) x0 x2 (ix2 r k)) (fun k j => x14 (ix2 (⟨k.val, by have := k.isLt; omega⟩ : Fin 192) j)) q
          + dot (fun k => val_main_v13 (F := Ideal) x0 x3 (ix2 r k)) (fun k j => x14 (ix2 (⟨64 + k.val, by have := k.isLt; omega⟩ : Fin 192) j)) q)
        + dot (fun k => x1 (ix2 r k)) (fun k j => x14 (ix2 (⟨128 + k.val, by have := k.isLt; omega⟩ : Fin 192) j)) q := by
  rw [val_main_v35_apply]
  refine Eq.trans (Finset.sum_congr rfl fun k _ => ?_) (edgeInput_dot x0 x1 x2 x3 x14 r q)
  exact congrArg₂ (· * ·) (congrArg _ (ix2_of _ r k rfl rfl)) (congrArg x14 (ix2_of _ k q rfl rfl))

end EdgeUpdate

/-- The hidden layer's bias, repeated down the rows. -/
theorem edgeHiddenBias_apply (r : Fin 800000) (q : Fin 64) : val_main_v37 (F := Ideal) x15 (ix2 r q) = x15 (ix1 q) := by
  rw [val_main_v37_apply, val_main_v36_apply]; exact congrArg x15 (ix1_of _ q rfl)

theorem one_call0_v2_apply (i : S800000x64.Idx) : val_main_call0_v2 (F := Ideal) i = (1 : EReal) := by
  rw [val_main_call0_v2_apply, val_main_call0_cst_apply]; exact word_one

theorem one_call0_v4_apply (i : S800000x64.Idx) : val_main_call0_v4 (F := Ideal) i = (1 : EReal) := by
  rw [val_main_call0_v4_apply, val_main_call0_cst_0_apply]; exact word_one

/-- The second update bias, repeated down the rows. -/
theorem edgeOutBias_apply (r : Fin 800000) (q : Fin 64) : val_main_v42 (F := Ideal) x17 (ix2 r q) = x17 (ix1 q) := by
  rw [val_main_v42_apply, val_main_v41_apply]; exact congrArg x17 (ix1_of _ q rfl)

section EdgeUpdate2
variable (r : Fin 800000) (q : Fin 64)

/-- The hidden row of the edge update: `t · σ(t)` of the hidden layer's product plus its bias. -/
theorem edgeHidden_apply :
    val_main_v39 (F := Ideal) x0 x1 x2 x3 x14 x15 (ix2 r q) = edgeHidden (fun k => val_main_v6 (F := Ideal) x0 x2 (ix2 r k)) (fun k => val_main_v13 (F := Ideal) x0 x3 (ix2 r k)) (fun k => x1 (ix2 r k)) (fun k j => x14 (ix2 (⟨k.val, by have := k.isLt; omega⟩ : Fin 192) j)) (fun k j => x14 (ix2 (⟨64 + k.val, by have := k.isLt; omega⟩ : Fin 192) j)) (fun k j => x14 (ix2 (⟨128 + k.val, by have := k.isLt; omega⟩ : Fin 192) j)) (fun j => x15 (ix1 j)) q := by
  rw [val_main_v39_apply, val_main_call0_v5_apply, one_call0_v4_apply, val_main_call0_v3_apply, one_call0_v2_apply,
    val_main_call0_v1_apply, val_main_call0_v0_apply, val_main_v38_apply, edgeHiddenProduct_apply, edgeHiddenBias_apply]
  rfl

/-- The edge row before the normalisation: the edge row plus the update. -/
theorem edgePre_apply :
    val_main_v82 (F := Ideal) x0 x1 x2 x3 x14 x15 x16 x17 (ix2 r q)
      = x1 (ix2 r q) + (dot (edgeHidden (fun k => val_main_v6 (F := Ideal) x0 x2 (ix2 r k)) (fun k => val_main_v13 (F := Ideal) x0 x3 (ix2 r k)) (fun k => x1 (ix2 r k)) (fun k j => x14 (ix2 (⟨k.val, by have := k.isLt; omega⟩ : Fin 192) j)) (fun k j => x14 (ix2 (⟨64 + k.val, by have := k.isLt; omega⟩ : Fin 192) j)) (fun k j => x14 (ix2 (⟨128 + k.val, by have := k.isLt; omega⟩ : Fin 192) j)) (fun j => x15 (ix1 j))) (fun k j => x16 (ix2 k j)) q + x17 (ix1 q)) := by
  rw [val_main_v82_apply, val_main_v43_apply, val_main_v40_apply, edgeOutBias_apply]
  simp only [Ideal.addf_def]
  unfold dot
  refine congrArg (x1 (ix2 r q) + ·) (congrArg (· + x17 (ix1 q)) (Finset.sum_congr rfl fun k _ => ?_))
  exact congrArg₂ (· * ·) ((congrArg (val_main_v39 (F := Ideal) x0 x1 x2 x3 x14 x15) (ix2_of _ r k rfl rfl)).trans (edgeHidden_apply x0 x1 x2 x3 x14 x15 r k))
    (congrArg x16 (ix2_of _ k q rfl rfl))

end EdgeUpdate2

/-! ## The normalisation of the edge rows -/

section edgeNorm
variable (r : Fin 800000)

/-- The mean of row `r`: the sum of the row divided by the word 64.0. -/
theorem edgeMean_apply (u : Fin 1) :
    val_main_v86 (F := Ideal) x0 x1 x2 x3 x14 x15 x16 x17 (ix2 r u) = Ideal.div (∑ k : Fin 64, val_main_v82 (F := Ideal) x0 x1 x2 x3 x14 x15 x16 x17 (ix2 r k)) w64 := by
  rw [val_main_v86_apply, val_main_v84_apply, val_main_v83_apply, val_main_cst_10_apply, val_main_v85_apply,
    val_main_cst_11_apply]
  simp only [Ideal.hostDivf_def, Ideal.ofBits_def, Ideal.ofBits_zero_f32, zero_add]
  exact congrArg₂ Ideal.div (Finset.sum_congr rfl fun k _ => congrArg (val_main_v82 (F := Ideal) x0 x1 x2 x3 x14 x15 x16 x17) (ix2_of _ r k rfl rfl)) rfl

/-- The row minus its mean (as the variance reads it). -/
theorem edgeCentered_apply (q : Fin 64) :
    val_main_v88 (F := Ideal) x0 x1 x2 x3 x14 x15 x16 x17 (ix2 r q) = val_main_v82 (F := Ideal) x0 x1 x2 x3 x14 x15 x16 x17 (ix2 r q) - Ideal.div (∑ k : Fin 64, val_main_v82 (F := Ideal) x0 x1 x2 x3 x14 x15 x16 x17 (ix2 r k)) w64 := by
  rw [val_main_v88_apply, val_main_v87_apply,
    show idx_main_v87 (ix2 r q) = ix2 r (⟨0, Nat.one_pos⟩ : Fin 1) from ix2_of _ r _ rfl rfl, edgeMean_apply]
  rfl

/-- The row minus its mean (as the result reads it). -/
theorem edgeCentered'_apply (q : Fin 64) :
    val_main_v95 (F := Ideal) x0 x1 x2 x3 x14 x15 x16 x17 (ix2 r q) = val_main_v82 (F := Ideal) x0 x1 x2 x3 x14 x15 x16 x17 (ix2 r q) - Ideal.div (∑ k : Fin 64, val_main_v82 (F := Ideal) x0 x1 x2 x3 x14 x15 x16 x17 (ix2 r k)) w64 := by
  rw [val_main_v95_apply, val_main_v94_apply,
    show idx_main_v94 (ix2 r q) = ix2 r (⟨0, Nat.one_pos⟩ : Fin 1) from ix2_of _ r _ rfl rfl, edgeMean_apply]
  rfl

/-- The variance of row `r`: the sum of the squared differences divided by the word 64.0. -/
theorem edgeVar_apply (u : Fin 1) :
    val_main_v93 (F := Ideal) x0 x1 x2 x3 x14 x15 x16 x17 (ix2 r u) = Ideal.div (∑ k : Fin 64, (val_main_v82 (F := Ideal) x0 x1 x2 x3 x14 x15 x16 x17 (ix2 r k) - Ideal.div (∑ k : Fin 64, val_main_v82 (F := Ideal) x0 x1 x2 x3 x14 x15 x16 x17 (ix2 r k)) w64) * (val_main_v82 (F := Ideal) x0 x1 x2 x3 x14 x15 x16 x17 (ix2 r k) - Ideal.div (∑ k : Fin 64, val_main_v82 (F := Ideal) x0 x1 x2 x3 x14 x15 x16 x17 (ix2 r k)) w64)) w64 := by
  rw [val_main_v93_apply, val_main_v91_apply, val_main_v90_apply, val_main_cst_12_apply, val_main_v92_apply,
    val_main_cst_13_apply]
  simp only [Ideal.hostDivf_def, Ideal.ofBits_def, Ideal.ofBits_zero_f32, zero_add]
  refine congrArg₂ Ideal.div (Finset.sum_congr rfl fun k _ => ?_) rfl
  refine (congrArg (val_main_v89 (F := Ideal) x0 x1 x2 x3 x14 x15 x16 x17) (ix2_of _ r k rfl rfl)).trans ?_
  rw [val_main_v89_apply, edgeCentered_apply]
  rfl

/-- The reciprocal square root of the variance plus the word 1e-5. -/
theorem edgeRstd_apply (u : Fin 1) :
    val_main_v98 (F := Ideal) x0 x1 x2 x3 x14 x15 x16 x17 (ix2 r u) = Ideal.rsqrt (Ideal.div (∑ k : Fin 64, (val_main_v82 (F := Ideal) x0 x1 x2 x3 x14 x15 x16 x17 (ix2 r k) - Ideal.div (∑ k : Fin 64, val_main_v82 (F := Ideal) x0 x1 x2 x3 x14 x15 x16 x17 (ix2 r k)) w64) * (val_main_v82 (F := Ideal) x0 x1 x2 x3 x14 x15 x16 x17 (ix2 r k) - Ideal.div (∑ k : Fin 64, val_main_v82 (F := Ideal) x0 x1 x2 x3 x14 x15 x16 x17 (ix2 r k)) w64)) w64 + wEps) := by
  rw [val_main_v98_apply, val_main_v97_apply, edgeVar_apply, val_main_v96_apply, val_main_cst_14_apply]
  rfl

/-- The gain, repeated down the rows. -/
theorem edgeGain_apply (r : Fin 800000) (q : Fin 64) : val_main_v102 (F := Ideal) x20 (ix2 r q) = x20 (ix1 q) := by
  rw [val_main_v102_apply, val_main_v101_apply]; exact congrArg x20 (ix1_of _ q rfl)

/-- The shift, repeated down the rows. -/
theorem edgeShift_apply (r : Fin 800000) (q : Fin 64) : val_main_v105 (F := Ideal) x21 (ix2 r q) = x21 (ix1 q) := by
  rw [val_main_v105_apply, val_main_v104_apply]; exact congrArg x21 (ix1_of _ q rfl)

/-- The normalised row: the layer normalisation of row `r` of the array before it. -/
theorem edgeNorm_apply (q : Fin 64) :
    val_main_v106 (F := Ideal) x0 x1 x2 x3 x14 x15 x16 x17 x20 x21 (ix2 r q)
      = layerNorm (fun k => val_main_v82 (F := Ideal) x0 x1 x2 x3 x14 x15 x16 x17 (ix2 r k)) (fun j => x20 (ix1 j)) (fun j => x21 (ix1 j)) q := by
  rw [val_main_v106_apply, val_main_v103_apply, val_main_v100_apply, edgeCentered'_apply, val_main_v99_apply,
    show idx_main_v99 (ix2 r q) = ix2 r (⟨0, Nat.one_pos⟩ : Fin 1) from ix2_of _ r _ rfl rfl, edgeRstd_apply,
    edgeGain_apply, edgeShift_apply]
  rfl

end edgeNorm

/-- The updated row of edge `r` at feature `q` is the edge row function of the edge's three rows. -/
theorem edge_entry (r : Fin 800000) (q : Fin 64) :
    val_main_v106 (F := Ideal) x0 x1 x2 x3 x14 x15 x16 x17 x20 x21 (ix2 r q)
      = edgeRow (fun k => val_main_v6 (F := Ideal) x0 x2 (ix2 r k)) (fun k => val_main_v13 (F := Ideal) x0 x3 (ix2 r k)) (fun k => x1 (ix2 r k)) (fun k j => x14 (ix2 (⟨k.val, by have := k.isLt; omega⟩ : Fin 192) j)) (fun k j => x14 (ix2 (⟨64 + k.val, by have := k.isLt; omega⟩ : Fin 192) j)) (fun k j => x14 (ix2 (⟨128 + k.val, by have := k.isLt; omega⟩ : Fin 192) j)) (fun j => x15 (ix1 j))
          (fun k j => x16 (ix2 k j)) (fun j => x17 (ix1 j)) (fun j => x20 (ix1 j)) (fun j => x21 (ix1 j)) q := by
  refine (edgeNorm_apply x0 x1 x2 x3 x14 x15 x16 x17 x20 x21 r q).trans ?_
  unfold edgeRow
  exact congrArg (fun y => layerNorm y (fun j => x20 (ix1 j)) (fun j => x21 (ix1 j)) q)
    (funext fun k => edgePre_apply x0 x1 x2 x3 x14 x15 x16 x17 r k)

/-! ## The updated node row -/

section NodeInput
variable (r : Fin 50000) (k : Fin 64)

/-- The first 64 columns of the node input are the node row. -/
theorem nodeInput_left (hk : k.val < 128) :
    val_main_v47 (F := Ideal) x0 x1 x2 x3 x4 x5 x6 x7 x8 x9 (ix2 r (⟨k.val, hk⟩ : Fin 128)) = x0 (ix2 r k) := by
  unfold val_main_v47; exact Cert.ConcatCols.left_apply _ _ _ r k hk

/-- The last 64 columns of the node input are the aggregated messages of the node. -/
theorem nodeInput_right (hk : 64 + k.val < 128) :
    val_main_v47 (F := Ideal) x0 x1 x2 x3 x4 x5 x6 x7 x8 x9 (ix2 r (⟨64 + k.val, hk⟩ : Fin 128)) = val_main_v46 (F := Ideal) x0 x1 x2 x3 x4 x5 x6 x7 x8 x9 (ix2 r k) := by
  unfold val_main_v47; exact Cert.ConcatCols.right_apply _ _ _ r k hk

end NodeInput

/-- A row of the node input against a column of a weight of 128 rows: the two 64-term products against the weight's two
    blocks of rows, the node's first, then the aggregated messages'. -/
theorem nodeInput_dot (W : (⟨S128x64, .f32⟩ : BufTy).Contents (Elt Ideal)) (r : Fin 50000) (q : Fin 64) :
    ∑ k : Fin 128, val_main_v47 (F := Ideal) x0 x1 x2 x3 x4 x5 x6 x7 x8 x9 (ix2 r k) * W (ix2 k q)
      = dot (fun k => x0 (ix2 r k)) (fun k j => W (ix2 (⟨k.val, by have := k.isLt; omega⟩ : Fin 128) j)) q
        + dot (fun k => val_main_v46 (F := Ideal) x0 x1 x2 x3 x4 x5 x6 x7 x8 x9 (ix2 r k)) (fun k j => W (ix2 (⟨64 + k.val, by have := k.isLt; omega⟩ : Fin 128) j)) q := by
  refine (sum_halves (fun k : Fin 128 => val_main_v47 (F := Ideal) x0 x1 x2 x3 x4 x5 x6 x7 x8 x9 (ix2 r k) * W (ix2 k q))).trans ?_
  unfold dot
  refine congrArg₂ (· + ·) (Finset.sum_congr rfl fun k _ => ?_) (Finset.sum_congr rfl fun k _ => ?_)
  · exact congrArg (· * _) (nodeInput_left x0 x1 x2 x3 x4 x5 x6 x7 x8 x9 r k _)
  · exact congrArg (· * _) (nodeInput_right x0 x1 x2 x3 x4 x5 x6 x7 x8 x9 r k _)

section NodeUpdate
variable (r : Fin 50000) (q : Fin 64)

/-- The hidden layer's product: the node input against the first update weight, the node's block of rows first. -/
theorem nodeHiddenProduct_apply :
    val_main_v48 (F := Ideal) x0 x1 x2 x3 x4 x5 x6 x7 x8 x9 x10 (ix2 r q)
      = dot (fun k => x0 (ix2 r k)) (fun k j => x10 (ix2 (⟨k.val, by have := k.isLt; omega⟩ : Fin 128) j)) q
        + dot (fun k => val_main_v46 (F := Ideal) x0 x1 x2 x3 x4 x5 x6 x7 x8 x9 (ix2 r k)) (fun k j => x10 (ix2 (⟨64 + k.val, by have := k.isLt; omega⟩ : Fin 128) j)) q := by
  rw [val_main_v48_apply]
  refine Eq.trans (Finset.sum_congr rfl fun k _ => ?_) (nodeInput_dot x0 x1 x2 x3 x4 x5 x6 x7 x8 x9 x10 r q)
  exact congrArg₂ (· * ·) (congrArg (val_main_v47 (F := Ideal) x0 x1 x2 x3 x4 x5 x6 x7 x8 x9) (ix2_of _ r k rfl rfl)) (congrArg x10 (ix2_of _ k q rfl rfl))

end NodeUpdate

/-- The hidden layer's bias, repeated down the rows. -/
theorem nodeHiddenBias_apply (r : Fin 50000) (q : Fin 64) : val_main_v50 (F := Ideal) x11 (ix2 r q) = x11 (ix1 q) := by
  rw [val_main_v50_apply, val_main_v49_apply]; exact congrArg x11 (ix1_of _ q rfl)

theorem one_call1_v2_apply (i : S50000x64.Idx) : val_main_call1_v2 (F := Ideal) i = (1 : EReal) := by
  rw [val_main_call1_v2_apply, val_main_call1_cst_apply]; exact word_one

theorem one_call1_v4_apply (i : S50000x64.Idx) : val_main_call1_v4 (F := Ideal) i = (1 : EReal) := by
  rw [val_main_call1_v4_apply, val_main_call1_cst_0_apply]; exact word_one

/-- The second update bias, repeated down the rows. -/
theorem nodeOutBias_apply (r : Fin 50000) (q : Fin 64) : val_main_v55 (F := Ideal) x13 (ix2 r q) = x13 (ix1 q) := by
  rw [val_main_v55_apply, val_main_v54_apply]; exact congrArg x13 (ix1_of _ q rfl)

section NodeUpdate2
variable (r : Fin 50000) (q : Fin 64)

/-- The hidden row of the node update: `t · σ(t)` of the hidden layer's product plus its bias. -/
theorem nodeHidden_apply :
    val_main_v52 (F := Ideal) x0 x1 x2 x3 x4 x5 x6 x7 x8 x9 x10 x11 (ix2 r q) = nodeHidden (fun k => x0 (ix2 r k)) (fun k => val_main_v46 (F := Ideal) x0 x1 x2 x3 x4 x5 x6 x7 x8 x9 (ix2 r k)) (fun k j => x10 (ix2 (⟨k.val, by have := k.isLt; omega⟩ : Fin 128) j)) (fun k j => x10 (ix2 (⟨64 + k.val, by have := k.isLt; omega⟩ : Fin 128) j)) (fun j => x11 (ix1 j)) q := by
  rw [val_main_v52_apply, val_main_call1_v5_apply, one_call1_v4_apply, val_main_call1_v3_apply, one_call1_v2_apply,
    val_main_call1_v1_apply, val_main_call1_v0_apply, val_main_v51_apply, nodeHiddenProduct_apply, nodeHiddenBias_apply]
  rfl

/-- The node row before the normalisation: the node row plus the update. -/
theorem nodePre_apply :
    val_main_v57 (F := Ideal) x0 x1 x2 x3 x4 x5 x6 x7 x8 x9 x10 x11 x12 x13 (ix2 r q)
      = x0 (ix2 r q) + (dot (nodeHidden (fun k => x0 (ix2 r k)) (fun k => val_main_v46 (F := Ideal) x0 x1 x2 x3 x4 x5 x6 x7 x8 x9 (ix2 r k)) (fun k j => x10 (ix2 (⟨k.val, by have := k.isLt; omega⟩ : Fin 128) j)) (fun k j => x10 (ix2 (⟨64 + k.val, by have := k.isLt; omega⟩ : Fin 128) j)) (fun j => x11 (ix1 j))) (fun k j => x12 (ix2 k j)) q + x13 (ix1 q)) := by
  rw [val_main_v57_apply, val_main_v56_apply, val_main_v53_apply, nodeOutBias_apply]
  simp only [Ideal.addf_def]
  unfold dot
  refine congrArg (x0 (ix2 r q) + ·) (congrArg (· + x13 (ix1 q)) (Finset.sum_congr rfl fun k _ => ?_))
  exact congrArg₂ (· * ·) ((congrArg (val_main_v52 (F := Ideal) x0 x1 x2 x3 x4 x5 x6 x7 x8 x9 x10 x11) (ix2_of _ r k rfl rfl)).trans (nodeHidden_apply x0 x1 x2 x3 x4 x5 x6 x7 x8 x9 x10 x11 r k))
    (congrArg x12 (ix2_of _ k q rfl rfl))

end NodeUpdate2

/-! ## The normalisation of the node rows -/

section nodeNorm
variable (r : Fin 50000)

/-- The mean of row `r`: the sum of the row divided by the word 64.0. -/
theorem nodeMean_apply (u : Fin 1) :
    val_main_v61 (F := Ideal) x0 x1 x2 x3 x4 x5 x6 x7 x8 x9 x10 x11 x12 x13 (ix2 r u) = Ideal.div (∑ k : Fin 64, val_main_v57 (F := Ideal) x0 x1 x2 x3 x4 x5 x6 x7 x8 x9 x10 x11 x12 x13 (ix2 r k)) w64 := by
  rw [val_main_v61_apply, val_main_v59_apply, val_main_v58_apply, val_main_cst_5_apply, val_main_v60_apply,
    val_main_cst_6_apply]
  simp only [Ideal.hostDivf_def, Ideal.ofBits_def, Ideal.ofBits_zero_f32, zero_add]
  exact congrArg₂ Ideal.div (Finset.sum_congr rfl fun k _ => congrArg (val_main_v57 (F := Ideal) x0 x1 x2 x3 x4 x5 x6 x7 x8 x9 x10 x11 x12 x13) (ix2_of _ r k rfl rfl)) rfl

/-- The row minus its mean (as the variance reads it). -/
theorem nodeCentered_apply (q : Fin 64) :
    val_main_v63 (F := Ideal) x0 x1 x2 x3 x4 x5 x6 x7 x8 x9 x10 x11 x12 x13 (ix2 r q) = val_main_v57 (F := Ideal) x0 x1 x2 x3 x4 x5 x6 x7 x8 x9 x10 x11 x12 x13 (ix2 r q) - Ideal.div (∑ k : Fin 64, val_main_v57 (F := Ideal) x0 x1 x2 x3 x4 x5 x6 x7 x8 x9 x10 x11 x12 x13 (ix2 r k)) w64 := by
  rw [val_main_v63_apply, val_main_v62_apply,
    show idx_main_v62 (ix2 r q) = ix2 r (⟨0, Nat.one_pos⟩ : Fin 1) from ix2_of _ r _ rfl rfl, nodeMean_apply]
  rfl

/-- The row minus its mean (as the result reads it). -/
theorem nodeCentered'_apply (q : Fin 64) :
    val_main_v70 (F := Ideal) x0 x1 x2 x3 x4 x5 x6 x7 x8 x9 x10 x11 x12 x13 (ix2 r q) = val_main_v57 (F := Ideal) x0 x1 x2 x3 x4 x5 x6 x7 x8 x9 x10 x11 x12 x13 (ix2 r q) - Ideal.div (∑ k : Fin 64, val_main_v57 (F := Ideal) x0 x1 x2 x3 x4 x5 x6 x7 x8 x9 x10 x11 x12 x13 (ix2 r k)) w64 := by
  rw [val_main_v70_apply, val_main_v69_apply,
    show idx_main_v69 (ix2 r q) = ix2 r (⟨0, Nat.one_pos⟩ : Fin 1) from ix2_of _ r _ rfl rfl, nodeMean_apply]
  rfl

/-- The variance of row `r`: the sum of the squared differences divided by the word 64.0. -/
theorem nodeVar_apply (u : Fin 1) :
    val_main_v68 (F := Ideal) x0 x1 x2 x3 x4 x5 x6 x7 x8 x9 x10 x11 x12 x13 (ix2 r u) = Ideal.div (∑ k : Fin 64, (val_main_v57 (F := Ideal) x0 x1 x2 x3 x4 x5 x6 x7 x8 x9 x10 x11 x12 x13 (ix2 r k) - Ideal.div (∑ k : Fin 64, val_main_v57 (F := Ideal) x0 x1 x2 x3 x4 x5 x6 x7 x8 x9 x10 x11 x12 x13 (ix2 r k)) w64) * (val_main_v57 (F := Ideal) x0 x1 x2 x3 x4 x5 x6 x7 x8 x9 x10 x11 x12 x13 (ix2 r k) - Ideal.div (∑ k : Fin 64, val_main_v57 (F := Ideal) x0 x1 x2 x3 x4 x5 x6 x7 x8 x9 x10 x11 x12 x13 (ix2 r k)) w64)) w64 := by
  rw [val_main_v68_apply, val_main_v66_apply, val_main_v65_apply, val_main_cst_7_apply, val_main_v67_apply,
    val_main_cst_8_apply]
  simp only [Ideal.hostDivf_def, Ideal.ofBits_def, Ideal.ofBits_zero_f32, zero_add]
  refine congrArg₂ Ideal.div (Finset.sum_congr rfl fun k _ => ?_) rfl
  refine (congrArg (val_main_v64 (F := Ideal) x0 x1 x2 x3 x4 x5 x6 x7 x8 x9 x10 x11 x12 x13) (ix2_of _ r k rfl rfl)).trans ?_
  rw [val_main_v64_apply, nodeCentered_apply]
  rfl

/-- The reciprocal square root of the variance plus the word 1e-5. -/
theorem nodeRstd_apply (u : Fin 1) :
    val_main_v73 (F := Ideal) x0 x1 x2 x3 x4 x5 x6 x7 x8 x9 x10 x11 x12 x13 (ix2 r u) = Ideal.rsqrt (Ideal.div (∑ k : Fin 64, (val_main_v57 (F := Ideal) x0 x1 x2 x3 x4 x5 x6 x7 x8 x9 x10 x11 x12 x13 (ix2 r k) - Ideal.div (∑ k : Fin 64, val_main_v57 (F := Ideal) x0 x1 x2 x3 x4 x5 x6 x7 x8 x9 x10 x11 x12 x13 (ix2 r k)) w64) * (val_main_v57 (F := Ideal) x0 x1 x2 x3 x4 x5 x6 x7 x8 x9 x10 x11 x12 x13 (ix2 r k) - Ideal.div (∑ k : Fin 64, val_main_v57 (F := Ideal) x0 x1 x2 x3 x4 x5 x6 x7 x8 x9 x10 x11 x12 x13 (ix2 r k)) w64)) w64 + wEps) := by
  rw [val_main_v73_apply, val_main_v72_apply, nodeVar_apply, val_main_v71_apply, val_main_cst_9_apply]
  rfl

/-- The gain, repeated down the rows. -/
theorem nodeGain_apply (r : Fin 50000) (q : Fin 64) : val_main_v77 (F := Ideal) x18 (ix2 r q) = x18 (ix1 q) := by
  rw [val_main_v77_apply, val_main_v76_apply]; exact congrArg x18 (ix1_of _ q rfl)

/-- The shift, repeated down the rows. -/
theorem nodeShift_apply (r : Fin 50000) (q : Fin 64) : val_main_v80 (F := Ideal) x19 (ix2 r q) = x19 (ix1 q) := by
  rw [val_main_v80_apply, val_main_v79_apply]; exact congrArg x19 (ix1_of _ q rfl)

/-- The normalised row: the layer normalisation of row `r` of the array before it. -/
theorem nodeNorm_apply (q : Fin 64) :
    val_main_v81 (F := Ideal) x0 x1 x2 x3 x4 x5 x6 x7 x8 x9 x10 x11 x12 x13 x18 x19 (ix2 r q)
      = layerNorm (fun k => val_main_v57 (F := Ideal) x0 x1 x2 x3 x4 x5 x6 x7 x8 x9 x10 x11 x12 x13 (ix2 r k)) (fun j => x18 (ix1 j)) (fun j => x19 (ix1 j)) q := by
  rw [val_main_v81_apply, val_main_v78_apply, val_main_v75_apply, nodeCentered'_apply, val_main_v74_apply,
    show idx_main_v74 (ix2 r q) = ix2 r (⟨0, Nat.one_pos⟩ : Fin 1) from ix2_of _ r _ rfl rfl, nodeRstd_apply,
    nodeGain_apply, nodeShift_apply]
  rfl

end nodeNorm

/-- The updated row of node `r` at feature `q` is the node row function of the node's row and its aggregated messages. -/
theorem node_entry (r : Fin 50000) (q : Fin 64) :
    val_main_v81 (F := Ideal) x0 x1 x2 x3 x4 x5 x6 x7 x8 x9 x10 x11 x12 x13 x18 x19 (ix2 r q)
      = nodeRow (fun k => x0 (ix2 r k)) (fun k => val_main_v46 (F := Ideal) x0 x1 x2 x3 x4 x5 x6 x7 x8 x9 (ix2 r k)) (fun k j => x10 (ix2 (⟨k.val, by have := k.isLt; omega⟩ : Fin 128) j)) (fun k j => x10 (ix2 (⟨64 + k.val, by have := k.isLt; omega⟩ : Fin 128) j)) (fun j => x11 (ix1 j))
          (fun k j => x12 (ix2 k j)) (fun j => x13 (ix1 j)) (fun j => x18 (ix1 j)) (fun j => x19 (ix1 j)) q := by
  refine (nodeNorm_apply x0 x1 x2 x3 x4 x5 x6 x7 x8 x9 x10 x11 x12 x13 x18 x19 r q).trans ?_
  unfold nodeRow
  exact congrArg (fun y => layerNorm y (fun j => x18 (ix1 j)) (fun j => x19 (ix1 j)) q)
    (funext fun k => nodePre_apply x0 x1 x2 x3 x4 x5 x6 x7 x8 x9 x10 x11 x12 x13 r k)

end Cert.RefRows

end
-- ==== Proof.Bridge.lean ====
/-
  The two programs compute the same arrays, entry by entry.

  Both programs gather the same source and destination rows and scatter-add messages by the same destinations; these
  host operations are the same functions on both sides and stay closed. What differs is only how the dense part is
  arranged: the reference multiplies the three row blocks set side by side with a weight of 192 rows (for a node, two
  blocks with 128 rows) where the kernel adds three (two) products with the weight's 64-row slices — one sum over 192
  (128) coordinates against the sum of its thirds (halves), which holds on the extended reals for any entries. With
  that, entry (r, q) of the kernel's message array, of its updated-edge array and of its updated-node array are the
  reference's, the node update through the equality of the message arrays under the scatter.
-/
import proofs.«172656_j21157008900637_1_alg».proof.Proof.KernelRun
import proofs.«172656_j21157008900637_1_alg».proof.Proof.KernelHost
import proofs.«172656_j21157008900637_1_alg».proof.Proof.KernelEdgeBlocks
import proofs.«172656_j21157008900637_1_alg».proof.Proof.KernelNodeBlocks
import proofs.«172656_j21157008900637_1_alg».proof.Proof.RefRows
import proofs.«172656_j21157008900637_1_alg».proof.Proof.LibLayoutReads

set_option maxRecDepth 16384

noncomputable section

namespace Cert.KernelIdeal.Bridge

open Cert.KernelIdeal Cert.KernelIdeal.Gen Cert.GraphSpec Cert.KernelIdeal.HostFolds
open Idealize.ShloMosaic Idealize.ShloMosaic.TcCoe Idealize.ShloMosaic.ValueIdx Idealize.SL.Sem
open Cert.ReferenceIdeal.Read (val_main_v6 val_main_v13 val_main_v34 val_main_v46 val_main_v81 val_main_v106)

variable (m : (ℓ : Loc nD τ sig) → Buf (Elt Ideal) ℓ) (ρ : Dev nD → PrngReg)

/-! ## The weights' slices and the biases' rows, read at an entry -/

theorem slice_v14 (c : Dev nD) (k j : Fin 64) :
    V1 m ρ c main_v14 (ix2 k j) = (m ((c : Thread nD τ).loc main_arg8)) (ix2 (⟨k.val, by have := k.isLt; omega⟩ : Fin 192) j) := by
  rw [entry0_main_v14 m ρ c]
  refine (Cert.LayoutReads.rows_slice_apply (R := 192) (C := 64) (r := 64) (o := 0) (m ((c : Thread nD τ).loc main_arg8)) _ (by omega) k j).trans ?_
  exact congrArg (fun z => (m ((c : Thread nD τ).loc main_arg8)) (ix2 z j)) (Fin.ext (by show 0 + k.val = k.val; omega))

theorem slice_v15 (c : Dev nD) (k j : Fin 64) :
    V1 m ρ c main_v15 (ix2 k j) = (m ((c : Thread nD τ).loc main_arg8)) (ix2 (⟨64 + k.val, by have := k.isLt; omega⟩ : Fin 192) j) := by
  rw [entry0_main_v15 m ρ c]
  refine (Cert.LayoutReads.rows_slice_apply (R := 192) (C := 64) (r := 64) (o := 64) (m ((c : Thread nD τ).loc main_arg8)) _ (by omega) k j).trans ?_
  exact congrArg (fun z => (m ((c : Thread nD τ).loc main_arg8)) (ix2 z j)) (Fin.ext (by show 64 + k.val = 64 + k.val; omega))

theorem slice_v16 (c : Dev nD) (k j : Fin 64) :
    V1 m ρ c main_v16 (ix2 k j) = (m ((c : Thread nD τ).loc main_arg8)) (ix2 (⟨128 + k.val, by have := k.isLt; omega⟩ : Fin 192) j) := by
  rw [entry0_main_v16 m ρ c]
  refine (Cert.LayoutReads.rows_slice_apply (R := 192) (C := 64) (r := 64) (o := 128) (m ((c : Thread nD τ).loc main_arg8)) _ (by omega) k j).trans ?_
  exact congrArg (fun z => (m ((c : Thread nD τ).loc main_arg8)) (ix2 z j)) (Fin.ext (by show 128 + k.val = 128 + k.val; omega))

theorem slice_v17 (c : Dev nD) (k j : Fin 64) :
    V1 m ρ c main_v17 (ix2 k j) = (m ((c : Thread nD τ).loc main_arg14)) (ix2 (⟨k.val, by have := k.isLt; omega⟩ : Fin 192) j) := by
  rw [entry0_main_v17 m ρ c]
  refine (Cert.LayoutReads.rows_slice_apply (R := 192) (C := 64) (r := 64) (o := 0) (m ((c : Thread nD τ).loc main_arg14)) _ (by omega) k j).trans ?_
  exact congrArg (fun z => (m ((c : Thread nD τ).loc main_arg14)) (ix2 z j)) (Fin.ext (by show 0 + k.val = k.val; omega))

theorem slice_v18 (c : Dev nD) (k j : Fin 64) :
    V1 m ρ c main_v18 (ix2 k j) = (m ((c : Thread nD τ).loc main_arg14)) (ix2 (⟨64 + k.val, by have := k.isLt; omega⟩ : Fin 192) j) := by
  rw [entry0_main_v18 m ρ c]
  refine (Cert.LayoutReads.rows_slice_apply (R := 192) (C := 64) (r := 64) (o := 64) (m ((c : Thread nD τ).loc main_arg14)) _ (by omega) k j).trans ?_
  exact congrArg (fun z => (m ((c : Thread nD τ).loc main_arg14)) (ix2 z j)) (Fin.ext (by show 64 + k.val = 64 + k.val; omega))

theorem slice_v19 (c : Dev nD) (k j : Fin 64) :
    V1 m ρ c main_v19 (ix2 k j) = (m ((c : Thread nD τ).loc main_arg14)) (ix2 (⟨128 + k.val, by have := k.isLt; omega⟩ : Fin 192) j) := by
  rw [entry0_main_v19 m ρ c]
  refine (Cert.LayoutReads.rows_slice_apply (R := 192) (C := 64) (r := 64) (o := 128) (m ((c : Thread nD τ).loc main_arg14)) _ (by omega) k j).trans ?_
  exact congrArg (fun z => (m ((c : Thread nD τ).loc main_arg14)) (ix2 z j)) (Fin.ext (by show 128 + k.val = 128 + k.val; omega))

theorem slice_v20 (c : Dev nD) (k j : Fin 64) :
    V1 m ρ c main_v20 (ix2 k j) = (m ((c : Thread nD τ).loc main_arg10)) (ix2 (⟨k.val, by have := k.isLt; omega⟩ : Fin 128) j) := by
  rw [entry0_main_v20 m ρ c]
  refine (Cert.LayoutReads.rows_slice_apply (R := 128) (C := 64) (r := 64) (o := 0) (m ((c : Thread nD τ).loc main_arg10)) _ (by omega) k j).trans ?_
  exact congrArg (fun z => (m ((c : Thread nD τ).loc main_arg10)) (ix2 z j)) (Fin.ext (by show 0 + k.val = k.val; omega))

theorem slice_v21 (c : Dev nD) (k j : Fin 64) :
    V1 m ρ c main_v21 (ix2 k j) = (m ((c : Thread nD τ).loc main_arg10)) (ix2 (⟨64 + k.val, by have := k.isLt; omega⟩ : Fin 128) j) := by
  rw [entry0_main_v21 m ρ c]
  refine (Cert.LayoutReads.rows_slice_apply (R := 128) (C := 64) (r := 64) (o := 64) (m ((c : Thread nD τ).loc main_arg10)) _ (by omega) k j).trans ?_
  exact congrArg (fun z => (m ((c : Thread nD τ).loc main_arg10)) (ix2 z j)) (Fin.ext (by show 64 + k.val = 64 + k.val; omega))

theorem bias_v22 (c : Dev nD) (j : Fin 64) : V1 m ρ c main_v22 (ix2 0 j) = (m ((c : Thread nD τ).loc main_arg9)) (ix1 j) := by
  rw [entry0_main_v22 m ρ c]
  exact Cert.LayoutReads.row_of_vec_apply (n := 64) (m ((c : Thread nD τ).loc main_arg9)) _ j

theorem bias_v23 (c : Dev nD) (j : Fin 64) : V1 m ρ c main_v23 (ix2 0 j) = (m ((c : Thread nD τ).loc main_arg5)) (ix1 j) := by
  rw [entry0_main_v23 m ρ c]
  exact Cert.LayoutReads.row_of_vec_apply (n := 64) (m ((c : Thread nD τ).loc main_arg5)) _ j

theorem bias_v24 (c : Dev nD) (j : Fin 64) : V1 m ρ c main_v24 (ix2 0 j) = (m ((c : Thread nD τ).loc main_arg7)) (ix1 j) := by
  rw [entry0_main_v24 m ρ c]
  exact Cert.LayoutReads.row_of_vec_apply (n := 64) (m ((c : Thread nD τ).loc main_arg7)) _ j

theorem bias_v25 (c : Dev nD) (j : Fin 64) : V1 m ρ c main_v25 (ix2 0 j) = (m ((c : Thread nD τ).loc main_arg15)) (ix1 j) := by
  rw [entry0_main_v25 m ρ c]
  exact Cert.LayoutReads.row_of_vec_apply (n := 64) (m ((c : Thread nD τ).loc main_arg15)) _ j

theorem bias_v26 (c : Dev nD) (j : Fin 64) : V1 m ρ c main_v26 (ix2 0 j) = (m ((c : Thread nD τ).loc main_arg17)) (ix1 j) := by
  rw [entry0_main_v26 m ρ c]
  exact Cert.LayoutReads.row_of_vec_apply (n := 64) (m ((c : Thread nD τ).loc main_arg17)) _ j

theorem bias_v27 (c : Dev nD) (j : Fin 64) : V1 m ρ c main_v27 (ix2 0 j) = (m ((c : Thread nD τ).loc main_arg11)) (ix1 j) := by
  rw [entry0_main_v27 m ρ c]
  exact Cert.LayoutReads.row_of_vec_apply (n := 64) (m ((c : Thread nD τ).loc main_arg11)) _ j

theorem bias_v28 (c : Dev nD) (j : Fin 64) : V1 m ρ c main_v28 (ix2 0 j) = (m ((c : Thread nD τ).loc main_arg13)) (ix1 j) := by
  rw [entry0_main_v28 m ρ c]
  exact Cert.LayoutReads.row_of_vec_apply (n := 64) (m ((c : Thread nD τ).loc main_arg13)) _ j

theorem bias_v29 (c : Dev nD) (j : Fin 64) : V1 m ρ c main_v29 (ix2 0 j) = (m ((c : Thread nD τ).loc main_arg20)) (ix1 j) := by
  rw [entry0_main_v29 m ρ c]
  exact Cert.LayoutReads.row_of_vec_apply (n := 64) (m ((c : Thread nD τ).loc main_arg20)) _ j

theorem bias_v30 (c : Dev nD) (j : Fin 64) : V1 m ρ c main_v30 (ix2 0 j) = (m ((c : Thread nD τ).loc main_arg21)) (ix1 j) := by
  rw [entry0_main_v30 m ρ c]
  exact Cert.LayoutReads.row_of_vec_apply (n := 64) (m ((c : Thread nD τ).loc main_arg21)) _ j

theorem bias_v31 (c : Dev nD) (j : Fin 64) : V1 m ρ c main_v31 (ix2 0 j) = (m ((c : Thread nD τ).loc main_arg18)) (ix1 j) := by
  rw [entry0_main_v31 m ρ c]
  exact Cert.LayoutReads.row_of_vec_apply (n := 64) (m ((c : Thread nD τ).loc main_arg18)) _ j

theorem bias_v32 (c : Dev nD) (j : Fin 64) : V1 m ρ c main_v32 (ix2 0 j) = (m ((c : Thread nD τ).loc main_arg19)) (ix1 j) := by
  rw [entry0_main_v32 m ρ c]
  exact Cert.LayoutReads.row_of_vec_apply (n := 64) (m ((c : Thread nD τ).loc main_arg19)) _ j

/-! ## The edge region's two arrays are the reference's -/

/-- The kernel's message array is the reference's message stage. -/
theorem msg_eq (c : Dev nD) :
    (dat0 (F := Ideal) (V1 m ρ) c).arrAt 19 cfg0.N = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [EdgeBlocks.msg_final (V1 m ρ) c]
  funext i
  obtain ⟨r, q, rfl⟩ : ∃ (r : Fin 800000) (q : Fin 64), i = ix2 r q := ⟨i 0, i 1, eq_ix2 i⟩
  rw [Cert.RefRows.msg_entry (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) r q]
  show msgRow _ _ _ _ _ _ _ _ _ _ _ q = _
  simp only [entry0_v6 m ρ c, entry0_v13 m ρ c, entry0_main_arg1 m ρ c, entry0_main_arg4 m ρ c, entry0_main_arg6 m ρ c,
    slice_v14 m ρ c, slice_v15 m ρ c, slice_v16 m ρ c, bias_v22 m ρ c, bias_v23 m ρ c, bias_v24 m ρ c]

/-- The kernel's updated-edge array is the reference's second result. -/
theorem edge_eq (c : Dev nD) :
    (dat0 (F := Ideal) (V1 m ρ) c).arrAt 20 cfg0.N = val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg14)) (m ((c : Thread nD τ).loc main_arg15)) (m ((c : Thread nD τ).loc main_arg16)) (m ((c : Thread nD τ).loc main_arg17)) (m ((c : Thread nD τ).loc main_arg20)) (m ((c : Thread nD τ).loc main_arg21)) := by
  rw [EdgeBlocks.edge_final (V1 m ρ) c]
  funext i
  obtain ⟨r, q, rfl⟩ : ∃ (r : Fin 800000) (q : Fin 64), i = ix2 r q := ⟨i 0, i 1, eq_ix2 i⟩
  rw [Cert.RefRows.edge_entry (m ((c : Thread nD τ).loc main_arg0)) (m ((c : Thread nD τ).loc main_arg1)) (m ((c : Thread nD τ).loc main_arg2)) (m ((c : Thread nD τ).loc main_arg3)) (m ((c : Thread nD τ).loc main_arg14)) (m ((c : Thread nD τ).loc main_arg15)) (m ((c : Thread nD τ).loc main_arg16)) (m ((c : Thread nD τ).loc main_arg17)) (m ((c : Thread nD τ).loc main_arg20)) (m ((c : Thread nD τ).loc main_arg21)) r q]
  show edgeRow _ _ _ _ _ _ _ _ _ _ _ q = _
  simp only [entry0_v6 m ρ c, entry0_v13 m ρ c, entry0_main_arg1 m ρ c, entry0_main_arg16 m ρ c,
    slice_v17 m ρ c, slice_v18 m ρ c, slice_v19 m ρ c, bias_v25 m ρ c, bias_v26 m ρ c, bias_v29 m ρ c, bias_v30 m ρ c]

/-! ## The node region's array is the reference's -/

/-- The aggregated messages the node region reads are the reference's scatter stage. -/
theorem agg_eq (c : Dev nD) : V3 m ρ c main_v36 = val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [entry1_v36 m ρ c, msg_eq m ρ c]
  rfl

/-- The kernel's updated-node array is the reference's first result. -/
theorem node_eq (c : Dev nD) :
    (dat1 (F := Ideal) (V3 m ρ) c).arrAt 9 cfg1.N = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg18)) (m ((c : Thread nD τ).loc main_arg19)) := by
  rw [NodeBlocks.node_final (V3 m ρ) c]
  funext i
  obtain ⟨r, q, rfl⟩ : ∃ (r : Fin 50000) (q : Fin 64), i = ix2 r q := ⟨i 0, i 1, eq_ix2 i⟩
  rw [Cert.RefRows.node_entry (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg18)) (m ((c : Thread nD τ).loc main_arg19)) r q]
  show nodeRow _ _ _ _ _ _ _ _ _ q = _
  simp only [agg_eq m ρ c, entry1_main_arg0 m ρ c, entry1_main_v20 m ρ c, entry1_main_v21 m ρ c, entry1_main_v27 m ρ c, entry1_main_arg12 m ρ c,
    entry1_main_v28 m ρ c, entry1_main_v31 m ρ c, entry1_main_v32 m ρ c, entry0_main_arg0 m ρ c, entry0_main_arg12 m ρ c,
    slice_v20 m ρ c, slice_v21 m ρ c, bias_v27 m ρ c, bias_v28 m ρ c, bias_v31 m ρ c, bias_v32 m ρ c]

/-- The kernel's first result, as the last boundary holds it. -/
theorem result_nodes (c : Dev nD) :
    W4 m ρ c (Proc.devRef .tc main_v37) = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg18)) (m ((c : Thread nD τ).loc main_arg19)) :=
  (exit_v37 m ρ c).trans (node_eq m ρ c)

/-- The kernel's second result. -/
theorem result_edges (c : Dev nD) :
    W4 m ρ c (Proc.devRef .tc main_v33_1) = val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg14)) (m ((c : Thread nD τ).loc main_arg15)) (m ((c : Thread nD τ).loc main_arg16)) (m ((c : Thread nD τ).loc main_arg17)) (m ((c : Thread nD τ).loc main_arg20)) (m ((c : Thread nD τ).loc main_arg21)) :=
  (exit_v33_1 m ρ c).trans (edge_eq m ρ c)

end Cert.KernelIdeal.Bridge

end
-- ==== Proof.lean ====
/-
  An edge-gated graph layer on 50000 nodes and 800000 edges with 64 features: the kernel program against its reference.

  Both programs gather each edge's source and destination node rows, form a gated message per edge, add the messages
  into their destination nodes, and update edges and nodes by a two-layer perceptron with a residual and a layer
  normalisation. The kernel program does the dense part in two tiled regions (edges in 125 blocks of 6400 rows, nodes in
  10 blocks of 5000 rows) and multiplies by the 64-row slices of the stacked weights separately; the reference sets the
  row blocks side by side and multiplies once by the stacked weight. Over the extended reals the two are the same
  function entry by entry: a sum over the 192 (or 128) stacked coordinates is the sum of its 64-coordinate parts, the
  logistic function is one function on both sides, and every other operation is applied in the same order. No
  finiteness of the inputs is used.

  The three frames are the programs' runs with the results dropped; the idealized kernel is the kernel's own text read
  at the extended reals, so nothing is owed for the idealization; the value claim pairs the kernel's run, with its two
  result buffers named, against the reference's run.
-/
import proofs.«172656_j21157008900637_1_alg».proof.Defs
import proofs.«172656_j21157008900637_1_alg».proof.Proof.Gen.Kernel
import proofs.«172656_j21157008900637_1_alg».proof.Proof.Gen.Kernel.Frame
import proofs.«172656_j21157008900637_1_alg».proof.Proof.Gen.KernelIdeal
import proofs.«172656_j21157008900637_1_alg».proof.Proof.Gen.KernelIdeal.Frame
import proofs.«172656_j21157008900637_1_alg».proof.Proof.Gen.ReferenceIdeal
import proofs.«172656_j21157008900637_1_alg».proof.Proof.Gen.Pre_finite_inputs
import proofs.«172656_j21157008900637_1_alg».proof.Proof.Gen.ReferenceIdeal.Run
import proofs.«172656_j21157008900637_1_alg».proof.Proof.Gen.ReferenceIdeal.Read
import proofs.«172656_j21157008900637_1_alg».proof.Proof.KernelRun
import proofs.«172656_j21157008900637_1_alg».proof.Proof.Bridge
import Idealize.ShloMosaic.Adequacy
import Idealize.ShloMosaic.Init

noncomputable section

namespace Cert.Proof

open Idealize.ShloMosaic Idealize.ShloMosaic.TcCoe Idealize.SL.Sem

/-- The kernel program as printed runs and leaves its arguments. -/
theorem frame_kernel : Cert.frame_Kernel := fun m ρ _ => Cert.Kernel.Gen.frame m ρ

/-- So does the kernel program read at the extended reals. -/
theorem frame_kernel_ideal : Cert.frame_KernelIdeal := fun m ρ _ => Cert.KernelIdeal.Gen.frame m ρ

/-- The reference's frame is its run with the two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the arguments both programs end with the same two arrays: the kernel's, as its last
    boundary holds them, are the reference's stages of the kernel's arguments, which are the reference's own. -/
theorem algebraic : Cert.algebraic_KernelIdeal_ReferenceIdeal := by
  intro m ρ m' ρ' _ hagree
  refine ⟨fun c => Cert.KernelIdeal.Gen.W4 m ρ c (Proc.devRef .tc Cert.KernelIdeal.main_v37),
    fun c => Cert.KernelIdeal.Gen.W4 m ρ c (Proc.devRef .tc Cert.KernelIdeal.main_v33_1),
    Cert.KernelIdeal.Results.run (F := Ideal) m ρ, ?_⟩
  refine (θ_run Cert.ReferenceIdeal.defs _ _).mono (fun r h c => ?_) (Cert.ReferenceIdeal.Value.run (F := Ideal) m' ρ')
  obtain ⟨h0, h1, hrest⟩ := h c
  obtain ⟨a0, a1, a2, a3, a4, a5, a6, a7, a8, a9, a10, a11, a12, a13, a14, a15, a16, a17, a18, a19, a20, a21⟩ := hagree c
  refine ⟨h0.trans ?_, h1.trans ?_, hrest⟩
  · rw [Cert.ReferenceIdeal.Read.val_main_v81_eq, a0, a1, a2, a3, a4, a5, a6, a7, a8, a9, a10, a11, a12, a13, a18, a19]
    exact (Cert.KernelIdeal.Bridge.result_nodes m ρ c).symm
  · rw [Cert.ReferenceIdeal.Read.val_main_v106_eq, a0, a1, a2, a3, a14, a15, a16, a17, a20, a21]
    exact (Cert.KernelIdeal.Bridge.result_edges m ρ c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
